-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S131072x2 : Shape := ⟨2, ![131072, 2]⟩
abbrev S8192x8192 : Shape := ⟨2, ![8192, 8192]⟩
abbrev S8192x16 : Shape := ⟨2, ![8192, 16]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S80x128 : Shape := ⟨2, ![80, 128]⟩
abbrev S64x1 : Shape := ⟨2, ![64, 1]⟩
abbrev S1 : Shape := ⟨1, ![1]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192x16 : S_.BroadcastsInDim S8192x16 (![] : Fin 0 → Fin S8192x16.rank)
  reducesTo_S8192x16_S_d0_1 : S8192x16.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S80x128 : S_.BroadcastsInDim S80x128 (![] : Fin 0 → Fin S80x128.rank)
  reducesTo_S80x128_S_d0_1 : S80x128.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg12 : FVec F S128x64 .f32) (main_arg13 : FVec F S64 .f32) (main_arg14 : FVec F S64x1 .f32) (main_arg15 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg12
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg14
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg15 main_v63 main_v67

def fn_part2 {F : FTy → Type} [FloatOps F] (main_arg8 : FVec F S64x64 .f32) (main_arg9 : FVec F S64 .f32) (main_arg10 : FVec F S80x128 .f32) (main_arg11 : FVec F S128 .f32) (main_arg12 : FVec F S128x64 .f32) (main_arg13 : FVec F S64 .f32) (main_arg14 : FVec F S64x1 .f32) (main_arg15 : FVec F S1 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S80x128 .f32 := Host.absf main_arg10
  let main_cst_16 : FVec F S_ .f32 := constant S_ .f32 0x7F800000#32
  let main_v45 : FVec F S80x128 .f32 := broadcastInDim S80x128 ![] bcast_S_S80x128 main_cst_16
  let main_v46 : IVec S80x128 1 := cmpf .olt main_v44 main_v45
  let main_c_17 : IVec S_ 1 := constantI S_ 1 1#1
  let main_v47 : IVec S_ 1 := (fun x v => Host.reduce IntOp.andi x v reducesTo_S80x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S128x64 .f32) (main_arg7 : FVec F S64 .f32) (main_arg8 : FVec F S64x64 .f32) (main_arg9 : FVec F S64 .f32) (main_arg10 : FVec F S80x128 .f32) (main_arg11 : FVec F S128 .f32) (main_arg12 : FVec F S128x64 .f32) (main_arg13 : FVec F S64 .f32) (main_arg14 : FVec F S64x1 .f32) (main_arg15 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S8192x64 .f32) (main_arg1 : IVec S131072x2 32) (main_arg2 : FVec F S8192x8192 .f32) (main_arg3 : FVec F S8192x16 .f32) (main_arg4 : FVec F S64x128 .f32) (main_arg5 : FVec F S128 .f32) (main_arg6 : FVec F S128x64 .f32) (main_arg7 : FVec F S64 .f32) (main_arg8 : FVec F S64x64 .f32) (main_arg9 : FVec F S64 .f32) (main_arg10 : FVec F S80x128 .f32) (main_arg11 : FVec F S128 .f32) (main_arg12 : FVec F S128x64 .f32) (main_arg13 : FVec F S64 .f32) (main_arg14 : FVec F S64x1 .f32) (main_arg15 : FVec F S1 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x8192 .f32 := Host.absf main_arg2
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x16 .f32 := Host.absf main_arg3
  let main_cst_2 : FVec F S_ .f32 := constant S_ .f32 0x7F800000#32
  let main_v10 : FVec F S8192x16 .f32 := broadcastInDim S8192x16 ![] bcast_S_S8192x16 main_cst_2
  let main_v11 : IVec S8192x16 1 := cmpf .olt main_v9 main_v10
  let main_c_3 : IVec S_ 1 := constantI S_ 1 1#1
  let main_v12 : IVec S_ 1 := (fun x v => Host.reduce IntOp.andi x v reducesTo_S8192x16_S_d0_1 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S8192x64 : Shape := ⟨2, ![8192, 64]⟩
abbrev S131072x2 : Shape := ⟨2, ![131072, 2]⟩
abbrev S8192x8192 : Shape := ⟨2, ![8192, 8192]⟩
abbrev S8192x16 : Shape := ⟨2, ![8192, 16]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S80x128 : Shape := ⟨2, ![80, 128]⟩
abbrev S64x1 : Shape := ⟨2, ![64, 1]⟩
abbrev S1 : Shape := ⟨1, ![1]⟩
abbrev S8192x128 : Shape := ⟨2, ![8192, 128]⟩
abbrev S1x128 : Shape := ⟨2, ![1, 128]⟩
abbrev S_ : Shape := ⟨0, ![]⟩
abbrev S1x64 : Shape := ⟨2, ![1, 64]⟩
abbrev S2048x1024 : Shape := ⟨2, ![2048, 1024]⟩
abbrev S2048x64 : Shape := ⟨2, ![2048, 64]⟩
abbrev S2048x128 : Shape := ⟨2, ![2048, 128]⟩
abbrev S1024x128 : Shape := ⟨2, ![1024, 128]⟩
abbrev S1x1 : Shape := ⟨2, ![1, 1]⟩
abbrev S16x128 : Shape := ⟨2, ![16, 128]⟩
abbrev S8192x1 : Shape := ⟨2, ![8192, 1]⟩
abbrev S2048x16 : Shape := ⟨2, ![2048, 16]⟩
abbrev S2048x1 : Shape := ⟨2, ![2048, 1]⟩
abbrev S1024x64 : Shape := ⟨2, ![1024, 64]⟩
abbrev S8192 : Shape := ⟨1, ![8192]⟩

abbrev nBuf : Space → Nat
  | .hbm => 33
  | .vmem => 25
  | .smem => 0
  | _ => 0

abbrev bufTy : (tb : Table) → Fin (tcTables nBuf tb) → BufTy
  | .hbm, ⟨0, _⟩ => ⟨S8192x64, .f32⟩
  | .hbm, ⟨1, _⟩ => ⟨S131072x2, .i32⟩
  | .hbm, ⟨2, _⟩ => ⟨S8192x8192, .f32⟩
  | .hbm, ⟨3, _⟩ => ⟨S8192x16, .f32⟩
  | .hbm, ⟨4, _⟩ => ⟨S64x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S80x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S64x1, .f32⟩
  | .hbm, ⟨15, _⟩ => ⟨S1, .f32⟩
  | .hbm, ⟨16, _⟩ => ⟨S8192x128, .f32⟩
  | .hbm, ⟨17, _⟩ => ⟨S1x128, .f32⟩
  | .hbm, ⟨18, _⟩ => ⟨S8192x128, .f32⟩
  | .hbm, ⟨19, _⟩ => ⟨S8192x128, .f32⟩
  | .hbm, ⟨20, _⟩ => ⟨S_, .f32⟩
  | .hbm, ⟨21, _⟩ => ⟨S8192x128, .f32⟩
  | .hbm, ⟨22, _⟩ => ⟨S8192x128, .f32⟩
  | .hbm, ⟨23, _⟩ => ⟨S1x64, .f32⟩
  | .hbm, ⟨24, _⟩ => ⟨S8192x64, .f32⟩
  | .hbm, ⟨25, _⟩ => ⟨S1x64, .f32⟩
  | .hbm, ⟨26, _⟩ => ⟨S1x128, .f32⟩
  | .hbm, ⟨27, _⟩ => ⟨S1x64, .f32⟩
  | .hbm, ⟨28, _⟩ => ⟨S1x1, .f32⟩
  | .hbm, ⟨29, _⟩ => ⟨S64x128, .f32⟩
  | .hbm, ⟨30, _⟩ => ⟨S16x128, .f32⟩
  | .hbm, ⟨31, _⟩ => ⟨S8192x1, .f32⟩
  | .hbm, ⟨32, _⟩ => ⟨S8192, .f32⟩
  | .local _ .vmem, ⟨0, _⟩ => ⟨S2048x1024, .f32⟩
  | .local _ .vmem, ⟨1, _⟩ => ⟨S2048x1024, .f32⟩
  | .local _ .vmem, ⟨2, _⟩ => ⟨S8192x128, .f32⟩
  | .local _ .vmem, ⟨3, _⟩ => ⟨S128x64, .f32⟩
  | .local _ .vmem, ⟨4, _⟩ => ⟨S1x64, .f32⟩
  | .local _ .vmem, ⟨5, _⟩ => ⟨S2048x64, .f32⟩
  | .local _ .vmem, ⟨6, _⟩ => ⟨S2048x64, .f32⟩
  | .local _ .vmem, ⟨7, _⟩ => ⟨S2048x128, .f32⟩
  | .local _ .vmem, ⟨8, _⟩ => ⟨S2048x1024, .f32⟩
  | .local _ .vmem, ⟨9, _⟩ => ⟨S2048x1024, .f32⟩
  | .local _ .vmem, ⟨10, _⟩ => ⟨S8192x64, .f32⟩
  | .local _ .vmem, ⟨11, _⟩ => ⟨S64x64, .f32⟩
  | .local _ .vmem, ⟨12, _⟩ => ⟨S1x64, .f32⟩
  | .local _ .vmem, ⟨13, _⟩ => ⟨S2048x16, .f32⟩
  | .local _ .vmem, ⟨14, _⟩ => ⟨S2048x16, .f32⟩
  | .local _ .vmem, ⟨15, _⟩ => ⟨S64x128, .f32⟩
  | .local _ .vmem, ⟨16, _⟩ => ⟨S16x128, .f32⟩
  | .local _ .vmem, ⟨17, _⟩ => ⟨S1x128, .f32⟩
  | .local _ .vmem, ⟨18, _⟩ => ⟨S128x64, .f32⟩
  | .local _ .vmem, ⟨19, _⟩ => ⟨S1x64, .f32⟩
  | .local _ .vmem, ⟨20, _⟩ => ⟨S64x1, .f32⟩
  | .local _ .vmem, ⟨21, _⟩ => ⟨S1x1, .f32⟩
  | .local _ .vmem, ⟨22, _⟩ => ⟨S2048x1, .f32⟩
  | .local _ .vmem, ⟨23, _⟩ => ⟨S2048x1, .f32⟩
  | .local _ .vmem, ⟨24, _⟩ => ⟨S2048x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg12_1 : Ref sig .tc := ⟨.vmem, 23, rfl⟩
abbrev cc1_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem12_0 : DmaSem sig := 21
abbrev cc1_sem12_1 : DmaSem sig := 22

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 8], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_7 : BitVec 32 := 0#32
  let v19 : BitVec 1 := Scalar.cmpi .ne v18 c0_i32_7
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2048x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S16x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S128x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S64x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 2 → Memref sig .tc .vmem S2048x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  shapeCasts_S64_S1x64 : S64.ShapeCasts S1x64
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  h_S1024x128 : 0 < S1024x128.numel
  shapeCasts_S1024x128_S1024x128 : S1024x128.ShapeCasts S1024x128
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  shapeCasts_S128_S1x128 : S128.ShapeCasts S1x128
  shapeCasts_S1_S1x1 : S1.ShapeCasts S1x1
  slices_S80x128_S64x128_0_0 : S80x128.Slices ![0, 0] S64x128
  slices_S80x128_S16x128_64_0 : S80x128.Slices ![64, 0] S16x128
  shapeCasts_S2048x64_S2048x64 : S2048x64.ShapeCasts S2048x64
  h_S1024x64 : 0 < S1024x64.numel
  shapeCasts_S1024x64_S1024x64 : S1024x64.ShapeCasts S1024x64
  inb_S64x64_S64x64_0_0 : ∀ a, (![0, 0] : Fin 2 → Nat) a + S64x64.size a ≤ S64x64.size a
  h_S64x64 : 0 < S64x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S2048x16_S2048x16_0_0 : ∀ a, (![0, 0] : Fin 2 → Nat) a + S2048x16.size a ≤ S2048x16.size a
  h_S2048x16 : 0 < S2048x16.numel
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S8192x1_S8192 : S8192x1.ShapeCasts S8192
  dot_S8192x64_S64x128_S8192x128_1_0_0_1_n_n_wf : DotDims.WF S8192x64 S64x128 S8192x128 [1] [0] [0] [1] [] []
  dot_S2048x1024_S1024x128_S2048x128_1_0_0_1_n_n_wf : DotDims.WF S2048x1024 S1024x128 S2048x128 [1] [0] [0] [1] [] []
  dot_S2048x128_S128x64_S2048x64_1_0_0_1_n_n_wf : DotDims.WF S2048x128 S128x64 S2048x64 [1] [0] [0] [1] [] []
  dot_S2048x1024_S1024x64_S2048x64_1_0_0_1_n_n_wf : DotDims.WF S2048x1024 S1024x64 S2048x64 [1] [0] [0] [1] [] []
  dot_S2048x64_S64x64_S2048x64_1_0_0_1_n_n_wf : DotDims.WF S2048x64 S64x64 S2048x64 [1] [0] [0] [1] [] []
  dot_S2048x64_S64x128_S2048x128_1_0_0_1_n_n_wf : DotDims.WF S2048x64 S64x128 S2048x128 [1] [0] [0] [1] [] []
  dot_S2048x16_S16x128_S2048x128_1_0_0_1_n_n_wf : DotDims.WF S2048x16 S16x128 S2048x128 [1] [0] [0] [1] [] []
  dot_S2048x64_S64x1_S2048x1_1_0_0_1_n_n_wf : DotDims.WF S2048x64 S64x1 S2048x1 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x8192.size a
  hwx0_0 : ∀ i : grid0.Coords, EltTy.bits .f32 = 32 ∨ (Rect.block (s := S8192x8192) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S8192x64.size a
  hwx0_4 : ∀ i : grid0.Coords, EltTy.bits .f32 = 32 ∨ (Rect.block (s := S8192x64) S2048x64.size (cc0_transform_4 i) (hinb0_4 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x64.size a ≤ S8192x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x8192.size a
  hwx1_0 : ∀ i : grid1.Coords, EltTy.bits .f32 = 32 ∨ (Rect.block (s := S8192x8192) S2048x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S8192x64.size a
  hwx1_1 : ∀ i : grid1.Coords, EltTy.bits .f32 = 32 ∨ (Rect.block (s := S8192x64) S8192x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x16.size a ≤ S8192x16.size a
  hwx1_4 : ∀ i : grid1.Coords, EltTy.bits .f32 = 32 ∨ (Rect.block (s := S8192x16) S2048x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x128.size a
  hwx1_5 : ∀ i : grid1.Coords, EltTy.bits .f32 = 32 ∨ (Rect.block (s := S64x128) S64x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16x128.size a ≤ S16x128.size a
  hwx1_6 : ∀ i : grid1.Coords, EltTy.bits .f32 = 32 ∨ (Rect.block (s := S16x128) S16x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x64.size a ≤ S128x64.size a
  hwx1_8 : ∀ i : grid1.Coords, EltTy.bits .f32 = 32 ∨ (Rect.block (s := S128x64) S128x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64x1.size a ≤ S64x1.size a
  hwx1_10 : ∀ i : grid1.Coords, EltTy.bits .f32 = 32 ∨ (Rect.block (s := S64x1) S64x1.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x1.size a ≤ S1x1.size a
  hwx1_11 : ∀ i : grid1.Coords, EltTy.bits .f32 = 32 ∨ (Rect.block (s := S1x1) S1x1.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S2048x1.size a ≤ S8192x1.size a
  hwx1_12 : ∀ i : grid1.Coords, EltTy.bits .f32 = 32 ∨ (Rect.block (s := S8192x1) S2048x1.size (cc1_transform_12 i) (hinb1_12 i)).WholeWords (EltTy.packing .f32)

variable [Facts₀]

def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S2048x16_S16x128_S2048x128_1_0_0_1_n_n : DotDims S2048x16 S16x128 S2048x128 where
  lhsContracting := [1]
  rhsContracting := [0]
  lhsNonContracting := [0]
  rhsNonContracting := [1]
  lhsBatch := []
  rhsBatch := []
  wf := dot_S2048x16_S16x128_S2048x128_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win0_0 : Pipeline.Window sig grid0 :=
  Pipeline.Window.ofSpec (Memref.whole main_arg2) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg2) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S8192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S2048x16.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v11) S64x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S16x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v8) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg12) S128x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v9) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg14) S64x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v10) S1x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v13) S2048x1.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev idle1 : Fin 13 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k1_cond2 i == 1#1) | ⟨_ + 13, h⟩ => absurd h (Nat.not_lt.2 (Nat.le_add_left _ _))

class Facts : Prop extends Facts₀ where

variable [Facts]
-- ==== ReferenceIdeal.lean ====
abbrev S8192x64 : Shape := ⟨2, ![8192, 64]⟩
abbrev S131072x2 : Shape := ⟨2, ![131072, 2]⟩
abbrev S8192x8192 : Shape := ⟨2, ![8192, 8192]⟩
abbrev S8192x16 : Shape := ⟨2, ![8192, 16]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S80x128 : Shape := ⟨2, ![80, 128]⟩
abbrev S64x1 : Shape := ⟨2, ![64, 1]⟩
abbrev S1 : Shape := ⟨1, ![1]⟩
abbrev S8192x128 : Shape := ⟨2, ![8192, 128]⟩
abbrev S1x128 : Shape := ⟨2, ![1, 128]⟩
abbrev S_ : Shape := ⟨0, ![]⟩
abbrev S1x64 : Shape := ⟨2, ![1, 64]⟩
abbrev S8192x80 : Shape := ⟨2, ![8192, 80]⟩
abbrev S8192x1 : Shape := ⟨2, ![8192, 1]⟩
abbrev S1x1 : Shape := ⟨2, ![1, 1]⟩
abbrev S8192 : Shape := ⟨1, ![8192]⟩

abbrev nBuf : Space → Nat
  | .hbm => 56
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S131072x2, .i32⟩
  | .hbm, ⟨2, _⟩ => ⟨S8192x8192, .f32⟩
  | .hbm, ⟨3, _⟩ => ⟨S8192x16, .f32⟩
  | .hbm, ⟨4, _⟩ => ⟨S64x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S80x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S64x1, .f32⟩
  | .hbm, ⟨15, _⟩ => ⟨S1, .f32⟩
  | .hbm, ⟨16, _⟩ => ⟨S8192x128, .f32⟩
  | .hbm, ⟨17, _⟩ => ⟨S1x128, .f32⟩
  | .hbm, ⟨18, _⟩ => ⟨S8192x128, .f32⟩
  | .hbm, ⟨19, _⟩ => ⟨S8192x128, .f32⟩
  | .hbm, ⟨20, _⟩ => ⟨S_, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x64, .f32⟩
  | .hbm, ⟨25, _⟩ => ⟨S1x64, .f32⟩
  | .hbm, ⟨26, _⟩ => ⟨S8192x64, .f32⟩
  | .hbm, ⟨27, _⟩ => ⟨S8192x64, .f32⟩
  | .hbm, ⟨28, _⟩ => ⟨S_, .f32⟩
  | .hbm, ⟨29, _⟩ => ⟨S8192x64, .f32⟩
  | .hbm, ⟨30, _⟩ => ⟨S8192x64, .f32⟩
  | .hbm, ⟨31, _⟩ => ⟨S8192x64, .f32⟩
  | .hbm, ⟨32, _⟩ => ⟨S8192x64, .f32⟩
  | .hbm, ⟨33, _⟩ => ⟨S1x64, .f32⟩
  | .hbm, ⟨34, _⟩ => ⟨S8192x64, .f32⟩
  | .hbm, ⟨35, _⟩ => ⟨S8192x64, .f32⟩
  | .hbm, ⟨36, _⟩ => ⟨S8192x80, .f32⟩
  | .hbm, ⟨37, _⟩ => ⟨S8192x128, .f32⟩
  | .hbm, ⟨38, _⟩ => ⟨S1x128, .f32⟩
  | .hbm, ⟨39, _⟩ => ⟨S8192x128, .f32⟩
  | .hbm, ⟨40, _⟩ => ⟨S8192x128, .f32⟩
  | .hbm, ⟨41, _⟩ => ⟨S_, .f32⟩
  | .hbm, ⟨42, _⟩ => ⟨S8192x128, .f32⟩
  | .hbm, ⟨43, _⟩ => ⟨S8192x128, .f32⟩
  | .hbm, ⟨44, _⟩ => ⟨S8192x64, .f32⟩
  | .hbm, ⟨45, _⟩ => ⟨S1x64, .f32⟩
  | .hbm, ⟨46, _⟩ => ⟨S8192x64, .f32⟩
  | .hbm, ⟨47, _⟩ => ⟨S8192x64, .f32⟩
  | .hbm, ⟨48, _⟩ => ⟨S_, .f32⟩
  | .hbm, ⟨49, _⟩ => ⟨S8192x64, .f32⟩
  | .hbm, ⟨50, _⟩ => ⟨S8192x64, .f32⟩
  | .hbm, ⟨51, _⟩ => ⟨S8192x1, .f32⟩
  | .hbm, ⟨52, _⟩ => ⟨S1x1, .f32⟩
  | .hbm, ⟨53, _⟩ => ⟨S8192x1, .f32⟩
  | .hbm, ⟨54, _⟩ => ⟨S8192x1, .f32⟩
  | .hbm, ⟨55, _⟩ => ⟨S8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_cst : Ref sig .tc := ⟨.hbm, 28, rfl⟩
abbrev main_call1_v0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call2_cst : Ref sig .tc := ⟨.hbm, 41, rfl⟩
abbrev main_call2_v0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call3_cst : Ref sig .tc := ⟨.hbm, 48, rfl⟩
abbrev main_call3_v0 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  concatenates_S8192x64_S8192x16_S8192x80_d1 : Shape.Concatenates [S8192x64, S8192x16] S8192x80 1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  dot_S8192x64_S64x128_S8192x128_1_0_0_1_n_n_wf : DotDims.WF S8192x64 S64x128 S8192x128 [1] [0] [0] [1] [] []
  dot_S8192x8192_S8192x128_S8192x128_1_0_0_1_n_n_wf : DotDims.WF S8192x8192 S8192x128 S8192x128 [1] [0] [0] [1] [] []
  dot_S8192x128_S128x64_S8192x64_1_0_0_1_n_n_wf : DotDims.WF S8192x128 S128x64 S8192x64 [1] [0] [0] [1] [] []
  dot_S8192x8192_S8192x64_S8192x64_1_0_0_1_n_n_wf : DotDims.WF S8192x8192 S8192x64 S8192x64 [1] [0] [0] [1] [] []
  dot_S8192x64_S64x64_S8192x64_1_0_0_1_n_n_wf : DotDims.WF S8192x64 S64x64 S8192x64 [1] [0] [0] [1] [] []
  dot_S8192x80_S80x128_S8192x128_1_0_0_1_n_n_wf : DotDims.WF S8192x80 S80x128 S8192x128 [1] [0] [0] [1] [] []
  dot_S8192x64_S64x1_S8192x1_1_0_0_1_n_n_wf : DotDims.WF S8192x64 S64x1 S8192x1 [1] [0] [0] [1] [] []

variable [Facts₀]

def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x80_S80x128_S8192x128_1_0_0_1_n_n : DotDims S8192x80 S80x128 S8192x128 where
  lhsContracting := [1]
  rhsContracting := [0]
  lhsNonContracting := [0]
  rhsNonContracting := [1]
  lhsBatch := []
  rhsBatch := []
  wf := dot_S8192x80_S80x128_S8192x128_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf

class Facts : Prop extends Facts₀ where

variable [Facts]
-- ==== Proof.K.RunCond.lean ====
/-
  The whole run of the program, conditional on its two kernel regions.

  @main is three stretches of host operations, the first aggregation kernel, a stretch, the second aggregation kernel and a
  last reshape. Between two items every unscoped buffer is held whole at a valuation: the launch memory pushed through the
  host stretches, with each region's result array replaced by what that region leaves. Given each region as a segment
  record between the valuation before it and the one after it, the program runs to its end and every unscoped buffer —
  the argument arrays and the result alike — holds the last valuation.
-/
import proofs.«144529_j62285615727119_2_alg».proof.Proof.Gen.Kernel.Regions
import Idealize.ShloMosaic.Lib.Pipeline.Frame
import Idealize.ShloMosaic.Lib.Pipeline.Regions

noncomputable section

namespace Cert.Kernel.Hand

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The run of @main read at EVERY unscoped buffer: given, per region, a segment record entered from the thread state before
    it and left at the one after it, every weakly fair execution of @main from memory `m` with zero counters terminates
    and every final memory holds each unscoped buffer at the last valuation `V7 m outs c` (the launch contents pushed through
    the host stretches and the regions' results `outs`). The argument arrays and the result are then read off `V7`. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c)) :
    θ_run defs (onTc (τ := τ) (main (F := F))) ⟨m, fun _ => 0, ρ⟩ (fun r => ∀ c : Dev nD,
      ∀ b ∈ Pipeline.ucRefs τ sig, r.2.mem ((c : Thread nD τ).1, b) = V7 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨.rfl, .rfl, .rfl, hpre0 c, hpost0 c, hpre1 c, hpost1 c, sep_mono .rfl (hE2 c)⟩)
    (hinit := ?_) (QY := fun c s => ∀ b ∈ Pipeline.ucRefs τ sig, s.mem ((c : Thread nD τ).1, b) = V7 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V7 m outs c) s') $$ [Hh HSI]
    · isplitl [Hh] <;> iassumption
    icases Hr with ⟨%h, HSI⟩
    imodintro
    isplitr
    · ipureintro
      exact h
    · iexact HSI

end Cert.Kernel.Hand

end
-- ==== Proof.K.R0Shared.lean ====
import proofs.«144529_j62285615727119_2_alg».proof.Proof.Gen.Kernel.Launch
import proofs.«144529_j62285615727119_2_alg».proof.Proof.Gen.Kernel.Skeleton
import proofs.«144529_j62285615727119_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of full extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the first aggregation kernel on its grid of 4 row tiles by 8 contraction tiles

What the three whole-body runs of region 0 and its frame half share, at a parameter `V`: the TensorCore's buffer
contents when the region is entered. -/

section Region0
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where it is not fetched
    the block index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): where it is not fetched
    the block index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): where it is not fetched
    the block index has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): where it is not fetched
    the block index has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions -/

/-- The condition of the body's first `scf.if` (zero the accumulator), from the grid coordinates. -/
abbrev cond0_0 (i : grid0.Coords) : Prop := (Scalar.cmpi .ne (Scalar.extui (Scalar.cmpi .eq (BitVec.ofNat 32 (i 1).val) 0#32)) 0#32) = 1#1
/-- It holds at the points whose contraction index is 0, the points ≡ 0 (mod 8) — decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's second `scf.if` (the epilogue), from the grid coordinates. -/
abbrev cond0_1 (i : grid0.Coords) : Prop := k0_cond2 i = 1#1
/-- It holds at the points whose contraction index is 7, the points ≡ 7 (mod 8) — decided over the grid. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- Windows 0 to 3 are inputs: never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the contraction index is 0 the body stores nothing into the output window: it is idle there, -/
theorem idleAt0_4_A : ∀ t : Fin cfg0.N, cond0_0 (grid0.coords t) → ¬cond0_1 (grid0.coords t) → cfg0.idle 4 (grid0.coords t) = true := by decide +kernel
/-- and its block is not written back there. -/
theorem noFlush0_4_A : ∀ t : Fin cfg0.N, cond0_0 (grid0.coords t) → ¬cond0_1 (grid0.coords t) → (cfg0.win 4).flush t = false := by decide +kernel
/-- Where the contraction index is strictly between 0 and 7 likewise: idle, -/
theorem idleAt0_4_B : ∀ t : Fin cfg0.N, ¬cond0_0 (grid0.coords t) → ¬cond0_1 (grid0.coords t) → cfg0.idle 4 (grid0.coords t) = true := by decide +kernel
/-- and not written back. -/
theorem noFlush0_4_B : ∀ t : Fin cfg0.N, ¬cond0_0 (grid0.coords t) → ¬cond0_1 (grid0.coords t) → (cfg0.win 4).flush t = false := by decide +kernel
/-- Where the contraction index is 7 the epilogue stores the output block: the window is live. -/
theorem liveAt0_4_C : ∀ t : Fin cfg0.N, ¬cond0_0 (grid0.coords t) → cond0_1 (grid0.coords t) → cfg0.idle 4 (grid0.coords t) = false := by decide +kernel

/-! ## The staging and scratch memrefs -/

/-- One staging buffer of the output window, through which its contents are stated (the choice does not matter). -/
abbrev VO0_4 : View sig .tc .vmem S2048x64 .f32 := (Memref.whole cc0_stg4_0 : Memref sig .tc .vmem S2048x64 .f32).view
/-- Each window's current staging memref at point `t`, as the pipeline passes it to the body, and its wholeness. -/
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x64 .f32 := win0_4.stage (cfg0.slots t 4)
abbrev hs0_4 (t : Fin cfg0.N) : (ms0_4 t).IsWhole := hstage0_4 ((cfg0.slots t 4).cast nbuf0_4)
/-- The scratch accumulator: a whole scoped buffer of the kernel's own, passed beside the windows. -/
abbrev scM0_0 : Memref sig .tc .vmem S2048x128 .f32 := Memref.whole cc0_scratch0
/-- The same as a view: what the accumulator holds between points is stated through it. -/
abbrev VS0_0 : View sig .tc .vmem S2048x128 .f32 := scM0_0.view

/-- A scoped buffer of the core at some contents. -/
abbrev anyAt0 (c : Dev nD) (b : Ref sig .tc) : sProp 𝕄 :=
  iprop(∃ f : Buf (Elt F) ((c : Thread nD τ).loc b), ((c : Thread nD τ).loc b) ↦{fullShare} f)

/-- The core's scoped buffers that are neither a staging buffer of region 0 nor its accumulator (they belong to the
    other region), each at some contents: region 0 never touches them. -/
def rest0 (c : Dev nD) : sProp 𝕄 :=
  iprop(anyAt0 (F := F) c cc1_stg0_0 ∗ anyAt0 (F := F) c cc1_stg0_1 ∗ anyAt0 (F := F) c cc1_stg1_0 ∗ anyAt0 (F := F) c cc1_stg2_0 ∗ anyAt0 (F := F) c cc1_stg3_0 ∗ anyAt0 (F := F) c cc1_stg4_0 ∗ anyAt0 (F := F) c cc1_stg4_1 ∗ anyAt0 (F := F) c cc1_stg5_0 ∗ anyAt0 (F := F) c cc1_stg6_0 ∗ anyAt0 (F := F) c cc1_stg7_0 ∗ anyAt0 (F := F) c cc1_stg8_0 ∗ anyAt0 (F := F) c cc1_stg9_0 ∗ anyAt0 (F := F) c cc1_stg10_0 ∗ anyAt0 (F := F) c cc1_stg11_0 ∗ anyAt0 (F := F) c cc1_stg12_0 ∗ anyAt0 (F := F) c cc1_stg12_1 ∗ anyAt0 (F := F) c cc1_scratch0)

/-- The region invariant of the class with the accumulator as a memref owned at some contents: what the body
    obligation hands the run and takes back. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA rest0; rw [scopedRest0_eq]; simp only [scM0_0, owns_whole]; try rfl

end Cert.Kernel.Hand

end
-- ==== Proof.K.R0RunA.lean ====
import proofs.«144529_j62285615727119_2_alg».proof.Proof.K.R0Shared

-- membership in a rectangle of full extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0, the whole body where the contraction index is 0 -/

-- (the run's proof term is large: the definition's epilogue walks it past the default budget)
set_option maxHeartbeats 1000000 in
/-- What the body's stores leave in the output's staging memref and in the accumulator, as pieces (last first), where the
    first `scf.if` is taken and the second is not (contraction index 0), with the proof that on whole staging memrefs — the
    inputs' at their contents, the output's (no store: idle and not written back at these points) at contents `xi4` handed back
    untouched, the accumulator at anything (it is loaded once before the zero store; that value is unused) — the body runs to
    the continuation holding the inputs' as they were and the accumulator with its pieces written (`LS0`): first the zero
    splat, then the sum of that and the product of the adjacency tile with the row slice of `x`. The pieces are the witness
    the run finds. -/
noncomputable def kernelRun0_A (c : Dev nD) (i : grid0.Coords) (arg2 : Memref sig .tc .vmem S2048x1024 .f32) (harg2 : arg2.IsWhole) (arg3 : Memref sig .tc .vmem S8192x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x128 .f32) (harg7 : arg7.IsWhole) (hc0 : cond0_0 i) (hc1 : ¬cond0_1 i)
    (x0 : Vec F S2048x1024 .f32) (x1 : Vec F S8192x128 .f32) (x2 : Vec F S128x64 .f32) (x3 : Vec F S1x64 .f32) :
    Σ' (L4 : List (View.Piece (Elt F) S2048x64 .f32)), { LS0 : List (View.Piece (Elt F) S2048x128 .f32) //
      ∀ (xi4 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__agg1_fuse_kernel i arg2 harg2 arg3 harg3 arg4 harg4 arg5 harg5 arg6 harg6 arg7 harg7) K } := by
  refine ⟨[], ?_, fun xi4 E K => ?run⟩
  case run =>
    simp only [cc0__agg1_fuse_kernel_eq_skeleton]; unfold cc0__agg1_fuse_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.R0RunB.lean ====
import proofs.«144529_j62285615727119_2_alg».proof.Proof.K.R0RunA

-- membership in a rectangle of full extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0, the whole body where the contraction index is strictly between 0 and 7 -/

-- (the run's proof term is large: the definition's epilogue walks it past the default budget)
set_option maxHeartbeats 1000000 in
/-- What the body's stores leave in the output's staging memref and in the accumulator, as pieces (last first), where neither
    `scf.if` is taken (contraction index 1 to 6), with the proof that on whole staging memrefs — the inputs' at their contents,
    the output's (no store: idle and not written back at these points) at contents `xi4` handed back untouched, the accumulator
    at what the point before left (`xs0`) — the body runs to the continuation holding the inputs' as they were and the
    accumulator with its piece written (`LS0`): `xs0` plus the product of the adjacency tile with the row slice of `x`.
    The pieces are the witness the run finds. -/
noncomputable def kernelRun0_B (c : Dev nD) (i : grid0.Coords) (arg2 : Memref sig .tc .vmem S2048x1024 .f32) (harg2 : arg2.IsWhole) (arg3 : Memref sig .tc .vmem S8192x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x128 .f32) (harg7 : arg7.IsWhole) (hc0 : ¬cond0_0 i) (hc1 : ¬cond0_1 i)
    (x0 : Vec F S2048x1024 .f32) (x1 : Vec F S8192x128 .f32) (x2 : Vec F S128x64 .f32) (x3 : Vec F S1x64 .f32) (xs0 : Vec F S2048x128 .f32) :
    Σ' (L4 : List (View.Piece (Elt F) S2048x64 .f32)), { LS0 : List (View.Piece (Elt F) S2048x128 .f32) //
      ∀ (xi4 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__agg1_fuse_kernel i arg2 harg2 arg3 harg3 arg4 harg4 arg5 harg5 arg6 harg6 arg7 harg7) K } := by
  refine ⟨[], ?_, fun xi4 E K => ?run⟩
  case run =>
    simp only [cc0__agg1_fuse_kernel_eq_skeleton]; unfold cc0__agg1_fuse_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.R0RunC.lean ====
import proofs.«144529_j62285615727119_2_alg».proof.Proof.K.R0RunB

-- membership in a rectangle of full extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0, the whole body where the contraction index is 7 -/

-- (the run's proof term is large: the definition's epilogue walks it past the default budget)
set_option maxHeartbeats 1000000 in
/-- What the body's stores leave in the output's staging memref and in the accumulator, as pieces (last first), where the
    first `scf.if` is not taken and the second is (contraction index 7), with the proof that on whole staging memrefs — the
    inputs' at their contents, the output's at anything (it is loaded once before its store; that value is unused), the
    accumulator at what the point before left (`xs0`) — the body runs to the continuation holding the inputs' as they were,
    the accumulator with its piece written (`LS0`: `xs0` plus the last product) and the output's buffer with its piece
    written (`L4`: the epilogue of the finished accumulator). The pieces are the witness the run finds. -/
noncomputable def kernelRun0_C (c : Dev nD) (i : grid0.Coords) (arg2 : Memref sig .tc .vmem S2048x1024 .f32) (harg2 : arg2.IsWhole) (arg3 : Memref sig .tc .vmem S8192x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x128 .f32) (harg7 : arg7.IsWhole) (hc0 : ¬cond0_0 i) (hc1 : cond0_1 i)
    (x0 : Vec F S2048x1024 .f32) (x1 : Vec F S8192x128 .f32) (x2 : Vec F S128x64 .f32) (x3 : Vec F S1x64 .f32) (xs0 : Vec F S2048x128 .f32) :
    Σ' (L4 : List (View.Piece (Elt F) S2048x64 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__agg1_fuse_kernel i arg2 harg2 arg3 harg3 arg4 harg4 arg5 harg5 arg6 harg6 arg7 harg7) K } := by
  refine ⟨?_, ?_, fun E K => ?run⟩
  case run =>
    simp only [cc0__agg1_fuse_kernel_eq_skeleton]; unfold cc0__agg1_fuse_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K.R0Frame.lean ====
import proofs.«144529_j62285615727119_2_alg».proof.Proof.K.R0RunC

-- membership in a rectangle of full extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: its half of the frame, at the entry contents `V`

What the output window's buffer and the accumulator hold per case (covers, read-backs) and point by point (`outsAt0`),
the proof data (`dat0`), the body obligation, and the invariant's two ends. -/

/-- Where the contraction index is 0 the body stores nothing into the output window (idle there and not written back): no pieces —
    a placeholder nothing consults, since at these points the window is neither written back nor read at the next point. -/
def out0_A_4 (c : Dev nD) (i : grid0.Coords) (arg2 : Memref sig .tc .vmem S2048x1024 .f32) (harg2 : arg2.IsWhole) (arg3 : Memref sig .tc .vmem S8192x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x128 .f32) (harg7 : arg7.IsWhole) (hc0 : cond0_0 i) (hc1 : ¬cond0_1 i)
    (x0 : Vec F S2048x1024 .f32) (x1 : Vec F S8192x128 .f32) (x2 : Vec F S128x64 .f32) (x3 : Vec F S1x64 .f32) : Vec F S2048x64 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Where the contraction index is 0 the body's stores into the accumulator tile it, so they cover it. -/
theorem scover0_A_0 (c : Dev nD) (i : grid0.Coords) (arg2 : Memref sig .tc .vmem S2048x1024 .f32) (harg2 : arg2.IsWhole) (arg3 : Memref sig .tc .vmem S8192x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x128 .f32) (harg7 : arg7.IsWhole) (hc0 : cond0_0 i) (hc1 : ¬cond0_1 i)
    (x0 : Vec F S2048x1024 .f32) (x1 : Vec F S8192x128 .f32) (x2 : Vec F S128x64 .f32) (x3 : Vec F S1x64 .f32) (y : S2048x128.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S2048x128.size (by sl_kernel_rfl) y

/-- What the body leaves in the accumulator where the contraction index is 0: its pieces read back. -/
def sout0_A_0 (c : Dev nD) (i : grid0.Coords) (arg2 : Memref sig .tc .vmem S2048x1024 .f32) (harg2 : arg2.IsWhole) (arg3 : Memref sig .tc .vmem S8192x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x128 .f32) (harg7 : arg7.IsWhole) (hc0 : cond0_0 i) (hc1 : ¬cond0_1 i)
    (x0 : Vec F S2048x1024 .f32) (x1 : Vec F S8192x128 .f32) (x2 : Vec F S128x64 .f32) (x3 : Vec F S1x64 .f32) : Vec F S2048x128 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- Where the contraction index is strictly between 0 and 7 the body stores nothing into the output window (idle there and not written back): no pieces —
    a placeholder nothing consults, since at these points the window is neither written back nor read at the next point. -/
def out0_B_4 (c : Dev nD) (i : grid0.Coords) (arg2 : Memref sig .tc .vmem S2048x1024 .f32) (harg2 : arg2.IsWhole) (arg3 : Memref sig .tc .vmem S8192x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x128 .f32) (harg7 : arg7.IsWhole) (hc0 : ¬cond0_0 i) (hc1 : ¬cond0_1 i)
    (x0 : Vec F S2048x1024 .f32) (x1 : Vec F S8192x128 .f32) (x2 : Vec F S128x64 .f32) (x3 : Vec F S1x64 .f32) (xs0 : Vec F S2048x128 .f32) : Vec F S2048x64 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Where the contraction index is strictly between 0 and 7 the body's stores into the accumulator tile it, so they cover it. -/
theorem scover0_B_0 (c : Dev nD) (i : grid0.Coords) (arg2 : Memref sig .tc .vmem S2048x1024 .f32) (harg2 : arg2.IsWhole) (arg3 : Memref sig .tc .vmem S8192x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x128 .f32) (harg7 : arg7.IsWhole) (hc0 : ¬cond0_0 i) (hc1 : ¬cond0_1 i)
    (x0 : Vec F S2048x1024 .f32) (x1 : Vec F S8192x128 .f32) (x2 : Vec F S128x64 .f32) (x3 : Vec F S1x64 .f32) (xs0 : Vec F S2048x128 .f32) (y : S2048x128.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S2048x128.size (by sl_kernel_rfl) y

/-- What the body leaves in the accumulator where the contraction index is strictly between 0 and 7: its pieces read back. -/
def sout0_B_0 (c : Dev nD) (i : grid0.Coords) (arg2 : Memref sig .tc .vmem S2048x1024 .f32) (harg2 : arg2.IsWhole) (arg3 : Memref sig .tc .vmem S8192x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x128 .f32) (harg7 : arg7.IsWhole) (hc0 : ¬cond0_0 i) (hc1 : ¬cond0_1 i)
    (x0 : Vec F S2048x1024 .f32) (x1 : Vec F S8192x128 .f32) (x2 : Vec F S128x64 .f32) (x3 : Vec F S1x64 .f32) (xs0 : Vec F S2048x128 .f32) : Vec F S2048x128 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- Where the contraction index is 7 the epilogue's one store covers the output block. -/
theorem cover0_C_4 (c : Dev nD) (i : grid0.Coords) (arg2 : Memref sig .tc .vmem S2048x1024 .f32) (harg2 : arg2.IsWhole) (arg3 : Memref sig .tc .vmem S8192x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x128 .f32) (harg7 : arg7.IsWhole) (hc0 : ¬cond0_0 i) (hc1 : cond0_1 i)
    (x0 : Vec F S2048x1024 .f32) (x1 : Vec F S8192x128 .f32) (x2 : Vec F S128x64 .f32) (x3 : Vec F S1x64 .f32) (xs0 : Vec F S2048x128 .f32) (y : S2048x64.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S2048x64.size (by sl_kernel_rfl) y

/-- What the body leaves in the output's staging buffer where the contraction index is 7: its pieces read back. -/
def out0_C_4 (c : Dev nD) (i : grid0.Coords) (arg2 : Memref sig .tc .vmem S2048x1024 .f32) (harg2 : arg2.IsWhole) (arg3 : Memref sig .tc .vmem S8192x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x128 .f32) (harg7 : arg7.IsWhole) (hc0 : ¬cond0_0 i) (hc1 : cond0_1 i)
    (x0 : Vec F S2048x1024 .f32) (x1 : Vec F S8192x128 .f32) (x2 : Vec F S128x64 .f32) (x3 : Vec F S1x64 .f32) (xs0 : Vec F S2048x128 .f32) : Vec F S2048x64 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Where the contraction index is 7 the body's stores into the accumulator tile it, so they cover it. -/
theorem scover0_C_0 (c : Dev nD) (i : grid0.Coords) (arg2 : Memref sig .tc .vmem S2048x1024 .f32) (harg2 : arg2.IsWhole) (arg3 : Memref sig .tc .vmem S8192x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x128 .f32) (harg7 : arg7.IsWhole) (hc0 : ¬cond0_0 i) (hc1 : cond0_1 i)
    (x0 : Vec F S2048x1024 .f32) (x1 : Vec F S8192x128 .f32) (x2 : Vec F S128x64 .f32) (x3 : Vec F S1x64 .f32) (xs0 : Vec F S2048x128 .f32) (y : S2048x128.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S2048x128.size (by sl_kernel_rfl) y

/-- What the body leaves in the accumulator where the contraction index is 7: its pieces read back. -/
def sout0_C_0 (c : Dev nD) (i : grid0.Coords) (arg2 : Memref sig .tc .vmem S2048x1024 .f32) (harg2 : arg2.IsWhole) (arg3 : Memref sig .tc .vmem S8192x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x128 .f32) (harg7 : arg7.IsWhole) (hc0 : ¬cond0_0 i) (hc1 : cond0_1 i)
    (x0 : Vec F S2048x1024 .f32) (x1 : Vec F S8192x128 .f32) (x2 : Vec F S128x64 .f32) (x3 : Vec F S1x64 .f32) (xs0 : Vec F S2048x128 .f32) : Vec F S2048x128 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

section Region0
variable (V : (c : Dev nD) → (b : Ref sig .tc) → Buf (Elt F) ((c : Thread nD τ).loc b))

/-! ## What the buffers hold after each point -/

/-- THE ACCUMULATION. What the output's staging buffer and the accumulator hold after the body at position `n` (a pair:
    the output window's buffer, then the accumulator): the case the closed forms select at `n`, run at the point's memrefs
    and input blocks, the accumulator — where the case reads it before covering it — at what the body left at `n - 1`.
    Both conditions at once is no point of the grid. -/
def outsAt0 (c : Dev nD) : (n : ℕ) → n < cfg0.N → Vec F S2048x64 .f32 × Vec F S2048x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 8 = 0 then
      if h1 : (n + 1) % 8 = 7 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

/-- `outsAt0` at a point whose contraction index is 0: that case's contents. -/
theorem outsAt0_A (c : Dev nD) (t : Fin cfg0.N) (h0 : t.val % 8 = 0) (h1 : ¬t.val % 8 = 7) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

/-- `outsAt0` at a point whose contraction index is strictly between 0 and 7: that case's contents, over what the point before left. -/
theorem outsAt0_B (c : Dev nD) (t : Fin cfg0.N) (h0 : ¬t.val % 8 = 0) (h1 : ¬t.val % 8 = 7) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point whose contraction index is 7: that case's contents, over what the point before left. -/
theorem outsAt0_C (c : Dev nD) (t : Fin cfg0.N) (h0 : ¬t.val % 8 = 0) (h1 : t.val % 8 = 7) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no staging
    buffer of the region at anything, the generator register at some state); afterwards the same with the accumulator at
    what the point before left in it (`outsAt0`'s second component). -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulator at that point's contents. -/
theorem PhiS0_succ (c : Dev nD) (n : ℕ) (hn : n < cfg0.N) :
    PhiS0 V c (n + 1) hn = iprop(iprop(owns (c : Thread nD τ) scM0_0 fullShare ((outsAt0 V c n hn).2) ∗ rest0 (F := F) c) ∗ (∃ r, prngReg c r)) := rfl

/-- Before a point that is not the first: the accumulator at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The proof data of region 0's pipeline on core `c`: the arrays as the region finds them (`V`); after the body at point
    `t` each input's buffer at its block and the output's at `outsAt0`'s first component; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

/-- The proof data's arrays are the region-entry contents (the definition projected, so that `V` is never unfolded). -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the closed forms say which case the point is in; so that
    case's run applies; the invariant hands the body the accumulator at what the point before left (at anything at the first
    point) and takes it back at this point's contents (the stores cover it); the output's buffer comes back untouched where
    the window is idle and at the epilogue's store where the contraction index is 7; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 8 = 0
  · by_cases h1 : t.val % 8 = 7
    · exfalso; omega
    · rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [outsAt0_C V c t h0 h1]
      unfold out0_C_4 sout0_C_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    · rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Region0

end Cert.Kernel.Hand

end
-- ==== Proof.K.R1Shared.lean ====
import proofs.«144529_j62285615727119_2_alg».proof.Proof.Gen.Kernel.Launch
import proofs.«144529_j62285615727119_2_alg».proof.Proof.Gen.Kernel.Skeleton
import proofs.«144529_j62285615727119_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

/-! # Region 1 (the second aggregation kernel, grid (4, 8)), at the entry contents `V`: what its three runs share -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: not fetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: not fetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: not fetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: not fetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: not fetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place: not fetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s and whose body leaves the block in place: not fetched, the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof
    data whose array is `V`'s and whose body leaves the block in place: not fetched, the block index has not moved. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for any proof
    data whose array is `V`'s and whose body leaves the block in place: not fetched, the block index has not moved. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not, for any proof
    data whose array is `V`'s and whose body leaves the block in place: not fetched, the block index has not moved. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Input window 10's current staging buffer holds its block at every point, fetched there or not, for any proof
    data whose array is `V`'s and whose body leaves the block in place: not fetched, the block index has not moved. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- Input window 11's current staging buffer holds its block at every point, fetched there or not, for any proof
    data whose array is `V`'s and whose body leaves the block in place: not fetched, the block index has not moved. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the contraction index is 0), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 8) — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second conditional (the contraction index is 7, the last), from the grid coordinates. -/
abbrev cond1_1 (i : grid1.Coords) : Prop := k1_cond2 i = 1#1
/-- It holds at the points ≡ 7 (mod 8) — decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- Window 5 is never idle (an input). -/
theorem liveAt1_5 : ∀ t : Fin cfg1.N, cfg1.idle 5 (grid1.coords t) = false := by decide +kernel
/-- Window 6 is never idle (an input). -/
theorem liveAt1_6 : ∀ t : Fin cfg1.N, cfg1.idle 6 (grid1.coords t) = false := by decide +kernel
/-- Window 7 is never idle (an input). -/
theorem liveAt1_7 : ∀ t : Fin cfg1.N, cfg1.idle 7 (grid1.coords t) = false := by decide +kernel
/-- Window 8 is never idle (an input). -/
theorem liveAt1_8 : ∀ t : Fin cfg1.N, cfg1.idle 8 (grid1.coords t) = false := by decide +kernel
/-- Window 9 is never idle (an input). -/
theorem liveAt1_9 : ∀ t : Fin cfg1.N, cfg1.idle 9 (grid1.coords t) = false := by decide +kernel
/-- Window 10 is never idle (an input). -/
theorem liveAt1_10 : ∀ t : Fin cfg1.N, cfg1.idle 10 (grid1.coords t) = false := by decide +kernel
/-- Window 11 is never idle (an input). -/
theorem liveAt1_11 : ∀ t : Fin cfg1.N, cfg1.idle 11 (grid1.coords t) = false := by decide +kernel
/-- At the points of case A (contraction index 0) output 12 is idle: the case stores nothing into it. -/
theorem idleAt1_12_A : ∀ t : Fin cfg1.N, cond1_0 (grid1.coords t) → ¬cond1_1 (grid1.coords t) → cfg1.idle 12 (grid1.coords t) = true := by decide +kernel
/-- At the points of case A output 12's block is not written back. -/
theorem noFlush1_12_A : ∀ t : Fin cfg1.N, cond1_0 (grid1.coords t) → ¬cond1_1 (grid1.coords t) → (cfg1.win 12).flush t = false := by decide +kernel
/-- At the points of case B (contraction index strictly between 0 and 7) output 12 is idle. -/
theorem idleAt1_12_B : ∀ t : Fin cfg1.N, ¬cond1_0 (grid1.coords t) → ¬cond1_1 (grid1.coords t) → cfg1.idle 12 (grid1.coords t) = true := by decide +kernel
/-- At the points of case B output 12's block is not written back. -/
theorem noFlush1_12_B : ∀ t : Fin cfg1.N, ¬cond1_0 (grid1.coords t) → ¬cond1_1 (grid1.coords t) → (cfg1.win 12).flush t = false := by decide +kernel
/-- At the points of case C (contraction index 7) output 12 is live: the case stores its block. -/
theorem liveAt1_12_C : ∀ t : Fin cfg1.N, ¬cond1_0 (grid1.coords t) → cond1_1 (grid1.coords t) → cfg1.idle 12 (grid1.coords t) = false := by decide +kernel

/-! ## The staging and scratch memrefs -/

/-- One staging buffer of output window 12, through which its contents are stated (the choice does not matter). -/
abbrev VO1_12 : View sig .tc .vmem S2048x1 .f32 := (Memref.whole cc1_stg12_0 : Memref sig .tc .vmem S2048x1 .f32).view
/-- Each window's current staging memref at point `t`, spelled as the pipeline passes it, and its wholeness. -/
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x16 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S16x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128x64 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x64 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S64x1 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x1 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S2048x1 .f32 := win1_12.stage (cfg1.slots t 12)
abbrev hs1_12 (t : Fin cfg1.N) : (ms1_12 t).IsWhole := hstage1_12 ((cfg1.slots t 12).cast nbuf1_12)
/-- The scratch operand: a whole scoped buffer of the kernel's own (the f32 accumulator), passed beside the windows. -/
abbrev scM1_0 : Memref sig .tc .vmem S2048x64 .f32 := Memref.whole cc1_scratch0
/-- The accumulator the kernel carries between points, as a view: what it holds is stated through it. -/
abbrev VS1_0 : View sig .tc .vmem S2048x64 .f32 := scM1_0.view

/-- The other scoped buffers that are no staging buffer of this region (the first region's staging buffers and its
    accumulator), each at some contents, beside `P`: the body never touches them, they ride along unchanged. -/
def rest1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ P)

/-- The region's invariant with the accumulator as a memref owned at some contents, beside the buffers the body never
    touches: what the body obligation hands the run and takes back. -/
theorem PhiA1_eq (c : Dev nD) :
    (Pipeline.ΦA spec1 c : sProp 𝕄)
      = iprop(rest1 (F := F) c iprop(∃ d, owns (c : Thread nD τ) scM1_0 fullShare d) ∗ (∃ r, prngReg c r)) := by
  unfold Pipeline.ΦA rest1; rw [scopedRest1_eq]; simp only [scM1_0, owns_whole]; try rfl

end Cert.Kernel.Hand

end
-- ==== Proof.K.R1RunA.lean ====
import proofs.«144529_j62285615727119_2_alg».proof.Proof.K.R1Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

set_option maxHeartbeats 4000000 in
/-- What the body's stores leave in the output's staging memref and in the accumulator, as pieces (last first), in case A
    (the contraction index is 0: the accumulator is zeroed, then the product of the adjacency tile with the rows of the second operand it meets is added; the output block is not stored), with the proof that on whole
    staging memrefs — the inputs' at their contents, the output's at contents handed back untouched, the accumulator at anything —
    the body runs to the continuation holding the inputs' as they were, the output's as it was and the accumulator
    with its pieces written. The pieces are the witness the run finds. -/
noncomputable def kernelRun1_A (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x16 .f32) (harg6 : arg6.IsWhole) (arg7 : Memref sig .tc .vmem S64x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S2048x1 .f32) (harg14 : arg14.IsWhole) (arg15 : Memref sig .tc .vmem S2048x64 .f32) (harg15 : arg15.IsWhole) (hc0 : cond1_0 i) (hc1 : ¬cond1_1 i)
    (x0 : Vec F S2048x1024 .f32) (x1 : Vec F S8192x64 .f32) (x2 : Vec F S64x64 .f32) (x3 : Vec F S1x64 .f32) (x4 : Vec F S2048x16 .f32) (x5 : Vec F S64x128 .f32) (x6 : Vec F S16x128 .f32) (x7 : Vec F S1x128 .f32) (x8 : Vec F S128x64 .f32) (x9 : Vec F S1x64 .f32) (x10 : Vec F S64x1 .f32) (x11 : Vec F S1x1 .f32) :
    Σ' (L12 : List (View.Piece (Elt F) S2048x1 .f32)), { LS0 : List (View.Piece (Elt F) S2048x64 .f32) //
      ∀ (xi12 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ (∃ f, arg15.view.loc (c : Thread nD τ) ↦[arg15.view.set]{fullShare} arg15.view.writes (Elt F) f LS0)) -∗ K ⟨⟩))
          ⊢ wp frame (wpE (defs₀ (F := F)) Variants.none c none) E (cc1__agg2_fuse_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, fun xi12 E K => ?run⟩
  case run =>
    simp only [cc1__agg2_fuse_kernel_eq_skeleton]; unfold cc1__agg2_fuse_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    iexists _; iexact HS0

end Cert.Kernel.Hand

end
-- ==== Proof.K.R1RunB.lean ====
import proofs.«144529_j62285615727119_2_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

set_option maxHeartbeats 4000000 in
/-- What the body's stores leave in the output's staging memref and in the accumulator, as pieces (last first), in case B
    (the contraction index is strictly between 0 and 7: the product is added to the accumulator; the output block is not stored), with the proof that on whole
    staging memrefs — the inputs' at their contents, the output's at contents handed back untouched, the accumulator at what the point before left —
    the body runs to the continuation holding the inputs' as they were, the output's as it was and the accumulator
    with its pieces written. The pieces are the witness the run finds. -/
noncomputable def kernelRun1_B (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x16 .f32) (harg6 : arg6.IsWhole) (arg7 : Memref sig .tc .vmem S64x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S2048x1 .f32) (harg14 : arg14.IsWhole) (arg15 : Memref sig .tc .vmem S2048x64 .f32) (harg15 : arg15.IsWhole) (hc0 : ¬cond1_0 i) (hc1 : ¬cond1_1 i)
    (x0 : Vec F S2048x1024 .f32) (x1 : Vec F S8192x64 .f32) (x2 : Vec F S64x64 .f32) (x3 : Vec F S1x64 .f32) (x4 : Vec F S2048x16 .f32) (x5 : Vec F S64x128 .f32) (x6 : Vec F S16x128 .f32) (x7 : Vec F S1x128 .f32) (x8 : Vec F S128x64 .f32) (x9 : Vec F S1x64 .f32) (x10 : Vec F S64x1 .f32) (x11 : Vec F S1x1 .f32) (xs0 : Vec F S2048x64 .f32) :
    Σ' (L12 : List (View.Piece (Elt F) S2048x1 .f32)), { LS0 : List (View.Piece (Elt F) S2048x64 .f32) //
      ∀ (xi12 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ owns (c : Thread nD τ) arg15 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ (∃ f, arg15.view.loc (c : Thread nD τ) ↦[arg15.view.set]{fullShare} arg15.view.writes (Elt F) f LS0)) -∗ K ⟨⟩))
          ⊢ wp frame (wpE (defs₀ (F := F)) Variants.none c none) E (cc1__agg2_fuse_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, fun xi12 E K => ?run⟩
  case run =>
    simp only [cc1__agg2_fuse_kernel_eq_skeleton]; unfold cc1__agg2_fuse_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    iexists _; iexact HS0

end Cert.Kernel.Hand

end
-- ==== Proof.K.R1RunC.lean ====
import proofs.«144529_j62285615727119_2_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

set_option maxHeartbeats 4000000 in
/-- What the body's stores leave in the output's staging memref and in the accumulator, as pieces (last first), in case C
    (the contraction index is 7: the product is added to the accumulator, then the small matrix products of the epilogue are taken of it and the output block is stored), with the proof that on whole
    staging memrefs — the inputs' at their contents, the output's at anything, the accumulator at what the point before left —
    the body runs to the continuation holding the inputs' as they were, the output's with its pieces written and the accumulator
    with its pieces written. The pieces are the witness the run finds. -/
noncomputable def kernelRun1_C (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x16 .f32) (harg6 : arg6.IsWhole) (arg7 : Memref sig .tc .vmem S64x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S2048x1 .f32) (harg14 : arg14.IsWhole) (arg15 : Memref sig .tc .vmem S2048x64 .f32) (harg15 : arg15.IsWhole) (hc0 : ¬cond1_0 i) (hc1 : cond1_1 i)
    (x0 : Vec F S2048x1024 .f32) (x1 : Vec F S8192x64 .f32) (x2 : Vec F S64x64 .f32) (x3 : Vec F S1x64 .f32) (x4 : Vec F S2048x16 .f32) (x5 : Vec F S64x128 .f32) (x6 : Vec F S16x128 .f32) (x7 : Vec F S1x128 .f32) (x8 : Vec F S128x64 .f32) (x9 : Vec F S1x64 .f32) (x10 : Vec F S64x1 .f32) (x11 : Vec F S1x1 .f32) (xs0 : Vec F S2048x64 .f32) :
    Σ' (L12 : List (View.Piece (Elt F) S2048x1 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0)) -∗ K ⟨⟩))
          ⊢ wp frame (wpE (defs₀ (F := F)) Variants.none c none) E (cc1__agg2_fuse_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc1__agg2_fuse_kernel_eq_skeleton]; unfold cc1__agg2_fuse_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    iexists _; iexact HS0

end Cert.Kernel.Hand

end
-- ==== Proof.K.R1Frame.lean ====
import proofs.«144529_j62285615727119_2_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

/-! # Region 1 at the entry contents `V`: what its buffers hold point by point, the proof data, the body obligation -/

/-- Case A stores nothing into output 12 (the window is idle at its points and not written back there): no pieces —
    a placeholder nothing consults. -/
def out1_A_12 (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x16 .f32) (harg6 : arg6.IsWhole) (arg7 : Memref sig .tc .vmem S64x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S2048x1 .f32) (harg14 : arg14.IsWhole) (arg15 : Memref sig .tc .vmem S2048x64 .f32) (harg15 : arg15.IsWhole) (hc0 : cond1_0 i) (hc1 : ¬cond1_1 i)
    (x0 : Vec F S2048x1024 .f32) (x1 : Vec F S8192x64 .f32) (x2 : Vec F S64x64 .f32) (x3 : Vec F S1x64 .f32) (x4 : Vec F S2048x16 .f32) (x5 : Vec F S64x128 .f32) (x6 : Vec F S16x128 .f32) (x7 : Vec F S1x128 .f32) (x8 : Vec F S128x64 .f32) (x9 : Vec F S1x64 .f32) (x10 : Vec F S64x1 .f32) (x11 : Vec F S1x1 .f32) : Vec F S2048x1 .f32 :=
  VO1_12.read (Elt F) (VO1_12.writes (Elt F) VO1_12.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11).1)

/-- Case A's pieces for the accumulator cover it (whole-buffer stores). -/
theorem scover1_A_0 (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x16 .f32) (harg6 : arg6.IsWhole) (arg7 : Memref sig .tc .vmem S64x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S2048x1 .f32) (harg14 : arg14.IsWhole) (arg15 : Memref sig .tc .vmem S2048x64 .f32) (harg15 : arg15.IsWhole) (hc0 : cond1_0 i) (hc1 : ¬cond1_1 i)
    (x0 : Vec F S2048x1024 .f32) (x1 : Vec F S8192x64 .f32) (x2 : Vec F S64x64 .f32) (x3 : Vec F S1x64 .f32) (x4 : Vec F S2048x16 .f32) (x5 : Vec F S64x128 .f32) (x6 : Vec F S16x128 .f32) (x7 : Vec F S1x128 .f32) (x8 : Vec F S128x64 .f32) (x9 : Vec F S1x64 .f32) (x10 : Vec F S64x1 .f32) (x11 : Vec F S1x1 .f32) (y : S2048x64.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11).2.1 S2048x64.size (by sl_kernel_rfl) y

/-- What case A leaves in the accumulator: its pieces read back. -/
def sout1_A_0 (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x16 .f32) (harg6 : arg6.IsWhole) (arg7 : Memref sig .tc .vmem S64x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S2048x1 .f32) (harg14 : arg14.IsWhole) (arg15 : Memref sig .tc .vmem S2048x64 .f32) (harg15 : arg15.IsWhole) (hc0 : cond1_0 i) (hc1 : ¬cond1_1 i)
    (x0 : Vec F S2048x1024 .f32) (x1 : Vec F S8192x64 .f32) (x2 : Vec F S64x64 .f32) (x3 : Vec F S1x64 .f32) (x4 : Vec F S2048x16 .f32) (x5 : Vec F S64x128 .f32) (x6 : Vec F S16x128 .f32) (x7 : Vec F S1x128 .f32) (x8 : Vec F S128x64 .f32) (x9 : Vec F S1x64 .f32) (x10 : Vec F S64x1 .f32) (x11 : Vec F S1x1 .f32) : Vec F S2048x64 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11).2.1)

/-- Case B stores nothing into output 12 (the window is idle at its points and not written back there): no pieces —
    a placeholder nothing consults. -/
def out1_B_12 (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x16 .f32) (harg6 : arg6.IsWhole) (arg7 : Memref sig .tc .vmem S64x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S2048x1 .f32) (harg14 : arg14.IsWhole) (arg15 : Memref sig .tc .vmem S2048x64 .f32) (harg15 : arg15.IsWhole) (hc0 : ¬cond1_0 i) (hc1 : ¬cond1_1 i)
    (x0 : Vec F S2048x1024 .f32) (x1 : Vec F S8192x64 .f32) (x2 : Vec F S64x64 .f32) (x3 : Vec F S1x64 .f32) (x4 : Vec F S2048x16 .f32) (x5 : Vec F S64x128 .f32) (x6 : Vec F S16x128 .f32) (x7 : Vec F S1x128 .f32) (x8 : Vec F S128x64 .f32) (x9 : Vec F S1x64 .f32) (x10 : Vec F S64x1 .f32) (x11 : Vec F S1x1 .f32) (xs0 : Vec F S2048x64 .f32) : Vec F S2048x1 .f32 :=
  VO1_12.read (Elt F) (VO1_12.writes (Elt F) VO1_12.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).1)

/-- Case B's pieces for the accumulator cover it (whole-buffer stores). -/
theorem scover1_B_0 (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x16 .f32) (harg6 : arg6.IsWhole) (arg7 : Memref sig .tc .vmem S64x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S2048x1 .f32) (harg14 : arg14.IsWhole) (arg15 : Memref sig .tc .vmem S2048x64 .f32) (harg15 : arg15.IsWhole) (hc0 : ¬cond1_0 i) (hc1 : ¬cond1_1 i)
    (x0 : Vec F S2048x1024 .f32) (x1 : Vec F S8192x64 .f32) (x2 : Vec F S64x64 .f32) (x3 : Vec F S1x64 .f32) (x4 : Vec F S2048x16 .f32) (x5 : Vec F S64x128 .f32) (x6 : Vec F S16x128 .f32) (x7 : Vec F S1x128 .f32) (x8 : Vec F S128x64 .f32) (x9 : Vec F S1x64 .f32) (x10 : Vec F S64x1 .f32) (x11 : Vec F S1x1 .f32) (xs0 : Vec F S2048x64 .f32) (y : S2048x64.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).2.1 S2048x64.size (by sl_kernel_rfl) y

/-- What case B leaves in the accumulator: its pieces read back. -/
def sout1_B_0 (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x16 .f32) (harg6 : arg6.IsWhole) (arg7 : Memref sig .tc .vmem S64x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S2048x1 .f32) (harg14 : arg14.IsWhole) (arg15 : Memref sig .tc .vmem S2048x64 .f32) (harg15 : arg15.IsWhole) (hc0 : ¬cond1_0 i) (hc1 : ¬cond1_1 i)
    (x0 : Vec F S2048x1024 .f32) (x1 : Vec F S8192x64 .f32) (x2 : Vec F S64x64 .f32) (x3 : Vec F S1x64 .f32) (x4 : Vec F S2048x16 .f32) (x5 : Vec F S64x128 .f32) (x6 : Vec F S16x128 .f32) (x7 : Vec F S1x128 .f32) (x8 : Vec F S128x64 .f32) (x9 : Vec F S1x64 .f32) (x10 : Vec F S64x1 .f32) (x11 : Vec F S1x1 .f32) (xs0 : Vec F S2048x64 .f32) : Vec F S2048x64 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).2.1)

/-- Case C's pieces for output 12 tile its block (one store of the whole block), so they cover it. -/
theorem cover1_C_12 (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x16 .f32) (harg6 : arg6.IsWhole) (arg7 : Memref sig .tc .vmem S64x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S2048x1 .f32) (harg14 : arg14.IsWhole) (arg15 : Memref sig .tc .vmem S2048x64 .f32) (harg15 : arg15.IsWhole) (hc0 : ¬cond1_0 i) (hc1 : cond1_1 i)
    (x0 : Vec F S2048x1024 .f32) (x1 : Vec F S8192x64 .f32) (x2 : Vec F S64x64 .f32) (x3 : Vec F S1x64 .f32) (x4 : Vec F S2048x16 .f32) (x5 : Vec F S64x128 .f32) (x6 : Vec F S16x128 .f32) (x7 : Vec F S1x128 .f32) (x8 : Vec F S128x64 .f32) (x9 : Vec F S1x64 .f32) (x10 : Vec F S64x1 .f32) (x11 : Vec F S1x1 .f32) (xs0 : Vec F S2048x64 .f32) (y : S2048x1.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).1 S2048x1.size (by sl_kernel_rfl) y

/-- What case C leaves in output 12's staging buffer: its pieces read back. -/
def out1_C_12 (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x16 .f32) (harg6 : arg6.IsWhole) (arg7 : Memref sig .tc .vmem S64x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S2048x1 .f32) (harg14 : arg14.IsWhole) (arg15 : Memref sig .tc .vmem S2048x64 .f32) (harg15 : arg15.IsWhole) (hc0 : ¬cond1_0 i) (hc1 : cond1_1 i)
    (x0 : Vec F S2048x1024 .f32) (x1 : Vec F S8192x64 .f32) (x2 : Vec F S64x64 .f32) (x3 : Vec F S1x64 .f32) (x4 : Vec F S2048x16 .f32) (x5 : Vec F S64x128 .f32) (x6 : Vec F S16x128 .f32) (x7 : Vec F S1x128 .f32) (x8 : Vec F S128x64 .f32) (x9 : Vec F S1x64 .f32) (x10 : Vec F S64x1 .f32) (x11 : Vec F S1x1 .f32) (xs0 : Vec F S2048x64 .f32) : Vec F S2048x1 .f32 :=
  VO1_12.read (Elt F) (VO1_12.writes (Elt F) VO1_12.junk (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).1)

/-- Case C's pieces for the accumulator cover it (whole-buffer stores). -/
theorem scover1_C_0 (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x16 .f32) (harg6 : arg6.IsWhole) (arg7 : Memref sig .tc .vmem S64x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S2048x1 .f32) (harg14 : arg14.IsWhole) (arg15 : Memref sig .tc .vmem S2048x64 .f32) (harg15 : arg15.IsWhole) (hc0 : ¬cond1_0 i) (hc1 : cond1_1 i)
    (x0 : Vec F S2048x1024 .f32) (x1 : Vec F S8192x64 .f32) (x2 : Vec F S64x64 .f32) (x3 : Vec F S1x64 .f32) (x4 : Vec F S2048x16 .f32) (x5 : Vec F S64x128 .f32) (x6 : Vec F S16x128 .f32) (x7 : Vec F S1x128 .f32) (x8 : Vec F S128x64 .f32) (x9 : Vec F S1x64 .f32) (x10 : Vec F S64x1 .f32) (x11 : Vec F S1x1 .f32) (xs0 : Vec F S2048x64 .f32) (y : S2048x64.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).2.1 S2048x64.size (by sl_kernel_rfl) y

/-- What case C leaves in the accumulator: its pieces read back. -/
def sout1_C_0 (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x16 .f32) (harg6 : arg6.IsWhole) (arg7 : Memref sig .tc .vmem S64x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S2048x1 .f32) (harg14 : arg14.IsWhole) (arg15 : Memref sig .tc .vmem S2048x64 .f32) (harg15 : arg15.IsWhole) (hc0 : ¬cond1_0 i) (hc1 : cond1_1 i)
    (x0 : Vec F S2048x1024 .f32) (x1 : Vec F S8192x64 .f32) (x2 : Vec F S64x64 .f32) (x3 : Vec F S1x64 .f32) (x4 : Vec F S2048x16 .f32) (x5 : Vec F S64x128 .f32) (x6 : Vec F S16x128 .f32) (x7 : Vec F S1x128 .f32) (x8 : Vec F S128x64 .f32) (x9 : Vec F S1x64 .f32) (x10 : Vec F S64x1 .f32) (x11 : Vec F S1x1 .f32) (xs0 : Vec F S2048x64 .f32) : Vec F S2048x64 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).2.1)

/-! ## What the output's staging buffer and the accumulator hold after each point -/

/-- The accumulation: what output 12's staging buffer and the accumulator hold after the body at position `n` (a pair): the
    case the closed forms select at `n`, run at the point's memrefs and input blocks, the accumulator read at what the
    point before left (in case A it is overwritten first, so nothing is read of the point before). -/
def outsAt1 (c : Dev nD) : (n : ℕ) → n < cfg1.N → Vec F S2048x1 .f32 × Vec F S2048x64 .f32
  | 0, hn => (out1_A_12 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩) (iblk1 V c 11 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩) (iblk1 V c 11 ⟨0, hn⟩))
  | n + 1, hn =>
    if h0 : (n + 1) % 8 = 0 then
      if h1 : (n + 1) % 8 = 7 then
        False.elim (by omega)
      else
        (out1_A_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩))
    else
      if h1 : (n + 1) % 8 = 7 then
        (out1_C_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (outsAt1 c n (Nat.lt_of_succ_lt hn)).2)
      else
        (out1_B_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (outsAt1 c n (Nat.lt_of_succ_lt hn)).2)

/-- `outsAt1` at a point of case A: that case's contents. -/
theorem outsAt1_A (c : Dev nD) (t : Fin cfg1.N) (h0 : t.val % 8 = 0) (h1 : ¬t.val % 8 = 7) :
    outsAt1 V c t.val t.isLt = (out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 8 = 0) (h1 : ¬t.val % 8 = 7) :
    outsAt1 V c t.val t.isLt = (out1_B_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 8 = 0) (h1 : t.val % 8 = 7) :
    outsAt1 V c t.val t.isLt = (out1_C_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the region's own (every scoped buffer that is no
    staging buffer at anything); afterwards the same with the accumulator at what the point before left in it. -/
def PhiS1 (c : Dev nD) : (n : ℕ) → n ≤ cfg1.N → sProp 𝕄
  | 0, _ => Pipeline.ΦA spec1 c
  | n + 1, hn => iprop(rest1 (F := F) c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(rest1 (F := F) c (owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(rest1 (F := F) c (owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of region 1 on core `c`: the arrays as the region finds them (`V`); after the body at point `t` each
    input's buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t)

set_option maxHeartbeats 16000000 in
/-- The body at any point: the inputs' memrefs hold their blocks; the closed forms say which case the point is in; the
    invariant hands the body the accumulator at what the point before left (at anything at the first point) and takes it
    back at this point's contents; the buffers the body never touches go back unchanged; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [show (dat1 V c).leavesExact 10 t = owns (c : Thread nD τ) (ms1_10 t) fullShare ((dat1 V c).after 10 t) from by
        unfold Dat.leavesExact; rw [liveAt1_10 t], after1_10]
      rw [show (dat1 V c).leavesExact 11 t = owns (c : Thread nD τ) (ms1_11 t) fullShare ((dat1 V c).after 11 t) from by
        unfold Dat.leavesExact; rw [liveAt1_11 t], after1_11]
      rw [Dat.leavesExact_idle (dat1 V c) 12 t (idleAt1_12_A t ((hcond1_0 t).mpr h0) (fun h => h1 ((hcond1_1 t).mp h))) (noFlush1_12_A t ((hcond1_0 t).mpr h0) (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]; unfold rest1
        iintro ⟨⟨⟨R0, R1, R2, R3, R4, R5, R6, R7, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun1_A c (grid1.coords t) _ _ _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [HS0]; · iexact HS0
        iintro ⟨H0, H1, H2, H3, H4, H5, H6, H7, H8, H9, H10, H11, H12, ⟨%es0, HS0⟩⟩
        isplitl [R0 R1 R2 R3 R4 R5 R6 R7 HS0 Hg]
        · isplitl [R0 R1 R2 R3 R4 R5 R6 R7 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexists _; iexact H12
      ·
        rw [PhiS1_castSucc V c t, PhiS1_pos V c _ _ hz]; unfold rest1
        iintro ⟨⟨⟨R0, R1, R2, R3, R4, R5, R6, R7, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun1_A c (grid1.coords t) _ _ _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [HS0]; · iexists _; iexact HS0
        iintro ⟨H0, H1, H2, H3, H4, H5, H6, H7, H8, H9, H10, H11, H12, ⟨%es0, HS0⟩⟩
        isplitl [R0 R1 R2 R3 R4 R5 R6 R7 HS0 Hg]
        · isplitl [R0 R1 R2 R3 R4 R5 R6 R7 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexists _; iexact H12
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [show (dat1 V c).leavesExact 10 t = owns (c : Thread nD τ) (ms1_10 t) fullShare ((dat1 V c).after 10 t) from by
        unfold Dat.leavesExact; rw [liveAt1_10 t], after1_10]
      rw [show (dat1 V c).leavesExact 11 t = owns (c : Thread nD τ) (ms1_11 t) fullShare ((dat1 V c).after 11 t) from by
        unfold Dat.leavesExact; rw [liveAt1_11 t], after1_11]
      rw [show (dat1 V c).leavesExact 12 t = owns (c : Thread nD τ) (ms1_12 t) fullShare ((dat1 V c).after 12 t) from by
        unfold Dat.leavesExact; rw [liveAt1_12_C t (fun h => h0 ((hcond1_0 t).mp h)) ((hcond1_1 t).mpr h1)], after1_12]
      rw [outsAt1_C V c t h0 h1]
      unfold out1_C_12 sout1_C_0; (try dsimp only)
      by_cases hz : t.val = 0
      · exfalso; omega
      ·
        rw [PhiS1_castSucc V c t, PhiS1_pos V c _ _ hz]; unfold rest1
        iintro ⟨⟨⟨R0, R1, R2, R3, R4, R5, R6, R7, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun1_C c (grid1.coords t) _ _ _ _ _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [HS0]; · iexact HS0
        iintro ⟨H0, H1, H2, H3, H4, H5, H6, H7, H8, H9, H10, H11, ⟨%e12, H12⟩, ⟨%es0, HS0⟩⟩
        isplitl [R0 R1 R2 R3 R4 R5 R6 R7 HS0 Hg]
        · isplitl [R0 R1 R2 R3 R4 R5 R6 R7 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        unfold owns; iexists _; isplitr
        swap; · iexact H12
        ipureintro; exact View.read_writes_of_cover _ _ _ _ _ (cover1_C_12 c _ _ _ _ _ _ _ _ _ _ _ _ _ _ _ _ _ _ _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [show (dat1 V c).leavesExact 10 t = owns (c : Thread nD τ) (ms1_10 t) fullShare ((dat1 V c).after 10 t) from by
        unfold Dat.leavesExact; rw [liveAt1_10 t], after1_10]
      rw [show (dat1 V c).leavesExact 11 t = owns (c : Thread nD τ) (ms1_11 t) fullShare ((dat1 V c).after 11 t) from by
        unfold Dat.leavesExact; rw [liveAt1_11 t], after1_11]
      rw [Dat.leavesExact_idle (dat1 V c) 12 t (idleAt1_12_B t (fun h => h0 ((hcond1_0 t).mp h)) (fun h => h1 ((hcond1_1 t).mp h))) (noFlush1_12_B t (fun h => h0 ((hcond1_0 t).mp h)) (fun h => h1 ((hcond1_1 t).mp h)))]
      rw [outsAt1_B V c t h0 h1]
      unfold sout1_B_0; (try dsimp only)
      by_cases hz : t.val = 0
      · exfalso; omega
      ·
        rw [PhiS1_castSucc V c t, PhiS1_pos V c _ _ hz]; unfold rest1
        iintro ⟨⟨⟨R0, R1, R2, R3, R4, R5, R6, R7, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun1_B c (grid1.coords t) _ _ _ _ _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [HS0]; · iexact HS0
        iintro ⟨H0, H1, H2, H3, H4, H5, H6, H7, H8, H9, H10, H11, H12, ⟨%es0, HS0⟩⟩
        isplitl [R0 R1 R2 R3 R4 R5 R6 R7 HS0 Hg]
        · isplitl [R0 R1 R2 R3 R4 R5 R6 R7 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexists _; iexact H12

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the region's own back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]; unfold rest1
  iintro ⟨⟨R0, R1, R2, R3, R4, R5, R6, R7, HS0⟩, Hg⟩
  isplitl [R0 R1 R2 R3 R4 R5 R6 R7 HS0]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.Hand

end
-- ==== Proof.K.Assembly.lean ====
/-
  The two aggregation kernels as segments of the program's run, and the run itself.

  Each kernel region is entered with every unscoped buffer held at the valuation the items before it leave, splits its
  windows' arrays out of them, runs its grid, and puts the arrays back: the inputs as they were, the result array at what
  the region's write-backs leave. The first region's result feeds the second as its node features; the second's result is
  reshaped to the program's answer.
-/
import proofs.«144529_j62285615727119_2_alg».proof.Proof.K.RunCond
import proofs.«144529_j62285615727119_2_alg».proof.Proof.K.R0Frame
import proofs.«144529_j62285615727119_2_alg».proof.Proof.K.R1Frame
import Idealize.ShloMosaic.Lib.Pipeline.RegionsLoop

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions find and leave -/

/-- The regions' results as the run's unknowns: `r0` in the first region's result array after it, `r1` in the second's. -/
def outsOf (r0 : (c : Dev nD) → Buf (Elt F) ((c : Thread nD τ).loc main_v6))
    (r1 : (c : Dev nD) → Buf (Elt F) ((c : Thread nD τ).loc main_v13)) : Outs (F := F) :=
  fun J r c => if J = 4 then Function.update (V0 m c) main_v6 (r0 c) r else Function.update (V0 m c) main_v13 (r1 c) r

theorem outsOf_4 (r0 r1) (c : Dev nD) : outsOf m r0 r1 4 main_v6 c = r0 c := by
  unfold outsOf; rw [if_pos rfl]; exact Function.update_self ..

theorem outsOf_6 (r0 r1) (c : Dev nD) : outsOf m r0 r1 6 main_v13 c = r1 c := by
  unfold outsOf; rw [if_neg (by decide)]; exact Function.update_self ..

/-- The TensorCore's buffers as the first region finds them. -/
abbrev In0 (c : Dev nD) (b : Ref sig .tc) : Buf (Elt F) ((c : Thread nD τ).loc b) := V3 m c b

/-- What the first region leaves in its result array: its write-backs folded over the grid. -/
def res0 (c : Dev nD) : Buf (Elt F) ((c : Thread nD τ).loc main_v6) := (dat0 (In0 m) c).arrAt 4 cfg0.N

/-- The TensorCore's buffers as the second region finds them: the first region's result in place, then the host
    stretch between the regions (the biases as rows, the head's first weight cut in two). -/
abbrev In1 (c : Dev nD) (b : Ref sig .tc) : Buf (Elt F) ((c : Thread nD τ).loc b) :=
  V5 m (outsOf m (res0 m) (fun c => m ((c : Thread nD τ).loc main_v13))) c b

/-- What the second region leaves in its result array. -/
def res1 (c : Dev nD) : Buf (Elt F) ((c : Thread nD τ).loc main_v13) := (dat1 (In1 m) c).arrAt 12 cfg1.N

/-- The regions' results. -/
def outs : Outs (F := F) := outsOf m (res0 m) (res1 m)

theorem outs_4 (c : Dev nD) : outs m 4 main_v6 c = res0 m c := outsOf_4 m _ _ c
theorem outs_6 (c : Dev nD) : outs m 6 main_v13 c = res1 m c := outsOf_6 m _ _ c

/-- After the first region every buffer but its result is as before, the result at `res0`. -/
theorem V4_outs (c : Dev nD) : V4 m (outs m) c = Function.update (V3 m c) main_v6 (res0 m c) := by
  show Function.update (V3 m c) main_v6 (outs m 4 main_v6 c) = _
  rw [outs_4]

/-- The first region's result array after it holds `res0`. -/
theorem V4_res (c : Dev nD) : V4 m (outs m) c (main_v6 : Ref sig .tc) = (dat0 (In0 m) c).arrAt 4 cfg0.N := by
  rw [V4_outs]; exact Function.update_self ..

/-- The second region's entry contents do not depend on what it will leave. -/
theorem V5_outs (c : Dev nD) (b : Ref sig .tc) : V5 m (outs m) c b = In1 m c b := by
  show StableHlo.after hostOps1 (Function.update (V3 m c) main_v6 (outs m 4 main_v6 c)) b
    = StableHlo.after hostOps1 (Function.update (V3 m c) main_v6 (outsOf m (res0 m) (fun c => m ((c : Thread nD τ).loc main_v13)) 4 main_v6 c)) b
  rw [outs_4, outsOf_4]

theorem V6_outs (c : Dev nD) : V6 m (outs m) c = Function.update (V5 m (outs m) c) main_v13 (res1 m c) := by
  show Function.update (V5 m (outs m) c) main_v13 (outs m 6 main_v13 c) = _
  rw [outs_6]

/-! ## The proof data family and what rides along -/

/-- Each pipeline's proof data at its region's entry contents. -/
def pdats : (p : Fin 2) → (c : Dev nD) → Dat τ (Elt F) Unit ℕ (UR sig nD τ) ℕ (cfgs p) c
  | ⟨0, _⟩ => fun c => dat0 (In0 m) c
  | ⟨1, _⟩ => fun c => dat1 (In1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)

/-! ## The regions as segments -/

set_option maxHeartbeats 1000000 in
set_option backward.isDefEq.respectTransparency.types false in
/-- The first aggregation kernel: entered from the buffers at `V3`, left at `V4` (its result array at `res0`). -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (In0 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (In0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (In0 m c) fun w => A_eq0 (In0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (In0 m) c
    unfold Pipeline.ΦA at h
    rw [show (pdats m 0 c).Φ 0 = (dat0 (In0 m) c).Φ 0 from rfl]
    iintro ⟨Hp, -, Hr⟩
    iapply h
    isplitl [Hr]; · iexact Hr
    iexact Hp
  hout c := by
    have h := hout0 (In0 m) c
    unfold Pipeline.ΦA at h
    rw [Pipeline.ownSems0_none, show (pdats m 0 c).Φ (Fin.last _) = (dat0 (In0 m) c).Φ (Fin.last cfg0.N) from rfl]
    iintro H
    ihave H' := h $$ H
    icases H' with ⟨Hr, Hp⟩
    isplitl [Hp]; · iexact Hp
    isplitr; · iempintro
    iexact Hr
  hexit c := by
    have hF : ∀ w : Fin cfg0.W, (dat0 (In0 m) c).arrAt w cfg0.N = V4 m (outs m) c (Pipeline.arrRef spec0 w) := by
      intro w
      match w with
      | ⟨0, _⟩ => exact (((dat0 (In0 m) c).arrAt_in 0 rfl _).trans (A_eq0 (In0 m) c 0)).trans (V4_of m (outs m) c _ (by decide)).symm
      | ⟨1, _⟩ => exact (((dat0 (In0 m) c).arrAt_in 1 rfl _).trans (A_eq0 (In0 m) c 1)).trans (V4_of m (outs m) c _ (by decide)).symm
      | ⟨2, _⟩ => exact (((dat0 (In0 m) c).arrAt_in 2 rfl _).trans (A_eq0 (In0 m) c 2)).trans (V4_of m (outs m) c _ (by decide)).symm
      | ⟨3, _⟩ => exact (((dat0 (In0 m) c).arrAt_in 3 rfl _).trans (A_eq0 (In0 m) c 3)).trans (V4_of m (outs m) c _ (by decide)).symm
      | ⟨4, _⟩ => exact (V4_res m c).symm
    have hrest : ∀ b, b ∉ Finset.univ.image (Pipeline.arrRef spec0) → V4 m (outs m) c b = In0 m c b := by
      intro b hb
      exact V4_of m (outs m) c b (fun h => hb (Finset.mem_image.mpr ⟨4, Finset.mem_univ _, (List.mem_singleton.mp h).symm⟩))
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (In0 m c) (fun b => V4 m (outs m) c b) ((pdats m 0 c).arrAt · cfg0.N) (fun w => hF w) hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    iexact HO

/-- The second region's result array after it holds `res1`. -/
theorem V6_res (c : Dev nD) : V6 m (outs m) c (main_v13 : Ref sig .tc) = (dat1 (In1 m) c).arrAt 12 cfg1.N := by
  rw [V6_outs]; exact Function.update_self ..

/-- The second region's entry valuation, whole. -/
theorem V5_outs' (c : Dev nD) : V5 m (outs m) c = V5 m (outsOf m (res0 m) (fun c => m ((c : Thread nD τ).loc main_v13))) c := by
  show StableHlo.after hostOps1 (Function.update (V3 m c) main_v6 (outs m 4 main_v6 c))
    = StableHlo.after hostOps1 (Function.update (V3 m c) main_v6 (outsOf m (res0 m) (fun c => m ((c : Thread nD τ).loc main_v13)) 4 main_v6 c))
  rw [outs_4, outsOf_4]

set_option maxHeartbeats 1000000 in
set_option backward.isDefEq.respectTransparency.types false in
/-- The second aggregation kernel: entered from the buffers at `V5`, left at `V6` (its result array at `res1`). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (In1 m) c).loose
  hwaits := Pipeline.hwaits_of_owed_zero _ _ _ _ L lv 1 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (In1 m c)
  hentry c := by
    rw [Pipeline.ownSems0_none, V5_outs' m c]
    have hsplit := Pipeline.arrays_of_unscopedBufs (p := 1) (pcfgs (F := F)) adm (pdats m) launch1.win launch1.arr_whole c
      ((pdats m 1 c).share_full fun _ => rfl) (In1 m c) fun w => A_eq1 (In1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (In1 m) c
    unfold Pipeline.ΦA at h
    rw [show (pdats m 1 c).Φ 0 = (dat1 (In1 m) c).Φ 0 from rfl]
    iintro ⟨Hp, -, Hr⟩
    iapply h
    isplitl [Hr]; · iexact Hr
    iexact Hp
  hout c := by
    have h := hout1 (In1 m) c
    unfold Pipeline.ΦA at h
    rw [Pipeline.ownSems0_none, show (pdats m 1 c).Φ (Fin.last _) = (dat1 (In1 m) c).Φ (Fin.last cfg1.N) from rfl]
    iintro H
    ihave H' := h $$ H
    icases H' with ⟨Hr, Hp⟩
    isplitl [Hp]; · iexact Hp
    isplitr; · iempintro
    iexact Hr
  hexit c := by
    have hF : ∀ w : Fin cfg1.W, (dat1 (In1 m) c).arrAt w cfg1.N = V6 m (outs m) c (Pipeline.arrRef spec1 w) := by
      intro w
      match w with
      | ⟨0, _⟩ => exact ((((dat1 (In1 m) c).arrAt_in 0 rfl _).trans (A_eq1 (In1 m) c 0)).trans (V5_outs m c _).symm).trans (V6_of m (outs m) c _ (by decide)).symm
      | ⟨1, _⟩ => exact ((((dat1 (In1 m) c).arrAt_in 1 rfl _).trans (A_eq1 (In1 m) c 1)).trans (V5_outs m c _).symm).trans (V6_of m (outs m) c _ (by decide)).symm
      | ⟨2, _⟩ => exact ((((dat1 (In1 m) c).arrAt_in 2 rfl _).trans (A_eq1 (In1 m) c 2)).trans (V5_outs m c _).symm).trans (V6_of m (outs m) c _ (by decide)).symm
      | ⟨3, _⟩ => exact ((((dat1 (In1 m) c).arrAt_in 3 rfl _).trans (A_eq1 (In1 m) c 3)).trans (V5_outs m c _).symm).trans (V6_of m (outs m) c _ (by decide)).symm
      | ⟨4, _⟩ => exact ((((dat1 (In1 m) c).arrAt_in 4 rfl _).trans (A_eq1 (In1 m) c 4)).trans (V5_outs m c _).symm).trans (V6_of m (outs m) c _ (by decide)).symm
      | ⟨5, _⟩ => exact ((((dat1 (In1 m) c).arrAt_in 5 rfl _).trans (A_eq1 (In1 m) c 5)).trans (V5_outs m c _).symm).trans (V6_of m (outs m) c _ (by decide)).symm
      | ⟨6, _⟩ => exact ((((dat1 (In1 m) c).arrAt_in 6 rfl _).trans (A_eq1 (In1 m) c 6)).trans (V5_outs m c _).symm).trans (V6_of m (outs m) c _ (by decide)).symm
      | ⟨7, _⟩ => exact ((((dat1 (In1 m) c).arrAt_in 7 rfl _).trans (A_eq1 (In1 m) c 7)).trans (V5_outs m c _).symm).trans (V6_of m (outs m) c _ (by decide)).symm
      | ⟨8, _⟩ => exact ((((dat1 (In1 m) c).arrAt_in 8 rfl _).trans (A_eq1 (In1 m) c 8)).trans (V5_outs m c _).symm).trans (V6_of m (outs m) c _ (by decide)).symm
      | ⟨9, _⟩ => exact ((((dat1 (In1 m) c).arrAt_in 9 rfl _).trans (A_eq1 (In1 m) c 9)).trans (V5_outs m c _).symm).trans (V6_of m (outs m) c _ (by decide)).symm
      | ⟨10, _⟩ => exact ((((dat1 (In1 m) c).arrAt_in 10 rfl _).trans (A_eq1 (In1 m) c 10)).trans (V5_outs m c _).symm).trans (V6_of m (outs m) c _ (by decide)).symm
      | ⟨11, _⟩ => exact ((((dat1 (In1 m) c).arrAt_in 11 rfl _).trans (A_eq1 (In1 m) c 11)).trans (V5_outs m c _).symm).trans (V6_of m (outs m) c _ (by decide)).symm
      | ⟨12, _⟩ => exact (V6_res m c).symm
    have hrest : ∀ b, b ∉ Finset.univ.image (Pipeline.arrRef spec1) → V6 m (outs m) c b = In1 m c b := by
      intro b hb
      exact (V6_of m (outs m) c b (fun h => hb (Finset.mem_image.mpr ⟨12, Finset.mem_univ _, (List.mem_singleton.mp h).symm⟩))).trans (V5_outs m c b)
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (In1 m c) (fun b => V6 m (outs m) c b) ((pdats m 1 c).arrAt · cfg1.N) (fun w => hF w) hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    iexact HO

/-! ## The run -/

set_option maxHeartbeats 1000000 in
set_option backward.isDefEq.respectTransparency.types false in
/-- THE RUN. From any memory with zero counters every weakly fair execution of @main terminates, nothing faulting, and every
    unscoped buffer ends at the last valuation: the launch contents pushed through the host stretches, the first region's
    result at `res0`, the second's at `res1`. -/
theorem run_main : θ_run defs (onTc (τ := τ) (main (F := F))) ⟨m, fun _ => 0, ρ⟩ (fun r => ∀ c : Dev nD,
      ∀ b ∈ Pipeline.ucRefs τ sig, r.2.mem ((c : Thread nD τ).1, b) = V7 m (outs m) c b) :=
  run_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by
      iintro ⟨-, HO⟩
      iexact HO)
    (reg0 m) (fun _ => .rfl) (fun _ => .rfl) (reg1 m) (fun _ => .rfl) (fun _ => .rfl)

/-- THE FRAME: the program runs to its end from any memory, nothing faulting, and no argument array is changed — no
    host stretch writes one and each region writes only its own result array. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c (Proc.devRef .tc main_arg0) (Finset.mem_filter.mpr ⟨StableHlo.devRef_mem_tcRefs main_arg0, by decide⟩)).trans (V7_main_arg0 m (outs m) c),
      (h c (Proc.devRef .tc main_arg1) (Finset.mem_filter.mpr ⟨StableHlo.devRef_mem_tcRefs main_arg1, by decide⟩)).trans (V7_main_arg1 m (outs m) c),
      (h c (Proc.devRef .tc main_arg2) (Finset.mem_filter.mpr ⟨StableHlo.devRef_mem_tcRefs main_arg2, by decide⟩)).trans (V7_main_arg2 m (outs m) c),
      (h c (Proc.devRef .tc main_arg3) (Finset.mem_filter.mpr ⟨StableHlo.devRef_mem_tcRefs main_arg3, by decide⟩)).trans (V7_main_arg3 m (outs m) c),
      (h c (Proc.devRef .tc main_arg4) (Finset.mem_filter.mpr ⟨StableHlo.devRef_mem_tcRefs main_arg4, by decide⟩)).trans (V7_main_arg4 m (outs m) c),
      (h c (Proc.devRef .tc main_arg5) (Finset.mem_filter.mpr ⟨StableHlo.devRef_mem_tcRefs main_arg5, by decide⟩)).trans (V7_main_arg5 m (outs m) c),
      (h c (Proc.devRef .tc main_arg6) (Finset.mem_filter.mpr ⟨StableHlo.devRef_mem_tcRefs main_arg6, by decide⟩)).trans (V7_main_arg6 m (outs m) c),
      (h c (Proc.devRef .tc main_arg7) (Finset.mem_filter.mpr ⟨StableHlo.devRef_mem_tcRefs main_arg7, by decide⟩)).trans (V7_main_arg7 m (outs m) c),
      (h c (Proc.devRef .tc main_arg8) (Finset.mem_filter.mpr ⟨StableHlo.devRef_mem_tcRefs main_arg8, by decide⟩)).trans (V7_main_arg8 m (outs m) c),
      (h c (Proc.devRef .tc main_arg9) (Finset.mem_filter.mpr ⟨StableHlo.devRef_mem_tcRefs main_arg9, by decide⟩)).trans (V7_main_arg9 m (outs m) c),
      (h c (Proc.devRef .tc main_arg10) (Finset.mem_filter.mpr ⟨StableHlo.devRef_mem_tcRefs main_arg10, by decide⟩)).trans (V7_main_arg10 m (outs m) c),
      (h c (Proc.devRef .tc main_arg11) (Finset.mem_filter.mpr ⟨StableHlo.devRef_mem_tcRefs main_arg11, by decide⟩)).trans (V7_main_arg11 m (outs m) c),
      (h c (Proc.devRef .tc main_arg12) (Finset.mem_filter.mpr ⟨StableHlo.devRef_mem_tcRefs main_arg12, by decide⟩)).trans (V7_main_arg12 m (outs m) c),
      (h c (Proc.devRef .tc main_arg13) (Finset.mem_filter.mpr ⟨StableHlo.devRef_mem_tcRefs main_arg13, by decide⟩)).trans (V7_main_arg13 m (outs m) c),
      (h c (Proc.devRef .tc main_arg14) (Finset.mem_filter.mpr ⟨StableHlo.devRef_mem_tcRefs main_arg14, by decide⟩)).trans (V7_main_arg14 m (outs m) c),
      (h c (Proc.devRef .tc main_arg15) (Finset.mem_filter.mpr ⟨StableHlo.devRef_mem_tcRefs main_arg15, by decide⟩)).trans (V7_main_arg15 m (outs m) c)⟩) (run_main m ρ)

end Cert.Kernel.Hand

end
-- ==== Proof.KI.RunCond.lean ====
/-
  The whole run of the program, conditional on its two kernel regions.

  @main is three stretches of host operations, the first aggregation kernel, a stretch, the second aggregation kernel and a
  last reshape. Between two items every unscoped buffer is held whole at a valuation: the launch memory pushed through the
  host stretches, with each region's result array replaced by what that region leaves. Given each region as a segment
  record between the valuation before it and the one after it, the program runs to its end and every unscoped buffer —
  the argument arrays and the result alike — holds the last valuation.
-/
import proofs.«144529_j62285615727119_2_alg».proof.Proof.Gen.KernelIdeal.Regions
import Idealize.ShloMosaic.Lib.Pipeline.Frame
import Idealize.ShloMosaic.Lib.Pipeline.Regions

noncomputable section

namespace Cert.KernelIdeal.Hand

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The run of @main read at EVERY unscoped buffer: given, per region, a segment record entered from the thread state before
    it and left at the one after it, every weakly fair execution of @main from memory `m` with zero counters terminates
    and every final memory holds each unscoped buffer at the last valuation `V7 m outs c` (the launch contents pushed through
    the host stretches and the regions' results `outs`). The argument arrays and the result are then read off `V7`. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c)) :
    θ_run defs (onTc (τ := τ) (main (F := F))) ⟨m, fun _ => 0, ρ⟩ (fun r => ∀ c : Dev nD,
      ∀ b ∈ Pipeline.ucRefs τ sig, r.2.mem ((c : Thread nD τ).1, b) = V7 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨.rfl, .rfl, .rfl, hpre0 c, hpost0 c, hpre1 c, hpost1 c, sep_mono .rfl (hE2 c)⟩)
    (hinit := ?_) (QY := fun c s => ∀ b ∈ Pipeline.ucRefs τ sig, s.mem ((c : Thread nD τ).1, b) = V7 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V7 m outs c) s') $$ [Hh HSI]
    · isplitl [Hh] <;> iassumption
    icases Hr with ⟨%h, HSI⟩
    imodintro
    isplitr
    · ipureintro
      exact h
    · iexact HSI

end Cert.KernelIdeal.Hand

end
-- ==== Proof.KI.R0Shared.lean ====
import proofs.«144529_j62285615727119_2_alg».proof.Proof.Gen.KernelIdeal.Launch
import proofs.«144529_j62285615727119_2_alg».proof.Proof.Gen.KernelIdeal.Skeleton
import proofs.«144529_j62285615727119_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of full extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the first aggregation kernel on its grid of 4 row tiles by 8 contraction tiles

What the three whole-body runs of region 0 and its frame half share, at a parameter `V`: the TensorCore's buffer
contents when the region is entered. -/

section Region0
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where it is not fetched
    the block index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): where it is not fetched
    the block index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): where it is not fetched
    the block index has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): where it is not fetched
    the block index has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions -/

/-- The condition of the body's first `scf.if` (zero the accumulator), from the grid coordinates. -/
abbrev cond0_0 (i : grid0.Coords) : Prop := (Scalar.cmpi .ne (Scalar.extui (Scalar.cmpi .eq (BitVec.ofNat 32 (i 1).val) 0#32)) 0#32) = 1#1
/-- It holds at the points whose contraction index is 0, the points ≡ 0 (mod 8) — decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's second `scf.if` (the epilogue), from the grid coordinates. -/
abbrev cond0_1 (i : grid0.Coords) : Prop := k0_cond2 i = 1#1
/-- It holds at the points whose contraction index is 7, the points ≡ 7 (mod 8) — decided over the grid. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- Windows 0 to 3 are inputs: never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the contraction index is 0 the body stores nothing into the output window: it is idle there, -/
theorem idleAt0_4_A : ∀ t : Fin cfg0.N, cond0_0 (grid0.coords t) → ¬cond0_1 (grid0.coords t) → cfg0.idle 4 (grid0.coords t) = true := by decide +kernel
/-- and its block is not written back there. -/
theorem noFlush0_4_A : ∀ t : Fin cfg0.N, cond0_0 (grid0.coords t) → ¬cond0_1 (grid0.coords t) → (cfg0.win 4).flush t = false := by decide +kernel
/-- Where the contraction index is strictly between 0 and 7 likewise: idle, -/
theorem idleAt0_4_B : ∀ t : Fin cfg0.N, ¬cond0_0 (grid0.coords t) → ¬cond0_1 (grid0.coords t) → cfg0.idle 4 (grid0.coords t) = true := by decide +kernel
/-- and not written back. -/
theorem noFlush0_4_B : ∀ t : Fin cfg0.N, ¬cond0_0 (grid0.coords t) → ¬cond0_1 (grid0.coords t) → (cfg0.win 4).flush t = false := by decide +kernel
/-- Where the contraction index is 7 the epilogue stores the output block: the window is live. -/
theorem liveAt0_4_C : ∀ t : Fin cfg0.N, ¬cond0_0 (grid0.coords t) → cond0_1 (grid0.coords t) → cfg0.idle 4 (grid0.coords t) = false := by decide +kernel

/-! ## The staging and scratch memrefs -/

/-- One staging buffer of the output window, through which its contents are stated (the choice does not matter). -/
abbrev VO0_4 : View sig .tc .vmem S2048x64 .f32 := (Memref.whole cc0_stg4_0 : Memref sig .tc .vmem S2048x64 .f32).view
/-- Each window's current staging memref at point `t`, as the pipeline passes it to the body, and its wholeness. -/
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x64 .f32 := win0_4.stage (cfg0.slots t 4)
abbrev hs0_4 (t : Fin cfg0.N) : (ms0_4 t).IsWhole := hstage0_4 ((cfg0.slots t 4).cast nbuf0_4)
/-- The scratch accumulator: a whole scoped buffer of the kernel's own, passed beside the windows. -/
abbrev scM0_0 : Memref sig .tc .vmem S2048x128 .f32 := Memref.whole cc0_scratch0
/-- The same as a view: what the accumulator holds between points is stated through it. -/
abbrev VS0_0 : View sig .tc .vmem S2048x128 .f32 := scM0_0.view

/-- A scoped buffer of the core at some contents. -/
abbrev anyAt0 (c : Dev nD) (b : Ref sig .tc) : sProp 𝕄 :=
  iprop(∃ f : Buf (Elt F) ((c : Thread nD τ).loc b), ((c : Thread nD τ).loc b) ↦{fullShare} f)

/-- The core's scoped buffers that are neither a staging buffer of region 0 nor its accumulator (they belong to the
    other region), each at some contents: region 0 never touches them. -/
def rest0 (c : Dev nD) : sProp 𝕄 :=
  iprop(anyAt0 (F := F) c cc1_stg0_0 ∗ anyAt0 (F := F) c cc1_stg0_1 ∗ anyAt0 (F := F) c cc1_stg1_0 ∗ anyAt0 (F := F) c cc1_stg2_0 ∗ anyAt0 (F := F) c cc1_stg3_0 ∗ anyAt0 (F := F) c cc1_stg4_0 ∗ anyAt0 (F := F) c cc1_stg4_1 ∗ anyAt0 (F := F) c cc1_stg5_0 ∗ anyAt0 (F := F) c cc1_stg6_0 ∗ anyAt0 (F := F) c cc1_stg7_0 ∗ anyAt0 (F := F) c cc1_stg8_0 ∗ anyAt0 (F := F) c cc1_stg9_0 ∗ anyAt0 (F := F) c cc1_stg10_0 ∗ anyAt0 (F := F) c cc1_stg11_0 ∗ anyAt0 (F := F) c cc1_stg12_0 ∗ anyAt0 (F := F) c cc1_stg12_1 ∗ anyAt0 (F := F) c cc1_scratch0)

/-- The region invariant of the class with the accumulator as a memref owned at some contents: what the body
    obligation hands the run and takes back. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA rest0; rw [scopedRest0_eq]; simp only [scM0_0, owns_whole]; try rfl

end Cert.KernelIdeal.Hand

end
-- ==== Proof.KI.R0RunA.lean ====
import proofs.«144529_j62285615727119_2_alg».proof.Proof.KI.R0Shared

-- membership in a rectangle of full extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0, the whole body where the contraction index is 0 -/

-- (the run's proof term is large: the definition's epilogue walks it past the default budget)
set_option maxHeartbeats 1000000 in
/-- What the body's stores leave in the output's staging memref and in the accumulator, as pieces (last first), where the
    first `scf.if` is taken and the second is not (contraction index 0), with the proof that on whole staging memrefs — the
    inputs' at their contents, the output's (no store: idle and not written back at these points) at contents `xi4` handed back
    untouched, the accumulator at anything (it is loaded once before the zero store; that value is unused) — the body runs to
    the continuation holding the inputs' as they were and the accumulator with its pieces written (`LS0`): first the zero
    splat, then the sum of that and the product of the adjacency tile with the row slice of `x`. The pieces are the witness
    the run finds. -/
noncomputable def kernelRun0_A (c : Dev nD) (i : grid0.Coords) (arg2 : Memref sig .tc .vmem S2048x1024 .f32) (harg2 : arg2.IsWhole) (arg3 : Memref sig .tc .vmem S8192x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x128 .f32) (harg7 : arg7.IsWhole) (hc0 : cond0_0 i) (hc1 : ¬cond0_1 i)
    (x0 : Vec F S2048x1024 .f32) (x1 : Vec F S8192x128 .f32) (x2 : Vec F S128x64 .f32) (x3 : Vec F S1x64 .f32) :
    Σ' (L4 : List (View.Piece (Elt F) S2048x64 .f32)), { LS0 : List (View.Piece (Elt F) S2048x128 .f32) //
      ∀ (xi4 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__agg1_fuse_kernel i arg2 harg2 arg3 harg3 arg4 harg4 arg5 harg5 arg6 harg6 arg7 harg7) K } := by
  refine ⟨[], ?_, fun xi4 E K => ?run⟩
  case run =>
    simp only [cc0__agg1_fuse_kernel_eq_skeleton]; unfold cc0__agg1_fuse_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.R0RunB.lean ====
import proofs.«144529_j62285615727119_2_alg».proof.Proof.KI.R0RunA

-- membership in a rectangle of full extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0, the whole body where the contraction index is strictly between 0 and 7 -/

-- (the run's proof term is large: the definition's epilogue walks it past the default budget)
set_option maxHeartbeats 1000000 in
/-- What the body's stores leave in the output's staging memref and in the accumulator, as pieces (last first), where neither
    `scf.if` is taken (contraction index 1 to 6), with the proof that on whole staging memrefs — the inputs' at their contents,
    the output's (no store: idle and not written back at these points) at contents `xi4` handed back untouched, the accumulator
    at what the point before left (`xs0`) — the body runs to the continuation holding the inputs' as they were and the
    accumulator with its piece written (`LS0`): `xs0` plus the product of the adjacency tile with the row slice of `x`.
    The pieces are the witness the run finds. -/
noncomputable def kernelRun0_B (c : Dev nD) (i : grid0.Coords) (arg2 : Memref sig .tc .vmem S2048x1024 .f32) (harg2 : arg2.IsWhole) (arg3 : Memref sig .tc .vmem S8192x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x128 .f32) (harg7 : arg7.IsWhole) (hc0 : ¬cond0_0 i) (hc1 : ¬cond0_1 i)
    (x0 : Vec F S2048x1024 .f32) (x1 : Vec F S8192x128 .f32) (x2 : Vec F S128x64 .f32) (x3 : Vec F S1x64 .f32) (xs0 : Vec F S2048x128 .f32) :
    Σ' (L4 : List (View.Piece (Elt F) S2048x64 .f32)), { LS0 : List (View.Piece (Elt F) S2048x128 .f32) //
      ∀ (xi4 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__agg1_fuse_kernel i arg2 harg2 arg3 harg3 arg4 harg4 arg5 harg5 arg6 harg6 arg7 harg7) K } := by
  refine ⟨[], ?_, fun xi4 E K => ?run⟩
  case run =>
    simp only [cc0__agg1_fuse_kernel_eq_skeleton]; unfold cc0__agg1_fuse_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.R0RunC.lean ====
import proofs.«144529_j62285615727119_2_alg».proof.Proof.KI.R0RunB

-- membership in a rectangle of full extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0, the whole body where the contraction index is 7 -/

-- (the run's proof term is large: the definition's epilogue walks it past the default budget)
set_option maxHeartbeats 1000000 in
/-- What the body's stores leave in the output's staging memref and in the accumulator, as pieces (last first), where the
    first `scf.if` is not taken and the second is (contraction index 7), with the proof that on whole staging memrefs — the
    inputs' at their contents, the output's at anything (it is loaded once before its store; that value is unused), the
    accumulator at what the point before left (`xs0`) — the body runs to the continuation holding the inputs' as they were,
    the accumulator with its piece written (`LS0`: `xs0` plus the last product) and the output's buffer with its piece
    written (`L4`: the epilogue of the finished accumulator). The pieces are the witness the run finds. -/
noncomputable def kernelRun0_C (c : Dev nD) (i : grid0.Coords) (arg2 : Memref sig .tc .vmem S2048x1024 .f32) (harg2 : arg2.IsWhole) (arg3 : Memref sig .tc .vmem S8192x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x128 .f32) (harg7 : arg7.IsWhole) (hc0 : ¬cond0_0 i) (hc1 : cond0_1 i)
    (x0 : Vec F S2048x1024 .f32) (x1 : Vec F S8192x128 .f32) (x2 : Vec F S128x64 .f32) (x3 : Vec F S1x64 .f32) (xs0 : Vec F S2048x128 .f32) :
    Σ' (L4 : List (View.Piece (Elt F) S2048x64 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__agg1_fuse_kernel i arg2 harg2 arg3 harg3 arg4 harg4 arg5 harg5 arg6 harg6 arg7 harg7) K } := by
  refine ⟨?_, ?_, fun E K => ?run⟩
  case run =>
    simp only [cc0__agg1_fuse_kernel_eq_skeleton]; unfold cc0__agg1_fuse_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.R0Frame.lean ====
import proofs.«144529_j62285615727119_2_alg».proof.Proof.KI.R0RunC

-- membership in a rectangle of full extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: its half of the frame, at the entry contents `V`

What the output window's buffer and the accumulator hold per case (covers, read-backs) and point by point (`outsAt0`),
the proof data (`dat0`), the body obligation, and the invariant's two ends. -/

/-- Where the contraction index is 0 the body stores nothing into the output window (idle there and not written back): no pieces —
    a placeholder nothing consults, since at these points the window is neither written back nor read at the next point. -/
def out0_A_4 (c : Dev nD) (i : grid0.Coords) (arg2 : Memref sig .tc .vmem S2048x1024 .f32) (harg2 : arg2.IsWhole) (arg3 : Memref sig .tc .vmem S8192x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x128 .f32) (harg7 : arg7.IsWhole) (hc0 : cond0_0 i) (hc1 : ¬cond0_1 i)
    (x0 : Vec F S2048x1024 .f32) (x1 : Vec F S8192x128 .f32) (x2 : Vec F S128x64 .f32) (x3 : Vec F S1x64 .f32) : Vec F S2048x64 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Where the contraction index is 0 the body's stores into the accumulator tile it, so they cover it. -/
theorem scover0_A_0 (c : Dev nD) (i : grid0.Coords) (arg2 : Memref sig .tc .vmem S2048x1024 .f32) (harg2 : arg2.IsWhole) (arg3 : Memref sig .tc .vmem S8192x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x128 .f32) (harg7 : arg7.IsWhole) (hc0 : cond0_0 i) (hc1 : ¬cond0_1 i)
    (x0 : Vec F S2048x1024 .f32) (x1 : Vec F S8192x128 .f32) (x2 : Vec F S128x64 .f32) (x3 : Vec F S1x64 .f32) (y : S2048x128.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S2048x128.size (by sl_kernel_rfl) y

/-- What the body leaves in the accumulator where the contraction index is 0: its pieces read back. -/
def sout0_A_0 (c : Dev nD) (i : grid0.Coords) (arg2 : Memref sig .tc .vmem S2048x1024 .f32) (harg2 : arg2.IsWhole) (arg3 : Memref sig .tc .vmem S8192x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x128 .f32) (harg7 : arg7.IsWhole) (hc0 : cond0_0 i) (hc1 : ¬cond0_1 i)
    (x0 : Vec F S2048x1024 .f32) (x1 : Vec F S8192x128 .f32) (x2 : Vec F S128x64 .f32) (x3 : Vec F S1x64 .f32) : Vec F S2048x128 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- Where the contraction index is strictly between 0 and 7 the body stores nothing into the output window (idle there and not written back): no pieces —
    a placeholder nothing consults, since at these points the window is neither written back nor read at the next point. -/
def out0_B_4 (c : Dev nD) (i : grid0.Coords) (arg2 : Memref sig .tc .vmem S2048x1024 .f32) (harg2 : arg2.IsWhole) (arg3 : Memref sig .tc .vmem S8192x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x128 .f32) (harg7 : arg7.IsWhole) (hc0 : ¬cond0_0 i) (hc1 : ¬cond0_1 i)
    (x0 : Vec F S2048x1024 .f32) (x1 : Vec F S8192x128 .f32) (x2 : Vec F S128x64 .f32) (x3 : Vec F S1x64 .f32) (xs0 : Vec F S2048x128 .f32) : Vec F S2048x64 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Where the contraction index is strictly between 0 and 7 the body's stores into the accumulator tile it, so they cover it. -/
theorem scover0_B_0 (c : Dev nD) (i : grid0.Coords) (arg2 : Memref sig .tc .vmem S2048x1024 .f32) (harg2 : arg2.IsWhole) (arg3 : Memref sig .tc .vmem S8192x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x128 .f32) (harg7 : arg7.IsWhole) (hc0 : ¬cond0_0 i) (hc1 : ¬cond0_1 i)
    (x0 : Vec F S2048x1024 .f32) (x1 : Vec F S8192x128 .f32) (x2 : Vec F S128x64 .f32) (x3 : Vec F S1x64 .f32) (xs0 : Vec F S2048x128 .f32) (y : S2048x128.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S2048x128.size (by sl_kernel_rfl) y

/-- What the body leaves in the accumulator where the contraction index is strictly between 0 and 7: its pieces read back. -/
def sout0_B_0 (c : Dev nD) (i : grid0.Coords) (arg2 : Memref sig .tc .vmem S2048x1024 .f32) (harg2 : arg2.IsWhole) (arg3 : Memref sig .tc .vmem S8192x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x128 .f32) (harg7 : arg7.IsWhole) (hc0 : ¬cond0_0 i) (hc1 : ¬cond0_1 i)
    (x0 : Vec F S2048x1024 .f32) (x1 : Vec F S8192x128 .f32) (x2 : Vec F S128x64 .f32) (x3 : Vec F S1x64 .f32) (xs0 : Vec F S2048x128 .f32) : Vec F S2048x128 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- Where the contraction index is 7 the epilogue's one store covers the output block. -/
theorem cover0_C_4 (c : Dev nD) (i : grid0.Coords) (arg2 : Memref sig .tc .vmem S2048x1024 .f32) (harg2 : arg2.IsWhole) (arg3 : Memref sig .tc .vmem S8192x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x128 .f32) (harg7 : arg7.IsWhole) (hc0 : ¬cond0_0 i) (hc1 : cond0_1 i)
    (x0 : Vec F S2048x1024 .f32) (x1 : Vec F S8192x128 .f32) (x2 : Vec F S128x64 .f32) (x3 : Vec F S1x64 .f32) (xs0 : Vec F S2048x128 .f32) (y : S2048x64.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S2048x64.size (by sl_kernel_rfl) y

/-- What the body leaves in the output's staging buffer where the contraction index is 7: its pieces read back. -/
def out0_C_4 (c : Dev nD) (i : grid0.Coords) (arg2 : Memref sig .tc .vmem S2048x1024 .f32) (harg2 : arg2.IsWhole) (arg3 : Memref sig .tc .vmem S8192x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x128 .f32) (harg7 : arg7.IsWhole) (hc0 : ¬cond0_0 i) (hc1 : cond0_1 i)
    (x0 : Vec F S2048x1024 .f32) (x1 : Vec F S8192x128 .f32) (x2 : Vec F S128x64 .f32) (x3 : Vec F S1x64 .f32) (xs0 : Vec F S2048x128 .f32) : Vec F S2048x64 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Where the contraction index is 7 the body's stores into the accumulator tile it, so they cover it. -/
theorem scover0_C_0 (c : Dev nD) (i : grid0.Coords) (arg2 : Memref sig .tc .vmem S2048x1024 .f32) (harg2 : arg2.IsWhole) (arg3 : Memref sig .tc .vmem S8192x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x128 .f32) (harg7 : arg7.IsWhole) (hc0 : ¬cond0_0 i) (hc1 : cond0_1 i)
    (x0 : Vec F S2048x1024 .f32) (x1 : Vec F S8192x128 .f32) (x2 : Vec F S128x64 .f32) (x3 : Vec F S1x64 .f32) (xs0 : Vec F S2048x128 .f32) (y : S2048x128.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S2048x128.size (by sl_kernel_rfl) y

/-- What the body leaves in the accumulator where the contraction index is 7: its pieces read back. -/
def sout0_C_0 (c : Dev nD) (i : grid0.Coords) (arg2 : Memref sig .tc .vmem S2048x1024 .f32) (harg2 : arg2.IsWhole) (arg3 : Memref sig .tc .vmem S8192x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x128 .f32) (harg7 : arg7.IsWhole) (hc0 : ¬cond0_0 i) (hc1 : cond0_1 i)
    (x0 : Vec F S2048x1024 .f32) (x1 : Vec F S8192x128 .f32) (x2 : Vec F S128x64 .f32) (x3 : Vec F S1x64 .f32) (xs0 : Vec F S2048x128 .f32) : Vec F S2048x128 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

section Region0
variable (V : (c : Dev nD) → (b : Ref sig .tc) → Buf (Elt F) ((c : Thread nD τ).loc b))

/-! ## What the buffers hold after each point -/

/-- THE ACCUMULATION. What the output's staging buffer and the accumulator hold after the body at position `n` (a pair:
    the output window's buffer, then the accumulator): the case the closed forms select at `n`, run at the point's memrefs
    and input blocks, the accumulator — where the case reads it before covering it — at what the body left at `n - 1`.
    Both conditions at once is no point of the grid. -/
def outsAt0 (c : Dev nD) : (n : ℕ) → n < cfg0.N → Vec F S2048x64 .f32 × Vec F S2048x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 8 = 0 then
      if h1 : (n + 1) % 8 = 7 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

/-- `outsAt0` at a point whose contraction index is 0: that case's contents. -/
theorem outsAt0_A (c : Dev nD) (t : Fin cfg0.N) (h0 : t.val % 8 = 0) (h1 : ¬t.val % 8 = 7) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

/-- `outsAt0` at a point whose contraction index is strictly between 0 and 7: that case's contents, over what the point before left. -/
theorem outsAt0_B (c : Dev nD) (t : Fin cfg0.N) (h0 : ¬t.val % 8 = 0) (h1 : ¬t.val % 8 = 7) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point whose contraction index is 7: that case's contents, over what the point before left. -/
theorem outsAt0_C (c : Dev nD) (t : Fin cfg0.N) (h0 : ¬t.val % 8 = 0) (h1 : t.val % 8 = 7) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no staging
    buffer of the region at anything, the generator register at some state); afterwards the same with the accumulator at
    what the point before left in it (`outsAt0`'s second component). -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulator at that point's contents. -/
theorem PhiS0_succ (c : Dev nD) (n : ℕ) (hn : n < cfg0.N) :
    PhiS0 V c (n + 1) hn = iprop(iprop(owns (c : Thread nD τ) scM0_0 fullShare ((outsAt0 V c n hn).2) ∗ rest0 (F := F) c) ∗ (∃ r, prngReg c r)) := rfl

/-- Before a point that is not the first: the accumulator at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The proof data of region 0's pipeline on core `c`: the arrays as the region finds them (`V`); after the body at point
    `t` each input's buffer at its block and the output's at `outsAt0`'s first component; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

/-- The proof data's arrays are the region-entry contents (the definition projected, so that `V` is never unfolded). -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the closed forms say which case the point is in; so that
    case's run applies; the invariant hands the body the accumulator at what the point before left (at anything at the first
    point) and takes it back at this point's contents (the stores cover it); the output's buffer comes back untouched where
    the window is idle and at the epilogue's store where the contraction index is 7; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 8 = 0
  · by_cases h1 : t.val % 8 = 7
    · exfalso; omega
    · rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [outsAt0_C V c t h0 h1]
      unfold out0_C_4 sout0_C_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    · rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Region0

end Cert.KernelIdeal.Hand

end
-- ==== Proof.KI.R1Shared.lean ====
import proofs.«144529_j62285615727119_2_alg».proof.Proof.Gen.KernelIdeal.Launch
import proofs.«144529_j62285615727119_2_alg».proof.Proof.Gen.KernelIdeal.Skeleton
import proofs.«144529_j62285615727119_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

/-! # Region 1 (the second aggregation kernel, grid (4, 8)), at the entry contents `V`: what its three runs share -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: not fetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: not fetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: not fetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: not fetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: not fetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place: not fetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s and whose body leaves the block in place: not fetched, the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof
    data whose array is `V`'s and whose body leaves the block in place: not fetched, the block index has not moved. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for any proof
    data whose array is `V`'s and whose body leaves the block in place: not fetched, the block index has not moved. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not, for any proof
    data whose array is `V`'s and whose body leaves the block in place: not fetched, the block index has not moved. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Input window 10's current staging buffer holds its block at every point, fetched there or not, for any proof
    data whose array is `V`'s and whose body leaves the block in place: not fetched, the block index has not moved. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- Input window 11's current staging buffer holds its block at every point, fetched there or not, for any proof
    data whose array is `V`'s and whose body leaves the block in place: not fetched, the block index has not moved. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the contraction index is 0), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 8) — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second conditional (the contraction index is 7, the last), from the grid coordinates. -/
abbrev cond1_1 (i : grid1.Coords) : Prop := k1_cond2 i = 1#1
/-- It holds at the points ≡ 7 (mod 8) — decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- Window 5 is never idle (an input). -/
theorem liveAt1_5 : ∀ t : Fin cfg1.N, cfg1.idle 5 (grid1.coords t) = false := by decide +kernel
/-- Window 6 is never idle (an input). -/
theorem liveAt1_6 : ∀ t : Fin cfg1.N, cfg1.idle 6 (grid1.coords t) = false := by decide +kernel
/-- Window 7 is never idle (an input). -/
theorem liveAt1_7 : ∀ t : Fin cfg1.N, cfg1.idle 7 (grid1.coords t) = false := by decide +kernel
/-- Window 8 is never idle (an input). -/
theorem liveAt1_8 : ∀ t : Fin cfg1.N, cfg1.idle 8 (grid1.coords t) = false := by decide +kernel
/-- Window 9 is never idle (an input). -/
theorem liveAt1_9 : ∀ t : Fin cfg1.N, cfg1.idle 9 (grid1.coords t) = false := by decide +kernel
/-- Window 10 is never idle (an input). -/
theorem liveAt1_10 : ∀ t : Fin cfg1.N, cfg1.idle 10 (grid1.coords t) = false := by decide +kernel
/-- Window 11 is never idle (an input). -/
theorem liveAt1_11 : ∀ t : Fin cfg1.N, cfg1.idle 11 (grid1.coords t) = false := by decide +kernel
/-- At the points of case A (contraction index 0) output 12 is idle: the case stores nothing into it. -/
theorem idleAt1_12_A : ∀ t : Fin cfg1.N, cond1_0 (grid1.coords t) → ¬cond1_1 (grid1.coords t) → cfg1.idle 12 (grid1.coords t) = true := by decide +kernel
/-- At the points of case A output 12's block is not written back. -/
theorem noFlush1_12_A : ∀ t : Fin cfg1.N, cond1_0 (grid1.coords t) → ¬cond1_1 (grid1.coords t) → (cfg1.win 12).flush t = false := by decide +kernel
/-- At the points of case B (contraction index strictly between 0 and 7) output 12 is idle. -/
theorem idleAt1_12_B : ∀ t : Fin cfg1.N, ¬cond1_0 (grid1.coords t) → ¬cond1_1 (grid1.coords t) → cfg1.idle 12 (grid1.coords t) = true := by decide +kernel
/-- At the points of case B output 12's block is not written back. -/
theorem noFlush1_12_B : ∀ t : Fin cfg1.N, ¬cond1_0 (grid1.coords t) → ¬cond1_1 (grid1.coords t) → (cfg1.win 12).flush t = false := by decide +kernel
/-- At the points of case C (contraction index 7) output 12 is live: the case stores its block. -/
theorem liveAt1_12_C : ∀ t : Fin cfg1.N, ¬cond1_0 (grid1.coords t) → cond1_1 (grid1.coords t) → cfg1.idle 12 (grid1.coords t) = false := by decide +kernel

/-! ## The staging and scratch memrefs -/

/-- One staging buffer of output window 12, through which its contents are stated (the choice does not matter). -/
abbrev VO1_12 : View sig .tc .vmem S2048x1 .f32 := (Memref.whole cc1_stg12_0 : Memref sig .tc .vmem S2048x1 .f32).view
/-- Each window's current staging memref at point `t`, spelled as the pipeline passes it, and its wholeness. -/
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x16 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S16x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128x64 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x64 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S64x1 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x1 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S2048x1 .f32 := win1_12.stage (cfg1.slots t 12)
abbrev hs1_12 (t : Fin cfg1.N) : (ms1_12 t).IsWhole := hstage1_12 ((cfg1.slots t 12).cast nbuf1_12)
/-- The scratch operand: a whole scoped buffer of the kernel's own (the f32 accumulator), passed beside the windows. -/
abbrev scM1_0 : Memref sig .tc .vmem S2048x64 .f32 := Memref.whole cc1_scratch0
/-- The accumulator the kernel carries between points, as a view: what it holds is stated through it. -/
abbrev VS1_0 : View sig .tc .vmem S2048x64 .f32 := scM1_0.view

/-- The other scoped buffers that are no staging buffer of this region (the first region's staging buffers and its
    accumulator), each at some contents, beside `P`: the body never touches them, they ride along unchanged. -/
def rest1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ P)

/-- The region's invariant with the accumulator as a memref owned at some contents, beside the buffers the body never
    touches: what the body obligation hands the run and takes back. -/
theorem PhiA1_eq (c : Dev nD) :
    (Pipeline.ΦA spec1 c : sProp 𝕄)
      = iprop(rest1 (F := F) c iprop(∃ d, owns (c : Thread nD τ) scM1_0 fullShare d) ∗ (∃ r, prngReg c r)) := by
  unfold Pipeline.ΦA rest1; rw [scopedRest1_eq]; simp only [scM1_0, owns_whole]; try rfl

end Cert.KernelIdeal.Hand

end
-- ==== Proof.KI.R1RunA.lean ====
import proofs.«144529_j62285615727119_2_alg».proof.Proof.KI.R1Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

set_option maxHeartbeats 4000000 in
/-- What the body's stores leave in the output's staging memref and in the accumulator, as pieces (last first), in case A
    (the contraction index is 0: the accumulator is zeroed, then the product of the adjacency tile with the rows of the second operand it meets is added; the output block is not stored), with the proof that on whole
    staging memrefs — the inputs' at their contents, the output's at contents handed back untouched, the accumulator at anything —
    the body runs to the continuation holding the inputs' as they were, the output's as it was and the accumulator
    with its pieces written. The pieces are the witness the run finds. -/
noncomputable def kernelRun1_A (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x16 .f32) (harg6 : arg6.IsWhole) (arg7 : Memref sig .tc .vmem S64x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S2048x1 .f32) (harg14 : arg14.IsWhole) (arg15 : Memref sig .tc .vmem S2048x64 .f32) (harg15 : arg15.IsWhole) (hc0 : cond1_0 i) (hc1 : ¬cond1_1 i)
    (x0 : Vec F S2048x1024 .f32) (x1 : Vec F S8192x64 .f32) (x2 : Vec F S64x64 .f32) (x3 : Vec F S1x64 .f32) (x4 : Vec F S2048x16 .f32) (x5 : Vec F S64x128 .f32) (x6 : Vec F S16x128 .f32) (x7 : Vec F S1x128 .f32) (x8 : Vec F S128x64 .f32) (x9 : Vec F S1x64 .f32) (x10 : Vec F S64x1 .f32) (x11 : Vec F S1x1 .f32) :
    Σ' (L12 : List (View.Piece (Elt F) S2048x1 .f32)), { LS0 : List (View.Piece (Elt F) S2048x64 .f32) //
      ∀ (xi12 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ (∃ f, arg15.view.loc (c : Thread nD τ) ↦[arg15.view.set]{fullShare} arg15.view.writes (Elt F) f LS0)) -∗ K ⟨⟩))
          ⊢ wp frame (wpE (defs₀ (F := F)) Variants.none c none) E (cc1__agg2_fuse_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, fun xi12 E K => ?run⟩
  case run =>
    simp only [cc1__agg2_fuse_kernel_eq_skeleton]; unfold cc1__agg2_fuse_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    iexists _; iexact HS0

end Cert.KernelIdeal.Hand

end
-- ==== Proof.KI.R1RunB.lean ====
import proofs.«144529_j62285615727119_2_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

set_option maxHeartbeats 4000000 in
/-- What the body's stores leave in the output's staging memref and in the accumulator, as pieces (last first), in case B
    (the contraction index is strictly between 0 and 7: the product is added to the accumulator; the output block is not stored), with the proof that on whole
    staging memrefs — the inputs' at their contents, the output's at contents handed back untouched, the accumulator at what the point before left —
    the body runs to the continuation holding the inputs' as they were, the output's as it was and the accumulator
    with its pieces written. The pieces are the witness the run finds. -/
noncomputable def kernelRun1_B (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x16 .f32) (harg6 : arg6.IsWhole) (arg7 : Memref sig .tc .vmem S64x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S2048x1 .f32) (harg14 : arg14.IsWhole) (arg15 : Memref sig .tc .vmem S2048x64 .f32) (harg15 : arg15.IsWhole) (hc0 : ¬cond1_0 i) (hc1 : ¬cond1_1 i)
    (x0 : Vec F S2048x1024 .f32) (x1 : Vec F S8192x64 .f32) (x2 : Vec F S64x64 .f32) (x3 : Vec F S1x64 .f32) (x4 : Vec F S2048x16 .f32) (x5 : Vec F S64x128 .f32) (x6 : Vec F S16x128 .f32) (x7 : Vec F S1x128 .f32) (x8 : Vec F S128x64 .f32) (x9 : Vec F S1x64 .f32) (x10 : Vec F S64x1 .f32) (x11 : Vec F S1x1 .f32) (xs0 : Vec F S2048x64 .f32) :
    Σ' (L12 : List (View.Piece (Elt F) S2048x1 .f32)), { LS0 : List (View.Piece (Elt F) S2048x64 .f32) //
      ∀ (xi12 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ owns (c : Thread nD τ) arg15 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ (∃ f, arg15.view.loc (c : Thread nD τ) ↦[arg15.view.set]{fullShare} arg15.view.writes (Elt F) f LS0)) -∗ K ⟨⟩))
          ⊢ wp frame (wpE (defs₀ (F := F)) Variants.none c none) E (cc1__agg2_fuse_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, fun xi12 E K => ?run⟩
  case run =>
    simp only [cc1__agg2_fuse_kernel_eq_skeleton]; unfold cc1__agg2_fuse_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    iexists _; iexact HS0

end Cert.KernelIdeal.Hand

end
-- ==== Proof.KI.R1RunC.lean ====
import proofs.«144529_j62285615727119_2_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

set_option maxHeartbeats 4000000 in
/-- What the body's stores leave in the output's staging memref and in the accumulator, as pieces (last first), in case C
    (the contraction index is 7: the product is added to the accumulator, then the small matrix products of the epilogue are taken of it and the output block is stored), with the proof that on whole
    staging memrefs — the inputs' at their contents, the output's at anything, the accumulator at what the point before left —
    the body runs to the continuation holding the inputs' as they were, the output's with its pieces written and the accumulator
    with its pieces written. The pieces are the witness the run finds. -/
noncomputable def kernelRun1_C (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x16 .f32) (harg6 : arg6.IsWhole) (arg7 : Memref sig .tc .vmem S64x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S2048x1 .f32) (harg14 : arg14.IsWhole) (arg15 : Memref sig .tc .vmem S2048x64 .f32) (harg15 : arg15.IsWhole) (hc0 : ¬cond1_0 i) (hc1 : cond1_1 i)
    (x0 : Vec F S2048x1024 .f32) (x1 : Vec F S8192x64 .f32) (x2 : Vec F S64x64 .f32) (x3 : Vec F S1x64 .f32) (x4 : Vec F S2048x16 .f32) (x5 : Vec F S64x128 .f32) (x6 : Vec F S16x128 .f32) (x7 : Vec F S1x128 .f32) (x8 : Vec F S128x64 .f32) (x9 : Vec F S1x64 .f32) (x10 : Vec F S64x1 .f32) (x11 : Vec F S1x1 .f32) (xs0 : Vec F S2048x64 .f32) :
    Σ' (L12 : List (View.Piece (Elt F) S2048x1 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0)) -∗ K ⟨⟩))
          ⊢ wp frame (wpE (defs₀ (F := F)) Variants.none c none) E (cc1__agg2_fuse_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc1__agg2_fuse_kernel_eq_skeleton]; unfold cc1__agg2_fuse_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    iexists _; iexact HS0

end Cert.KernelIdeal.Hand

end
-- ==== Proof.KI.R1Frame.lean ====
import proofs.«144529_j62285615727119_2_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

/-! # Region 1 at the entry contents `V`: what its buffers hold point by point, the proof data, the body obligation -/

/-- Case A stores nothing into output 12 (the window is idle at its points and not written back there): no pieces —
    a placeholder nothing consults. -/
def out1_A_12 (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x16 .f32) (harg6 : arg6.IsWhole) (arg7 : Memref sig .tc .vmem S64x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S2048x1 .f32) (harg14 : arg14.IsWhole) (arg15 : Memref sig .tc .vmem S2048x64 .f32) (harg15 : arg15.IsWhole) (hc0 : cond1_0 i) (hc1 : ¬cond1_1 i)
    (x0 : Vec F S2048x1024 .f32) (x1 : Vec F S8192x64 .f32) (x2 : Vec F S64x64 .f32) (x3 : Vec F S1x64 .f32) (x4 : Vec F S2048x16 .f32) (x5 : Vec F S64x128 .f32) (x6 : Vec F S16x128 .f32) (x7 : Vec F S1x128 .f32) (x8 : Vec F S128x64 .f32) (x9 : Vec F S1x64 .f32) (x10 : Vec F S64x1 .f32) (x11 : Vec F S1x1 .f32) : Vec F S2048x1 .f32 :=
  VO1_12.read (Elt F) (VO1_12.writes (Elt F) VO1_12.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11).1)

/-- Case A's pieces for the accumulator cover it (whole-buffer stores). -/
theorem scover1_A_0 (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x16 .f32) (harg6 : arg6.IsWhole) (arg7 : Memref sig .tc .vmem S64x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S2048x1 .f32) (harg14 : arg14.IsWhole) (arg15 : Memref sig .tc .vmem S2048x64 .f32) (harg15 : arg15.IsWhole) (hc0 : cond1_0 i) (hc1 : ¬cond1_1 i)
    (x0 : Vec F S2048x1024 .f32) (x1 : Vec F S8192x64 .f32) (x2 : Vec F S64x64 .f32) (x3 : Vec F S1x64 .f32) (x4 : Vec F S2048x16 .f32) (x5 : Vec F S64x128 .f32) (x6 : Vec F S16x128 .f32) (x7 : Vec F S1x128 .f32) (x8 : Vec F S128x64 .f32) (x9 : Vec F S1x64 .f32) (x10 : Vec F S64x1 .f32) (x11 : Vec F S1x1 .f32) (y : S2048x64.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11).2.1 S2048x64.size (by sl_kernel_rfl) y

/-- What case A leaves in the accumulator: its pieces read back. -/
def sout1_A_0 (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x16 .f32) (harg6 : arg6.IsWhole) (arg7 : Memref sig .tc .vmem S64x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S2048x1 .f32) (harg14 : arg14.IsWhole) (arg15 : Memref sig .tc .vmem S2048x64 .f32) (harg15 : arg15.IsWhole) (hc0 : cond1_0 i) (hc1 : ¬cond1_1 i)
    (x0 : Vec F S2048x1024 .f32) (x1 : Vec F S8192x64 .f32) (x2 : Vec F S64x64 .f32) (x3 : Vec F S1x64 .f32) (x4 : Vec F S2048x16 .f32) (x5 : Vec F S64x128 .f32) (x6 : Vec F S16x128 .f32) (x7 : Vec F S1x128 .f32) (x8 : Vec F S128x64 .f32) (x9 : Vec F S1x64 .f32) (x10 : Vec F S64x1 .f32) (x11 : Vec F S1x1 .f32) : Vec F S2048x64 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11).2.1)

/-- Case B stores nothing into output 12 (the window is idle at its points and not written back there): no pieces —
    a placeholder nothing consults. -/
def out1_B_12 (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x16 .f32) (harg6 : arg6.IsWhole) (arg7 : Memref sig .tc .vmem S64x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S2048x1 .f32) (harg14 : arg14.IsWhole) (arg15 : Memref sig .tc .vmem S2048x64 .f32) (harg15 : arg15.IsWhole) (hc0 : ¬cond1_0 i) (hc1 : ¬cond1_1 i)
    (x0 : Vec F S2048x1024 .f32) (x1 : Vec F S8192x64 .f32) (x2 : Vec F S64x64 .f32) (x3 : Vec F S1x64 .f32) (x4 : Vec F S2048x16 .f32) (x5 : Vec F S64x128 .f32) (x6 : Vec F S16x128 .f32) (x7 : Vec F S1x128 .f32) (x8 : Vec F S128x64 .f32) (x9 : Vec F S1x64 .f32) (x10 : Vec F S64x1 .f32) (x11 : Vec F S1x1 .f32) (xs0 : Vec F S2048x64 .f32) : Vec F S2048x1 .f32 :=
  VO1_12.read (Elt F) (VO1_12.writes (Elt F) VO1_12.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).1)

/-- Case B's pieces for the accumulator cover it (whole-buffer stores). -/
theorem scover1_B_0 (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x16 .f32) (harg6 : arg6.IsWhole) (arg7 : Memref sig .tc .vmem S64x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S2048x1 .f32) (harg14 : arg14.IsWhole) (arg15 : Memref sig .tc .vmem S2048x64 .f32) (harg15 : arg15.IsWhole) (hc0 : ¬cond1_0 i) (hc1 : ¬cond1_1 i)
    (x0 : Vec F S2048x1024 .f32) (x1 : Vec F S8192x64 .f32) (x2 : Vec F S64x64 .f32) (x3 : Vec F S1x64 .f32) (x4 : Vec F S2048x16 .f32) (x5 : Vec F S64x128 .f32) (x6 : Vec F S16x128 .f32) (x7 : Vec F S1x128 .f32) (x8 : Vec F S128x64 .f32) (x9 : Vec F S1x64 .f32) (x10 : Vec F S64x1 .f32) (x11 : Vec F S1x1 .f32) (xs0 : Vec F S2048x64 .f32) (y : S2048x64.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).2.1 S2048x64.size (by sl_kernel_rfl) y

/-- What case B leaves in the accumulator: its pieces read back. -/
def sout1_B_0 (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x16 .f32) (harg6 : arg6.IsWhole) (arg7 : Memref sig .tc .vmem S64x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S2048x1 .f32) (harg14 : arg14.IsWhole) (arg15 : Memref sig .tc .vmem S2048x64 .f32) (harg15 : arg15.IsWhole) (hc0 : ¬cond1_0 i) (hc1 : ¬cond1_1 i)
    (x0 : Vec F S2048x1024 .f32) (x1 : Vec F S8192x64 .f32) (x2 : Vec F S64x64 .f32) (x3 : Vec F S1x64 .f32) (x4 : Vec F S2048x16 .f32) (x5 : Vec F S64x128 .f32) (x6 : Vec F S16x128 .f32) (x7 : Vec F S1x128 .f32) (x8 : Vec F S128x64 .f32) (x9 : Vec F S1x64 .f32) (x10 : Vec F S64x1 .f32) (x11 : Vec F S1x1 .f32) (xs0 : Vec F S2048x64 .f32) : Vec F S2048x64 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).2.1)

/-- Case C's pieces for output 12 tile its block (one store of the whole block), so they cover it. -/
theorem cover1_C_12 (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x16 .f32) (harg6 : arg6.IsWhole) (arg7 : Memref sig .tc .vmem S64x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S2048x1 .f32) (harg14 : arg14.IsWhole) (arg15 : Memref sig .tc .vmem S2048x64 .f32) (harg15 : arg15.IsWhole) (hc0 : ¬cond1_0 i) (hc1 : cond1_1 i)
    (x0 : Vec F S2048x1024 .f32) (x1 : Vec F S8192x64 .f32) (x2 : Vec F S64x64 .f32) (x3 : Vec F S1x64 .f32) (x4 : Vec F S2048x16 .f32) (x5 : Vec F S64x128 .f32) (x6 : Vec F S16x128 .f32) (x7 : Vec F S1x128 .f32) (x8 : Vec F S128x64 .f32) (x9 : Vec F S1x64 .f32) (x10 : Vec F S64x1 .f32) (x11 : Vec F S1x1 .f32) (xs0 : Vec F S2048x64 .f32) (y : S2048x1.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).1 S2048x1.size (by sl_kernel_rfl) y

/-- What case C leaves in output 12's staging buffer: its pieces read back. -/
def out1_C_12 (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x16 .f32) (harg6 : arg6.IsWhole) (arg7 : Memref sig .tc .vmem S64x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S2048x1 .f32) (harg14 : arg14.IsWhole) (arg15 : Memref sig .tc .vmem S2048x64 .f32) (harg15 : arg15.IsWhole) (hc0 : ¬cond1_0 i) (hc1 : cond1_1 i)
    (x0 : Vec F S2048x1024 .f32) (x1 : Vec F S8192x64 .f32) (x2 : Vec F S64x64 .f32) (x3 : Vec F S1x64 .f32) (x4 : Vec F S2048x16 .f32) (x5 : Vec F S64x128 .f32) (x6 : Vec F S16x128 .f32) (x7 : Vec F S1x128 .f32) (x8 : Vec F S128x64 .f32) (x9 : Vec F S1x64 .f32) (x10 : Vec F S64x1 .f32) (x11 : Vec F S1x1 .f32) (xs0 : Vec F S2048x64 .f32) : Vec F S2048x1 .f32 :=
  VO1_12.read (Elt F) (VO1_12.writes (Elt F) VO1_12.junk (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).1)

/-- Case C's pieces for the accumulator cover it (whole-buffer stores). -/
theorem scover1_C_0 (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x16 .f32) (harg6 : arg6.IsWhole) (arg7 : Memref sig .tc .vmem S64x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S2048x1 .f32) (harg14 : arg14.IsWhole) (arg15 : Memref sig .tc .vmem S2048x64 .f32) (harg15 : arg15.IsWhole) (hc0 : ¬cond1_0 i) (hc1 : cond1_1 i)
    (x0 : Vec F S2048x1024 .f32) (x1 : Vec F S8192x64 .f32) (x2 : Vec F S64x64 .f32) (x3 : Vec F S1x64 .f32) (x4 : Vec F S2048x16 .f32) (x5 : Vec F S64x128 .f32) (x6 : Vec F S16x128 .f32) (x7 : Vec F S1x128 .f32) (x8 : Vec F S128x64 .f32) (x9 : Vec F S1x64 .f32) (x10 : Vec F S64x1 .f32) (x11 : Vec F S1x1 .f32) (xs0 : Vec F S2048x64 .f32) (y : S2048x64.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).2.1 S2048x64.size (by sl_kernel_rfl) y

/-- What case C leaves in the accumulator: its pieces read back. -/
def sout1_C_0 (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x16 .f32) (harg6 : arg6.IsWhole) (arg7 : Memref sig .tc .vmem S64x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S2048x1 .f32) (harg14 : arg14.IsWhole) (arg15 : Memref sig .tc .vmem S2048x64 .f32) (harg15 : arg15.IsWhole) (hc0 : ¬cond1_0 i) (hc1 : cond1_1 i)
    (x0 : Vec F S2048x1024 .f32) (x1 : Vec F S8192x64 .f32) (x2 : Vec F S64x64 .f32) (x3 : Vec F S1x64 .f32) (x4 : Vec F S2048x16 .f32) (x5 : Vec F S64x128 .f32) (x6 : Vec F S16x128 .f32) (x7 : Vec F S1x128 .f32) (x8 : Vec F S128x64 .f32) (x9 : Vec F S1x64 .f32) (x10 : Vec F S64x1 .f32) (x11 : Vec F S1x1 .f32) (xs0 : Vec F S2048x64 .f32) : Vec F S2048x64 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).2.1)

/-! ## What the output's staging buffer and the accumulator hold after each point -/

/-- The accumulation: what output 12's staging buffer and the accumulator hold after the body at position `n` (a pair): the
    case the closed forms select at `n`, run at the point's memrefs and input blocks, the accumulator read at what the
    point before left (in case A it is overwritten first, so nothing is read of the point before). -/
def outsAt1 (c : Dev nD) : (n : ℕ) → n < cfg1.N → Vec F S2048x1 .f32 × Vec F S2048x64 .f32
  | 0, hn => (out1_A_12 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩) (iblk1 V c 11 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩) (iblk1 V c 11 ⟨0, hn⟩))
  | n + 1, hn =>
    if h0 : (n + 1) % 8 = 0 then
      if h1 : (n + 1) % 8 = 7 then
        False.elim (by omega)
      else
        (out1_A_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩))
    else
      if h1 : (n + 1) % 8 = 7 then
        (out1_C_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (outsAt1 c n (Nat.lt_of_succ_lt hn)).2)
      else
        (out1_B_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (outsAt1 c n (Nat.lt_of_succ_lt hn)).2)

/-- `outsAt1` at a point of case A: that case's contents. -/
theorem outsAt1_A (c : Dev nD) (t : Fin cfg1.N) (h0 : t.val % 8 = 0) (h1 : ¬t.val % 8 = 7) :
    outsAt1 V c t.val t.isLt = (out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 8 = 0) (h1 : ¬t.val % 8 = 7) :
    outsAt1 V c t.val t.isLt = (out1_B_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 8 = 0) (h1 : t.val % 8 = 7) :
    outsAt1 V c t.val t.isLt = (out1_C_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the region's own (every scoped buffer that is no
    staging buffer at anything); afterwards the same with the accumulator at what the point before left in it. -/
def PhiS1 (c : Dev nD) : (n : ℕ) → n ≤ cfg1.N → sProp 𝕄
  | 0, _ => Pipeline.ΦA spec1 c
  | n + 1, hn => iprop(rest1 (F := F) c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(rest1 (F := F) c (owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(rest1 (F := F) c (owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of region 1 on core `c`: the arrays as the region finds them (`V`); after the body at point `t` each
    input's buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t)

set_option maxHeartbeats 16000000 in
/-- The body at any point: the inputs' memrefs hold their blocks; the closed forms say which case the point is in; the
    invariant hands the body the accumulator at what the point before left (at anything at the first point) and takes it
    back at this point's contents; the buffers the body never touches go back unchanged; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [show (dat1 V c).leavesExact 10 t = owns (c : Thread nD τ) (ms1_10 t) fullShare ((dat1 V c).after 10 t) from by
        unfold Dat.leavesExact; rw [liveAt1_10 t], after1_10]
      rw [show (dat1 V c).leavesExact 11 t = owns (c : Thread nD τ) (ms1_11 t) fullShare ((dat1 V c).after 11 t) from by
        unfold Dat.leavesExact; rw [liveAt1_11 t], after1_11]
      rw [Dat.leavesExact_idle (dat1 V c) 12 t (idleAt1_12_A t ((hcond1_0 t).mpr h0) (fun h => h1 ((hcond1_1 t).mp h))) (noFlush1_12_A t ((hcond1_0 t).mpr h0) (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]; unfold rest1
        iintro ⟨⟨⟨R0, R1, R2, R3, R4, R5, R6, R7, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun1_A c (grid1.coords t) _ _ _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [HS0]; · iexact HS0
        iintro ⟨H0, H1, H2, H3, H4, H5, H6, H7, H8, H9, H10, H11, H12, ⟨%es0, HS0⟩⟩
        isplitl [R0 R1 R2 R3 R4 R5 R6 R7 HS0 Hg]
        · isplitl [R0 R1 R2 R3 R4 R5 R6 R7 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexists _; iexact H12
      ·
        rw [PhiS1_castSucc V c t, PhiS1_pos V c _ _ hz]; unfold rest1
        iintro ⟨⟨⟨R0, R1, R2, R3, R4, R5, R6, R7, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun1_A c (grid1.coords t) _ _ _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [HS0]; · iexists _; iexact HS0
        iintro ⟨H0, H1, H2, H3, H4, H5, H6, H7, H8, H9, H10, H11, H12, ⟨%es0, HS0⟩⟩
        isplitl [R0 R1 R2 R3 R4 R5 R6 R7 HS0 Hg]
        · isplitl [R0 R1 R2 R3 R4 R5 R6 R7 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexists _; iexact H12
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [show (dat1 V c).leavesExact 10 t = owns (c : Thread nD τ) (ms1_10 t) fullShare ((dat1 V c).after 10 t) from by
        unfold Dat.leavesExact; rw [liveAt1_10 t], after1_10]
      rw [show (dat1 V c).leavesExact 11 t = owns (c : Thread nD τ) (ms1_11 t) fullShare ((dat1 V c).after 11 t) from by
        unfold Dat.leavesExact; rw [liveAt1_11 t], after1_11]
      rw [show (dat1 V c).leavesExact 12 t = owns (c : Thread nD τ) (ms1_12 t) fullShare ((dat1 V c).after 12 t) from by
        unfold Dat.leavesExact; rw [liveAt1_12_C t (fun h => h0 ((hcond1_0 t).mp h)) ((hcond1_1 t).mpr h1)], after1_12]
      rw [outsAt1_C V c t h0 h1]
      unfold out1_C_12 sout1_C_0; (try dsimp only)
      by_cases hz : t.val = 0
      · exfalso; omega
      ·
        rw [PhiS1_castSucc V c t, PhiS1_pos V c _ _ hz]; unfold rest1
        iintro ⟨⟨⟨R0, R1, R2, R3, R4, R5, R6, R7, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun1_C c (grid1.coords t) _ _ _ _ _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [HS0]; · iexact HS0
        iintro ⟨H0, H1, H2, H3, H4, H5, H6, H7, H8, H9, H10, H11, ⟨%e12, H12⟩, ⟨%es0, HS0⟩⟩
        isplitl [R0 R1 R2 R3 R4 R5 R6 R7 HS0 Hg]
        · isplitl [R0 R1 R2 R3 R4 R5 R6 R7 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        unfold owns; iexists _; isplitr
        swap; · iexact H12
        ipureintro; exact View.read_writes_of_cover _ _ _ _ _ (cover1_C_12 c _ _ _ _ _ _ _ _ _ _ _ _ _ _ _ _ _ _ _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [show (dat1 V c).leavesExact 10 t = owns (c : Thread nD τ) (ms1_10 t) fullShare ((dat1 V c).after 10 t) from by
        unfold Dat.leavesExact; rw [liveAt1_10 t], after1_10]
      rw [show (dat1 V c).leavesExact 11 t = owns (c : Thread nD τ) (ms1_11 t) fullShare ((dat1 V c).after 11 t) from by
        unfold Dat.leavesExact; rw [liveAt1_11 t], after1_11]
      rw [Dat.leavesExact_idle (dat1 V c) 12 t (idleAt1_12_B t (fun h => h0 ((hcond1_0 t).mp h)) (fun h => h1 ((hcond1_1 t).mp h))) (noFlush1_12_B t (fun h => h0 ((hcond1_0 t).mp h)) (fun h => h1 ((hcond1_1 t).mp h)))]
      rw [outsAt1_B V c t h0 h1]
      unfold sout1_B_0; (try dsimp only)
      by_cases hz : t.val = 0
      · exfalso; omega
      ·
        rw [PhiS1_castSucc V c t, PhiS1_pos V c _ _ hz]; unfold rest1
        iintro ⟨⟨⟨R0, R1, R2, R3, R4, R5, R6, R7, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun1_B c (grid1.coords t) _ _ _ _ _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [HS0]; · iexact HS0
        iintro ⟨H0, H1, H2, H3, H4, H5, H6, H7, H8, H9, H10, H11, H12, ⟨%es0, HS0⟩⟩
        isplitl [R0 R1 R2 R3 R4 R5 R6 R7 HS0 Hg]
        · isplitl [R0 R1 R2 R3 R4 R5 R6 R7 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexists _; iexact H12

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the region's own back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]; unfold rest1
  iintro ⟨⟨R0, R1, R2, R3, R4, R5, R6, R7, HS0⟩, Hg⟩
  isplitl [R0 R1 R2 R3 R4 R5 R6 R7 HS0]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Hand

end
-- ==== Proof.KI.Assembly.lean ====
/-
  The two aggregation kernels as segments of the program's run, and the run itself.

  Each kernel region is entered with every unscoped buffer held at the valuation the items before it leave, splits its
  windows' arrays out of them, runs its grid, and puts the arrays back: the inputs as they were, the result array at what
  the region's write-backs leave. The first region's result feeds the second as its node features; the second's result is
  reshaped to the program's answer.
-/
import proofs.«144529_j62285615727119_2_alg».proof.Proof.KI.RunCond
import proofs.«144529_j62285615727119_2_alg».proof.Proof.KI.R0Frame
import proofs.«144529_j62285615727119_2_alg».proof.Proof.KI.R1Frame
import Idealize.ShloMosaic.Lib.Pipeline.RegionsLoop

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions find and leave -/

/-- The regions' results as the run's unknowns: `r0` in the first region's result array after it, `r1` in the second's. -/
def outsOf (r0 : (c : Dev nD) → Buf (Elt F) ((c : Thread nD τ).loc main_v6))
    (r1 : (c : Dev nD) → Buf (Elt F) ((c : Thread nD τ).loc main_v13)) : Outs (F := F) :=
  fun J r c => if J = 4 then Function.update (V0 m c) main_v6 (r0 c) r else Function.update (V0 m c) main_v13 (r1 c) r

theorem outsOf_4 (r0 r1) (c : Dev nD) : outsOf m r0 r1 4 main_v6 c = r0 c := by
  unfold outsOf; rw [if_pos rfl]; exact Function.update_self ..

theorem outsOf_6 (r0 r1) (c : Dev nD) : outsOf m r0 r1 6 main_v13 c = r1 c := by
  unfold outsOf; rw [if_neg (by decide)]; exact Function.update_self ..

/-- The TensorCore's buffers as the first region finds them. -/
abbrev In0 (c : Dev nD) (b : Ref sig .tc) : Buf (Elt F) ((c : Thread nD τ).loc b) := V3 m c b

/-- What the first region leaves in its result array: its write-backs folded over the grid. -/
def res0 (c : Dev nD) : Buf (Elt F) ((c : Thread nD τ).loc main_v6) := (dat0 (In0 m) c).arrAt 4 cfg0.N

/-- The TensorCore's buffers as the second region finds them: the first region's result in place, then the host
    stretch between the regions (the biases as rows, the head's first weight cut in two). -/
abbrev In1 (c : Dev nD) (b : Ref sig .tc) : Buf (Elt F) ((c : Thread nD τ).loc b) :=
  V5 m (outsOf m (res0 m) (fun c => m ((c : Thread nD τ).loc main_v13))) c b

/-- What the second region leaves in its result array. -/
def res1 (c : Dev nD) : Buf (Elt F) ((c : Thread nD τ).loc main_v13) := (dat1 (In1 m) c).arrAt 12 cfg1.N

/-- The regions' results. -/
def outs : Outs (F := F) := outsOf m (res0 m) (res1 m)

theorem outs_4 (c : Dev nD) : outs m 4 main_v6 c = res0 m c := outsOf_4 m _ _ c
theorem outs_6 (c : Dev nD) : outs m 6 main_v13 c = res1 m c := outsOf_6 m _ _ c

/-- After the first region every buffer but its result is as before, the result at `res0`. -/
theorem V4_outs (c : Dev nD) : V4 m (outs m) c = Function.update (V3 m c) main_v6 (res0 m c) := by
  show Function.update (V3 m c) main_v6 (outs m 4 main_v6 c) = _
  rw [outs_4]

/-- The first region's result array after it holds `res0`. -/
theorem V4_res (c : Dev nD) : V4 m (outs m) c (main_v6 : Ref sig .tc) = (dat0 (In0 m) c).arrAt 4 cfg0.N := by
  rw [V4_outs]; exact Function.update_self ..

/-- The second region's entry contents do not depend on what it will leave. -/
theorem V5_outs (c : Dev nD) (b : Ref sig .tc) : V5 m (outs m) c b = In1 m c b := by
  show StableHlo.after hostOps1 (Function.update (V3 m c) main_v6 (outs m 4 main_v6 c)) b
    = StableHlo.after hostOps1 (Function.update (V3 m c) main_v6 (outsOf m (res0 m) (fun c => m ((c : Thread nD τ).loc main_v13)) 4 main_v6 c)) b
  rw [outs_4, outsOf_4]

theorem V6_outs (c : Dev nD) : V6 m (outs m) c = Function.update (V5 m (outs m) c) main_v13 (res1 m c) := by
  show Function.update (V5 m (outs m) c) main_v13 (outs m 6 main_v13 c) = _
  rw [outs_6]

/-! ## The proof data family and what rides along -/

/-- Each pipeline's proof data at its region's entry contents. -/
def pdats : (p : Fin 2) → (c : Dev nD) → Dat τ (Elt F) Unit ℕ (UR sig nD τ) ℕ (cfgs p) c
  | ⟨0, _⟩ => fun c => dat0 (In0 m) c
  | ⟨1, _⟩ => fun c => dat1 (In1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)

/-! ## The regions as segments -/

set_option maxHeartbeats 1000000 in
set_option backward.isDefEq.respectTransparency.types false in
/-- The first aggregation kernel: entered from the buffers at `V3`, left at `V4` (its result array at `res0`). -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (In0 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (In0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (In0 m c) fun w => A_eq0 (In0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (In0 m) c
    unfold Pipeline.ΦA at h
    rw [show (pdats m 0 c).Φ 0 = (dat0 (In0 m) c).Φ 0 from rfl]
    iintro ⟨Hp, -, Hr⟩
    iapply h
    isplitl [Hr]; · iexact Hr
    iexact Hp
  hout c := by
    have h := hout0 (In0 m) c
    unfold Pipeline.ΦA at h
    rw [Pipeline.ownSems0_none, show (pdats m 0 c).Φ (Fin.last _) = (dat0 (In0 m) c).Φ (Fin.last cfg0.N) from rfl]
    iintro H
    ihave H' := h $$ H
    icases H' with ⟨Hr, Hp⟩
    isplitl [Hp]; · iexact Hp
    isplitr; · iempintro
    iexact Hr
  hexit c := by
    have hF : ∀ w : Fin cfg0.W, (dat0 (In0 m) c).arrAt w cfg0.N = V4 m (outs m) c (Pipeline.arrRef spec0 w) := by
      intro w
      match w with
      | ⟨0, _⟩ => exact (((dat0 (In0 m) c).arrAt_in 0 rfl _).trans (A_eq0 (In0 m) c 0)).trans (V4_of m (outs m) c _ (by decide)).symm
      | ⟨1, _⟩ => exact (((dat0 (In0 m) c).arrAt_in 1 rfl _).trans (A_eq0 (In0 m) c 1)).trans (V4_of m (outs m) c _ (by decide)).symm
      | ⟨2, _⟩ => exact (((dat0 (In0 m) c).arrAt_in 2 rfl _).trans (A_eq0 (In0 m) c 2)).trans (V4_of m (outs m) c _ (by decide)).symm
      | ⟨3, _⟩ => exact (((dat0 (In0 m) c).arrAt_in 3 rfl _).trans (A_eq0 (In0 m) c 3)).trans (V4_of m (outs m) c _ (by decide)).symm
      | ⟨4, _⟩ => exact (V4_res m c).symm
    have hrest : ∀ b, b ∉ Finset.univ.image (Pipeline.arrRef spec0) → V4 m (outs m) c b = In0 m c b := by
      intro b hb
      exact V4_of m (outs m) c b (fun h => hb (Finset.mem_image.mpr ⟨4, Finset.mem_univ _, (List.mem_singleton.mp h).symm⟩))
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (In0 m c) (fun b => V4 m (outs m) c b) ((pdats m 0 c).arrAt · cfg0.N) (fun w => hF w) hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    iexact HO

/-- The second region's result array after it holds `res1`. -/
theorem V6_res (c : Dev nD) : V6 m (outs m) c (main_v13 : Ref sig .tc) = (dat1 (In1 m) c).arrAt 12 cfg1.N := by
  rw [V6_outs]; exact Function.update_self ..

/-- The second region's entry valuation, whole. -/
theorem V5_outs' (c : Dev nD) : V5 m (outs m) c = V5 m (outsOf m (res0 m) (fun c => m ((c : Thread nD τ).loc main_v13))) c := by
  show StableHlo.after hostOps1 (Function.update (V3 m c) main_v6 (outs m 4 main_v6 c))
    = StableHlo.after hostOps1 (Function.update (V3 m c) main_v6 (outsOf m (res0 m) (fun c => m ((c : Thread nD τ).loc main_v13)) 4 main_v6 c))
  rw [outs_4, outsOf_4]

set_option maxHeartbeats 1000000 in
set_option backward.isDefEq.respectTransparency.types false in
/-- The second aggregation kernel: entered from the buffers at `V5`, left at `V6` (its result array at `res1`). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (In1 m) c).loose
  hwaits := Pipeline.hwaits_of_owed_zero _ _ _ _ L lv 1 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (In1 m c)
  hentry c := by
    rw [Pipeline.ownSems0_none, V5_outs' m c]
    have hsplit := Pipeline.arrays_of_unscopedBufs (p := 1) (pcfgs (F := F)) adm (pdats m) launch1.win launch1.arr_whole c
      ((pdats m 1 c).share_full fun _ => rfl) (In1 m c) fun w => A_eq1 (In1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (In1 m) c
    unfold Pipeline.ΦA at h
    rw [show (pdats m 1 c).Φ 0 = (dat1 (In1 m) c).Φ 0 from rfl]
    iintro ⟨Hp, -, Hr⟩
    iapply h
    isplitl [Hr]; · iexact Hr
    iexact Hp
  hout c := by
    have h := hout1 (In1 m) c
    unfold Pipeline.ΦA at h
    rw [Pipeline.ownSems0_none, show (pdats m 1 c).Φ (Fin.last _) = (dat1 (In1 m) c).Φ (Fin.last cfg1.N) from rfl]
    iintro H
    ihave H' := h $$ H
    icases H' with ⟨Hr, Hp⟩
    isplitl [Hp]; · iexact Hp
    isplitr; · iempintro
    iexact Hr
  hexit c := by
    have hF : ∀ w : Fin cfg1.W, (dat1 (In1 m) c).arrAt w cfg1.N = V6 m (outs m) c (Pipeline.arrRef spec1 w) := by
      intro w
      match w with
      | ⟨0, _⟩ => exact ((((dat1 (In1 m) c).arrAt_in 0 rfl _).trans (A_eq1 (In1 m) c 0)).trans (V5_outs m c _).symm).trans (V6_of m (outs m) c _ (by decide)).symm
      | ⟨1, _⟩ => exact ((((dat1 (In1 m) c).arrAt_in 1 rfl _).trans (A_eq1 (In1 m) c 1)).trans (V5_outs m c _).symm).trans (V6_of m (outs m) c _ (by decide)).symm
      | ⟨2, _⟩ => exact ((((dat1 (In1 m) c).arrAt_in 2 rfl _).trans (A_eq1 (In1 m) c 2)).trans (V5_outs m c _).symm).trans (V6_of m (outs m) c _ (by decide)).symm
      | ⟨3, _⟩ => exact ((((dat1 (In1 m) c).arrAt_in 3 rfl _).trans (A_eq1 (In1 m) c 3)).trans (V5_outs m c _).symm).trans (V6_of m (outs m) c _ (by decide)).symm
      | ⟨4, _⟩ => exact ((((dat1 (In1 m) c).arrAt_in 4 rfl _).trans (A_eq1 (In1 m) c 4)).trans (V5_outs m c _).symm).trans (V6_of m (outs m) c _ (by decide)).symm
      | ⟨5, _⟩ => exact ((((dat1 (In1 m) c).arrAt_in 5 rfl _).trans (A_eq1 (In1 m) c 5)).trans (V5_outs m c _).symm).trans (V6_of m (outs m) c _ (by decide)).symm
      | ⟨6, _⟩ => exact ((((dat1 (In1 m) c).arrAt_in 6 rfl _).trans (A_eq1 (In1 m) c 6)).trans (V5_outs m c _).symm).trans (V6_of m (outs m) c _ (by decide)).symm
      | ⟨7, _⟩ => exact ((((dat1 (In1 m) c).arrAt_in 7 rfl _).trans (A_eq1 (In1 m) c 7)).trans (V5_outs m c _).symm).trans (V6_of m (outs m) c _ (by decide)).symm
      | ⟨8, _⟩ => exact ((((dat1 (In1 m) c).arrAt_in 8 rfl _).trans (A_eq1 (In1 m) c 8)).trans (V5_outs m c _).symm).trans (V6_of m (outs m) c _ (by decide)).symm
      | ⟨9, _⟩ => exact ((((dat1 (In1 m) c).arrAt_in 9 rfl _).trans (A_eq1 (In1 m) c 9)).trans (V5_outs m c _).symm).trans (V6_of m (outs m) c _ (by decide)).symm
      | ⟨10, _⟩ => exact ((((dat1 (In1 m) c).arrAt_in 10 rfl _).trans (A_eq1 (In1 m) c 10)).trans (V5_outs m c _).symm).trans (V6_of m (outs m) c _ (by decide)).symm
      | ⟨11, _⟩ => exact ((((dat1 (In1 m) c).arrAt_in 11 rfl _).trans (A_eq1 (In1 m) c 11)).trans (V5_outs m c _).symm).trans (V6_of m (outs m) c _ (by decide)).symm
      | ⟨12, _⟩ => exact (V6_res m c).symm
    have hrest : ∀ b, b ∉ Finset.univ.image (Pipeline.arrRef spec1) → V6 m (outs m) c b = In1 m c b := by
      intro b hb
      exact (V6_of m (outs m) c b (fun h => hb (Finset.mem_image.mpr ⟨12, Finset.mem_univ _, (List.mem_singleton.mp h).symm⟩))).trans (V5_outs m c b)
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (In1 m c) (fun b => V6 m (outs m) c b) ((pdats m 1 c).arrAt · cfg1.N) (fun w => hF w) hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    iexact HO

/-! ## The run -/

set_option maxHeartbeats 1000000 in
set_option backward.isDefEq.respectTransparency.types false in
/-- THE RUN. From any memory with zero counters every weakly fair execution of @main terminates, nothing faulting, and every
    unscoped buffer ends at the last valuation: the launch contents pushed through the host stretches, the first region's
    result at `res0`, the second's at `res1`. -/
theorem run_main : θ_run defs (onTc (τ := τ) (main (F := F))) ⟨m, fun _ => 0, ρ⟩ (fun r => ∀ c : Dev nD,
      ∀ b ∈ Pipeline.ucRefs τ sig, r.2.mem ((c : Thread nD τ).1, b) = V7 m (outs m) c b) :=
  run_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by
      iintro ⟨-, HO⟩
      iexact HO)
    (reg0 m) (fun _ => .rfl) (fun _ => .rfl) (reg1 m) (fun _ => .rfl) (fun _ => .rfl)

/-- THE FRAME: the program runs to its end from any memory, nothing faulting, and no argument array is changed — no
    host stretch writes one and each region writes only its own result array. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c (Proc.devRef .tc main_arg0) (Finset.mem_filter.mpr ⟨StableHlo.devRef_mem_tcRefs main_arg0, by decide⟩)).trans (V7_main_arg0 m (outs m) c),
      (h c (Proc.devRef .tc main_arg1) (Finset.mem_filter.mpr ⟨StableHlo.devRef_mem_tcRefs main_arg1, by decide⟩)).trans (V7_main_arg1 m (outs m) c),
      (h c (Proc.devRef .tc main_arg2) (Finset.mem_filter.mpr ⟨StableHlo.devRef_mem_tcRefs main_arg2, by decide⟩)).trans (V7_main_arg2 m (outs m) c),
      (h c (Proc.devRef .tc main_arg3) (Finset.mem_filter.mpr ⟨StableHlo.devRef_mem_tcRefs main_arg3, by decide⟩)).trans (V7_main_arg3 m (outs m) c),
      (h c (Proc.devRef .tc main_arg4) (Finset.mem_filter.mpr ⟨StableHlo.devRef_mem_tcRefs main_arg4, by decide⟩)).trans (V7_main_arg4 m (outs m) c),
      (h c (Proc.devRef .tc main_arg5) (Finset.mem_filter.mpr ⟨StableHlo.devRef_mem_tcRefs main_arg5, by decide⟩)).trans (V7_main_arg5 m (outs m) c),
      (h c (Proc.devRef .tc main_arg6) (Finset.mem_filter.mpr ⟨StableHlo.devRef_mem_tcRefs main_arg6, by decide⟩)).trans (V7_main_arg6 m (outs m) c),
      (h c (Proc.devRef .tc main_arg7) (Finset.mem_filter.mpr ⟨StableHlo.devRef_mem_tcRefs main_arg7, by decide⟩)).trans (V7_main_arg7 m (outs m) c),
      (h c (Proc.devRef .tc main_arg8) (Finset.mem_filter.mpr ⟨StableHlo.devRef_mem_tcRefs main_arg8, by decide⟩)).trans (V7_main_arg8 m (outs m) c),
      (h c (Proc.devRef .tc main_arg9) (Finset.mem_filter.mpr ⟨StableHlo.devRef_mem_tcRefs main_arg9, by decide⟩)).trans (V7_main_arg9 m (outs m) c),
      (h c (Proc.devRef .tc main_arg10) (Finset.mem_filter.mpr ⟨StableHlo.devRef_mem_tcRefs main_arg10, by decide⟩)).trans (V7_main_arg10 m (outs m) c),
      (h c (Proc.devRef .tc main_arg11) (Finset.mem_filter.mpr ⟨StableHlo.devRef_mem_tcRefs main_arg11, by decide⟩)).trans (V7_main_arg11 m (outs m) c),
      (h c (Proc.devRef .tc main_arg12) (Finset.mem_filter.mpr ⟨StableHlo.devRef_mem_tcRefs main_arg12, by decide⟩)).trans (V7_main_arg12 m (outs m) c),
      (h c (Proc.devRef .tc main_arg13) (Finset.mem_filter.mpr ⟨StableHlo.devRef_mem_tcRefs main_arg13, by decide⟩)).trans (V7_main_arg13 m (outs m) c),
      (h c (Proc.devRef .tc main_arg14) (Finset.mem_filter.mpr ⟨StableHlo.devRef_mem_tcRefs main_arg14, by decide⟩)).trans (V7_main_arg14 m (outs m) c),
      (h c (Proc.devRef .tc main_arg15) (Finset.mem_filter.mpr ⟨StableHlo.devRef_mem_tcRefs main_arg15, by decide⟩)).trans (V7_main_arg15 m (outs m) c)⟩) (run_main m ρ)

end Cert.KernelIdeal.Hand

end
-- ==== Proof.KI.R0Pieces.lean ====
import proofs.«144529_j62285615727119_2_alg».proof.Proof.KI.R0Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Idealize.ShloMosaic.ValueIdx

variable {F : FTy → Type} [FloatOps F]

/-! # Region 0: what each control case leaves, as the payloads of the blocks

Each case's stores, read back: the accumulator ends at the accumulation payload of the point's row slice of `x`, the
adjacency tile and what the accumulator held (the zero splat where the contraction index is 0); the output block, where the
contraction index is 7, at the epilogue payload of the finished accumulator. -/

theorem hz0 : (![0, 0] : Fin 2 → Nat) = fun _ => 0 := funext fun a => by fin_cases a <;> rfl

/-- The 1024 rows of `x` the body loads at grid coordinates `i`: rows k·1024 … k·1024 + 1023, k the contraction index. -/
abbrev xsl0 (i : grid0.Coords) (x1 : Vec F S8192x128 .f32) : Vec F S1024x128 .f32 :=
  View.ld x1 (Rect.unit (s := S8192x128) (k0_off1 i) S1024x128.size (k0_off1_inb i))

/-- Contraction index 0: the accumulator is zeroed, read back, and left at the zero splat plus the tile's product. -/
theorem soutA_eq (c : Dev nD) (i : grid0.Coords) (arg2 : Memref sig .tc .vmem S2048x1024 .f32) (harg2 : arg2.IsWhole) (arg3 : Memref sig .tc .vmem S8192x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x128 .f32) (harg7 : arg7.IsWhole) (hc0 : cond0_0 i) (hc1 : ¬cond0_1 i)
    (x0 : Vec F S2048x1024 .f32) (x1 : Vec F S8192x128 .f32) (x2 : Vec F S128x64 .f32) (x3 : Vec F S1x64 .f32) :
    sout0_A_0 c i arg2 harg2 arg3 harg3 arg4 harg4 arg5 harg5 arg6 harg6 arg7 harg7 hc0 hc1 x0 x1 x2 x3 = k0_pay2 (xsl0 i x1) x0 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S2048x128) hz0, View.readCov_unit_zero (S := S2048x128) _ hz0]
  simp only [View.readAt_eq_ld, harg2.read_unread, harg3.read_unread, View.ld_unit_zero (S := S2048x1024) hz0]
  rfl

/-- Contraction index 1 to 6: the accumulator is left at what it held plus the tile's product. -/
theorem soutB_eq (c : Dev nD) (i : grid0.Coords) (arg2 : Memref sig .tc .vmem S2048x1024 .f32) (harg2 : arg2.IsWhole) (arg3 : Memref sig .tc .vmem S8192x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x128 .f32) (harg7 : arg7.IsWhole) (hc0 : ¬cond0_0 i) (hc1 : ¬cond0_1 i)
    (x0 : Vec F S2048x1024 .f32) (x1 : Vec F S8192x128 .f32) (x2 : Vec F S128x64 .f32) (x3 : Vec F S1x64 .f32) (xs0 : Vec F S2048x128 .f32) :
    sout0_B_0 c i arg2 harg2 arg3 harg3 arg4 harg4 arg5 harg5 arg6 harg6 arg7 harg7 hc0 hc1 x0 x1 x2 x3 xs0 = k0_pay2 (xsl0 i x1) x0 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  try sl_unfold_words
  rw [View.canon_unit_zero (S := S2048x128) hz0]
  simp only [View.readAt_eq_ld, harg2.read_unread, harg3.read_unread, harg7.read_unread, View.ld_unit_zero (S := S2048x1024) hz0, View.ld_unit_zero (S := S2048x128) hz0]
  rfl

/-- Contraction index 7: the accumulator likewise, -/
theorem soutC_eq (c : Dev nD) (i : grid0.Coords) (arg2 : Memref sig .tc .vmem S2048x1024 .f32) (harg2 : arg2.IsWhole) (arg3 : Memref sig .tc .vmem S8192x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x128 .f32) (harg7 : arg7.IsWhole) (hc0 : ¬cond0_0 i) (hc1 : cond0_1 i)
    (x0 : Vec F S2048x1024 .f32) (x1 : Vec F S8192x128 .f32) (x2 : Vec F S128x64 .f32) (x3 : Vec F S1x64 .f32) (xs0 : Vec F S2048x128 .f32) :
    sout0_C_0 c i arg2 harg2 arg3 harg3 arg4 harg4 arg5 harg5 arg6 harg6 arg7 harg7 hc0 hc1 x0 x1 x2 x3 xs0 = k0_pay2 (xsl0 i x1) x0 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  try sl_unfold_words
  rw [View.canon_unit_zero (S := S2048x128) hz0]
  simp only [View.readAt_eq_ld, harg2.read_unread, harg3.read_unread, harg7.read_unread, View.ld_unit_zero (S := S2048x1024) hz0, View.ld_unit_zero (S := S2048x128) hz0]
  rfl

/-- and the output block at the epilogue of that finished accumulator, the second weight and the bias row. -/
theorem outC_eq (c : Dev nD) (i : grid0.Coords) (arg2 : Memref sig .tc .vmem S2048x1024 .f32) (harg2 : arg2.IsWhole) (arg3 : Memref sig .tc .vmem S8192x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x128 .f32) (harg7 : arg7.IsWhole) (hc0 : ¬cond0_0 i) (hc1 : cond0_1 i)
    (x0 : Vec F S2048x1024 .f32) (x1 : Vec F S8192x128 .f32) (x2 : Vec F S128x64 .f32) (x3 : Vec F S1x64 .f32) (xs0 : Vec F S2048x128 .f32) :
    out0_C_4 c i arg2 harg2 arg3 harg3 arg4 harg4 arg5 harg5 arg6 harg6 arg7 harg7 hc0 hc1 x0 x1 x2 x3 xs0 = k0_pay3 (k0_pay2 (xsl0 i x1) x0 xs0) x2 x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  try sl_unfold_words
  rw [View.canon_unit_zero (S := S2048x64) hz0, View.readCov_unit_zero (S := S2048x128) _ hz0]
  simp only [View.readAt_eq_ld, harg2.read_unread, harg3.read_unread, harg4.read_unread, harg5.read_unread, harg7.read_unread, View.ld_unit_zero (S := S2048x1024) hz0, View.ld_unit_zero (S := S2048x128) hz0, View.ld_unit_zero (S := S128x64) hz0, View.ld_unit_zero (S := S1x64) hz0]
  rfl

end Cert.KernelIdeal.Hand

end
-- ==== Proof.Spec.lean ====
/-
  The mathematics both programs compute, on the extended reals, free of either program.

  A two-layer graph encoder with a critic head.  With A the adjacency matrix, every stage is a plain matrix product
  (entry (p, q) of l · r is Σ_t l(p, t) · r(t, q)), a row bias added to every row, or the pointwise maximum with zero:
    x1  = relu(nodes · We1 + be1)
    x2  = relu((A · x1) · We2 + be2)                                   (layer)
    emb = (A · x2) · Weo + beo
    h1  = relu(emb · Wc1e + act · Wc1a + bc1)     (the rows of Wc1 split in two: first the embedding's, then the action's)
    h2  = relu(h1 · Wc2 + bc2)
    q   = h2 · Wq + bq                                                 (head)
  No law beyond associativity and commutativity of + is needed between the two programs, so nothing here assumes a
  finite entry.
-/
import Idealize.ShloMosaic.PureOps.Ideal
import Idealize.ShloMosaic.Lib.ValueIdx

noncomputable section

namespace Cert.GraphCritic

open Idealize.ShloMosaic Idealize.ShloMosaic.ValueIdx

/-- An a × b matrix of extended reals, indexed as the arrays of the programs are. -/
abbrev Mat (a b : ℕ) : Type := (⟨2, ![a, b]⟩ : Shape).Idx → EReal

/-- The plain product: entry (p, q) is Σ_t l(p, t) · r(t, q). -/
def mm {a k b : ℕ} (l : Mat a k) (r : Mat k b) : Mat a b :=
  fun j => ∑ t : Fin k, l (ix2 (j 0) t) * r (ix2 t (j 1))

/-- A row bias added to every row. -/
def addRow {a b : ℕ} (x : Mat a b) (bias : Mat 1 b) : Mat a b :=
  fun j => x j + bias (ix2 0 (j 1))

/-- The pointwise maximum with zero. -/
def relu {a b : ℕ} (x : Mat a b) : Mat a b := fun j => max (x j) 0

/-- The pointwise sum. -/
def add {a b : ℕ} (x y : Mat a b) : Mat a b := fun j => x j + y j

/-- One aggregation followed by its dense stage, before any activation: (A · x) · W + bias. -/
def aggDense {n d e : ℕ} (A : Mat n n) (x : Mat n d) (W : Mat d e) (bias : Mat 1 e) : Mat n e :=
  addRow (mm (mm A x) W) bias

/-- The encoder's second stage: relu((A · x1) · We2 + be2). -/
def layer {n d e : ℕ} (A : Mat n n) (x : Mat n d) (W : Mat d e) (bias : Mat 1 e) : Mat n e :=
  relu (aggDense A x W bias)

/-- The embedding followed by the critic head, the first head weight given as its two row blocks. -/
def head {n d e a h g : ℕ} (A : Mat n n) (x2 : Mat n d) (Weo : Mat d e) (beo : Mat 1 e) (act : Mat n a)
    (Wc1e : Mat e h) (Wc1a : Mat a h) (bc1 : Mat 1 h) (Wc2 : Mat h g) (bc2 : Mat 1 g) (Wq : Mat g 1) (bq : Mat 1 1) :
    Mat n 1 :=
  addRow (mm (relu (addRow (mm (relu (addRow (add (mm (aggDense A x2 Weo beo) Wc1e) (mm act Wc1a)) bc1)) Wc2) bc2)) Wq) bq

/-- A vector of extended reals, indexed as a rank-1 array is. -/
abbrev Vc (n : ℕ) : Type := (⟨1, ![n]⟩ : Shape).Idx → EReal

/-- A vector as the one row of a 1 × n matrix. -/
def row {n : ℕ} (v : Vc n) : Mat 1 n := fun j => v (ix1 (j 1))

/-- The first k rows of a (k + l)-row matrix. -/
def top {k l b : ℕ} (W : Mat (k + l) b) : Mat k b := fun j => W (ix2 (Fin.castAdd l (j 0)) (j 1))

/-- The last l rows of a (k + l)-row matrix. -/
def bot {k l b : ℕ} (W : Mat (k + l) b) : Mat l b := fun j => W (ix2 (Fin.natAdd k (j 0)) (j 1))

/-- The encoder's first stage: relu(nodes · We1 + be1). -/
def first {n f d : ℕ} (nodes : Mat n f) (We1 : Mat f d) (be1 : Vc d) : Mat n d := relu (addRow (mm nodes We1) (row be1))

/-- The whole network: the critic's value of every node, as a vector. -/
def critic (nodes : Mat 8192 64) (A : Mat 8192 8192) (act : Mat 8192 16) (We1 : Mat 64 128) (be1 : Vc 128)
    (We2 : Mat 128 64) (be2 : Vc 64) (Weo : Mat 64 64) (beo : Vc 64) (Wc1 : Mat (64 + 16) 128) (bc1 : Vc 128)
    (Wc2 : Mat 128 64) (bc2 : Vc 64) (Wq : Mat 64 1) (bq : Vc 1) : Vc 8192 :=
  fun i => head A (layer A (first nodes We1 be1) We2 (row be2)) Weo (row beo) act (top Wc1) (bot Wc1) (row bc1)
    Wc2 (row bc2) Wq (row bq) (ix2 (i 0) 0)

end Cert.GraphCritic

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.LibSumBlocks.lean ====
/-
  Regrouping a finite sum into consecutive blocks, in any commutative monoid.

  A sum over the first `a * b` naturals is the sum over `a` consecutive blocks of `b` of each block's sum, position `q` of
  block `s` being the natural `s * b + q`; and so is a sum over `Fin n` when `n = a * b`. Only associativity and
  commutativity of the addition are used: in the extended reals the law holds at the infinities too. It is the law
  between a contraction taken whole and the same contraction accumulated block by block along the contracted axis.
-/
import Mathlib.Algebra.BigOperators.Fin

namespace Cert.Lib.SumBlocks

/-- A sum over the first `a * b` naturals is the sum, over `a` consecutive blocks of `b`, of each block's sum. -/
theorem sum_range_blocks {β : Type*} [AddCommMonoid β] (g : ℕ → β) (a b : ℕ) :
    ∑ n ∈ Finset.range (a * b), g n = ∑ s ∈ Finset.range a, ∑ q ∈ Finset.range b, g (s * b + q) := by
  induction a with
  | zero => simp
  | succ a ih => rw [Nat.succ_mul, Finset.sum_range_add, ih, Finset.sum_range_succ]

/-- A function of `n` positions, continued by zero to every natural, so that a position may be named by block number and
    offset without a bound in its type. -/
def onNat {β : Type*} [Zero β] {n : ℕ} (f : Fin n → β) (k : ℕ) : β := if h : k < n then f ⟨k, h⟩ else 0

/-- At a natural below `n` the continuation is the function itself. -/
theorem onNat_of_lt {β : Type*} [Zero β] {n : ℕ} (f : Fin n → β) (k : ℕ) (h : k < n) : onNat f k = f ⟨k, h⟩ :=
  dif_pos h

/-- A sum over `n = a * b` positions is the sum over the `a` blocks of `b` of each block's sum, the block's positions
    indexed by `Fin b`. -/
theorem sum_fin_blocks {β : Type*} [AddCommMonoid β] {n : ℕ} (a b : ℕ) (hn : n = a * b) (f : Fin n → β) :
    ∑ k : Fin n, f k = ∑ s ∈ Finset.range a, ∑ q : Fin b, onNat f (s * b + q.val) := by
  subst hn
  have h1 : ∑ k : Fin (a * b), f k = ∑ k : Fin (a * b), onNat f k.val :=
    Finset.sum_congr rfl fun k _ => (onNat_of_lt f k.val k.isLt).symm
  rw [h1, Fin.sum_univ_eq_sum_range (onNat f) (a * b), sum_range_blocks]
  exact Finset.sum_congr rfl fun s _ => (Fin.sum_univ_eq_sum_range (fun q => onNat f (s * b + q)) b).symm

end Cert.Lib.SumBlocks
-- ==== Proof.KI.R0Value.lean ====
import proofs.«144529_j62285615727119_2_alg».proof.Proof.KI.R0Pieces
import proofs.«144529_j62285615727119_2_alg».proof.Proof.Spec
import proofs.«144529_j62285615727119_2_alg».proof.Proof.LibPlainMatmul
import proofs.«144529_j62285615727119_2_alg».proof.Proof.LibSumBlocks
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Idealize.ShloMosaic.ValueIdx

variable {F : FTy → Type} [FloatOps F]

open Cert.GraphCritic Cert.Lib.SumBlocks

/-! # Region 0 at the ideal values: the output array ends at relu((A · x) · W + b)

The accumulator after the point of row tile i and contraction tile k holds, at (p, j), the partial contraction
Σ_{s ≤ k} Σ_{q < 1024} A(i·2048 + p, s·1024 + q) · x(s·1024 + q, j); at k = 7 that is the whole row of A · x, and the
epilogue stores relu((A · x) · W + b) on the row tile. The four row tiles cover the output. -/

/-! ## The schedule in closed form, decided over the grid's 32 points -/

/-- The adjacency window's block index at point t is (t / 8, t % 8). -/
theorem idx0_0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
/-- The windows of x, W and b are their whole arrays: block index (0, 0) at every point. -/
theorem idx0_1 : ∀ t : Fin cfg0.N, win0_1.index t 0 = 0 ∧ win0_1.index t 1 = 0 :=
  (by decide +kernel : ∀ t : Fin grid0.N, win0_1.index t 0 = 0 ∧ win0_1.index t 1 = 0)
theorem idx0_2 : ∀ t : Fin cfg0.N, win0_2.index t 0 = 0 ∧ win0_2.index t 1 = 0 :=
  (by decide +kernel : ∀ t : Fin grid0.N, win0_2.index t 0 = 0 ∧ win0_2.index t 1 = 0)
theorem idx0_3 : ∀ t : Fin cfg0.N, win0_3.index t 0 = 0 ∧ win0_3.index t 1 = 0 :=
  (by decide +kernel : ∀ t : Fin grid0.N, win0_3.index t 0 = 0 ∧ win0_3.index t 1 = 0)
/-- The output window's block index at point t is (t / 8, 0), its block never cut. -/
theorem idx0_4 : ∀ t : Fin cfg0.N, win0_4.index t 0 = t.val / 8 ∧ win0_4.index t 1 = 0
    ∧ win0_4.xsize (grid0.coords t) 0 = 2048 ∧ win0_4.xsize (grid0.coords t) 1 = 64 :=
  (by decide +kernel : ∀ t : Fin grid0.N, win0_4.index t 0 = t.val / 8 ∧ win0_4.index t 1 = 0
    ∧ win0_4.xsize (grid0.coords t) 0 = 2048 ∧ win0_4.xsize (grid0.coords t) 1 = 64)
/-- The row slice of x the body loads at point t starts at row (t % 8) · 1024, column 0. -/
theorem off0_1 : ∀ t : Fin cfg0.N, k0_off1 (grid0.coords t) 0 = t.val % 8 * 1024 ∧ k0_off1 (grid0.coords t) 1 = 0 :=
  (by decide +kernel : ∀ t : Fin grid0.N, k0_off1 (grid0.coords t) 0 = t.val % 8 * 1024 ∧ k0_off1 (grid0.coords t) 1 = 0)

/-! ## The payloads at an entry, at the ideal values -/

/-- The zero splat. -/
theorem pay1_apply (p : Fin 2048) (j : Fin 128) : (k0_pay1 (F := Ideal)) (ix2 p j) = (0 : EReal) := by
  unfold k0_pay1
  simp only [shapeCast_self]
  exact Ideal.ofBits_zero_f32

/-- The accumulation: what the accumulator held plus the tile's product with the row slice. -/
theorem pay2_apply (v6 : Vec Ideal S1024x128 .f32) (v8 : Vec Ideal S2048x1024 .f32) (v11 : Vec Ideal S2048x128 .f32)
    (p : Fin 2048) (j : Fin 128) :
    k0_pay2 v6 v8 v11 (ix2 p j) = v11 (ix2 p j) + ∑ q : Fin 1024, v8 (ix2 p q) * v6 (ix2 q j) := by
  unfold k0_pay2
  simp only [shapeCast_self]
  refine congrArg (v11 (ix2 p j) + ·) ?_
  exact Cert.PlainMatmul.matmul_zero_apply dot_S2048x1024_S1024x128_S2048x128_1_0_0_1_n_n_wf none
    (truncf .bf16 v8 bitsLt_bf16_f32) (truncf .bf16 v6 bitsLt_bf16_f32) p j

/-- The epilogue: the finished accumulator times the second weight, plus the bias row, clamped below at zero. -/
theorem pay3_apply (v20 : Vec Ideal S2048x128 .f32) (v22 : Vec Ideal S128x64 .f32) (v25 : Vec Ideal S1x64 .f32)
    (p : Fin 2048) (j : Fin 64) :
    k0_pay3 v20 v22 v25 (ix2 p j)
      = max ((∑ u : Fin 128, v20 (ix2 p u) * v22 (ix2 u j)) + v25 (ix2 (0 : Fin 1) j)) (0 : EReal) := by
  unfold k0_pay3
  simp only [shapeCast_self]
  refine congrArg₂ max (congrArg₂ (· + ·) ?_ ?_) Ideal.ofBits_zero_f32
  · exact Cert.PlainMatmul.matmul_zero_apply dot_S2048x128_S128x64_S2048x64_1_0_0_1_n_n_wf none
      (truncf .bf16 v20 bitsLt_bf16_f32) (truncf .bf16 v22 bitsLt_bf16_f32) p j
  · exact broadcastTo_1b_ab_apply v25 broadcasts_S1x64_S2048x64 p j

/-! ## The blocks as entries of the arrays -/

section Value
variable (V : (c : Dev nD) → (b : Ref sig .tc) → Buf (Elt Ideal) ((c : Thread nD τ).loc b))

/-- The adjacency tile at point t, entry (p, q), is A(t / 8 · 2048 + p, t % 8 · 1024 + q). -/
theorem blk0_apply (c : Dev nD) (t : Fin cfg0.N) (p : Fin 2048) (q : Fin 1024) (r k : Fin 8192)
    (hr : r.val = t.val / 8 * 2048 + p.val) (hk : k.val = t.val % 8 * 1024 + q.val) :
    (iblk0 V c 0 t : Vec Ideal S2048x1024 .f32) (ix2 p q) = (V c main_arg2 : Mat 8192 8192) (ix2 r k) := by
  unfold iblk0
  rw [View.read_apply]
  show V c main_arg2 _ = V c main_arg2 _
  congr 1
  funext a
  apply Fin.ext
  match a with
  | ⟨0, _⟩ => show win0_0.index t 0 * 2048 + 1 * p.val = r.val; rw [(idx0_0 t).1, hr]; omega
  | ⟨1, _⟩ => show win0_0.index t 1 * 1024 + 1 * q.val = k.val; rw [(idx0_0 t).2, hk]; omega

/-- The window of x is its whole array: at every point its block is the array as the region finds it. -/
theorem blk1_eq (c : Dev nD) (t : Fin cfg0.N) : (iblk0 V c 1 t : Vec Ideal S8192x128 .f32) = (V c main_v4 : Mat 8192 128) := by
  funext y
  unfold iblk0
  rw [View.read_apply]
  show V c main_v4 _ = V c main_v4 y
  congr 1
  funext a
  apply Fin.ext
  match a with
  | ⟨0, _⟩ => show win0_1.index t 0 * 8192 + 1 * (y 0).val = (y 0).val; rw [(idx0_1 t).1]; omega
  | ⟨1, _⟩ => show win0_1.index t 1 * 128 + 1 * (y 1).val = (y 1).val; rw [(idx0_1 t).2]; omega

/-- The window of the second weight is its whole array: at every point its block is the array as the region finds it. -/
theorem blk2_eq (c : Dev nD) (t : Fin cfg0.N) : (iblk0 V c 2 t : Vec Ideal S128x64 .f32) = (V c main_arg6 : Mat 128 64) := by
  funext y
  unfold iblk0
  rw [View.read_apply]
  show V c main_arg6 _ = V c main_arg6 y
  congr 1
  funext a
  apply Fin.ext
  match a with
  | ⟨0, _⟩ => show win0_2.index t 0 * 128 + 1 * (y 0).val = (y 0).val; rw [(idx0_2 t).1]; omega
  | ⟨1, _⟩ => show win0_2.index t 1 * 64 + 1 * (y 1).val = (y 1).val; rw [(idx0_2 t).2]; omega

/-- The window of the bias row is its whole array: at every point its block is the array as the region finds it. -/
theorem blk3_eq (c : Dev nD) (t : Fin cfg0.N) : (iblk0 V c 3 t : Vec Ideal S1x64 .f32) = (V c main_v5 : Mat 1 64) := by
  funext y
  unfold iblk0
  rw [View.read_apply]
  show V c main_v5 _ = V c main_v5 y
  congr 1
  funext a
  apply Fin.ext
  match a with
  | ⟨0, _⟩ => show win0_3.index t 0 * 1 + 1 * (y 0).val = (y 0).val; rw [(idx0_3 t).1]; omega
  | ⟨1, _⟩ => show win0_3.index t 1 * 64 + 1 * (y 1).val = (y 1).val; rw [(idx0_3 t).2]; omega

/-- The row slice the body loads at point t, entry (q, j), is entry (t % 8 · 1024 + q, j) of the array it is cut from. -/
theorem xsl0_apply (x1 : Vec Ideal S8192x128 .f32) (t : Fin cfg0.N) (q : Fin 1024) (j : Fin 128) (k : Fin 8192)
    (hk : k.val = t.val % 8 * 1024 + q.val) :
    xsl0 (grid0.coords t) x1 (ix2 q j) = x1 (ix2 k j) := by
  show x1 _ = x1 _
  congr 1
  funext a
  apply Fin.ext
  match a with
  | ⟨0, _⟩ => show k0_off1 (grid0.coords t) 0 + 1 * q.val = k.val; rw [(off0_1 t).1, hk]; omega
  | ⟨1, _⟩ => show k0_off1 (grid0.coords t) 1 + 1 * j.val = j.val; rw [(off0_1 t).2]; omega

/-! ## The accumulator, point by point -/

/-- The products along row r of A and column j of x. -/
def term0 (A : Mat 8192 8192) (x : Mat 8192 128) (r : Fin 8192) (j : Fin 128) : Fin 8192 → EReal :=
  fun k => A (ix2 r k) * x (ix2 k j)

/-- One point's product, entry (p, j): for a tile whose row p is row r of A over the columns of contraction tile t % 8, and
    the array x, the products of row r over that tile's columns. -/
theorem step_sum (A : Mat 8192 8192) (x : Mat 8192 128) (x0 : Vec Ideal S2048x1024 .f32) (x1 : Vec Ideal S8192x128 .f32)
    (t : Fin cfg0.N) (p : Fin 2048) (j : Fin 128) (r : Fin 8192)
    (h0 : ∀ (q : Fin 1024) (k : Fin 8192), k.val = t.val % 8 * 1024 + q.val → x0 (ix2 p q) = A (ix2 r k))
    (h1 : x1 = x) :
    ∑ q : Fin 1024, x0 (ix2 p q) * xsl0 (grid0.coords t) x1 (ix2 q j)
      = ∑ q : Fin 1024, onNat (term0 A x r j) (t.val % 8 * 1024 + q.val) := by
  have hN : t.val < 32 := lt_of_lt_of_eq t.isLt (show cfg0.N = 32 from N_0)
  refine Finset.sum_congr rfl fun q _ => ?_
  have hk : t.val % 8 * 1024 + q.val < 8192 := by have := q.isLt; omega
  rw [onNat_of_lt _ _ hk, h0 q ⟨_, hk⟩ rfl, xsl0_apply x1 t q j ⟨_, hk⟩ rfl, h1]
  rfl

/-- THE INVARIANT. After point n the accumulator holds, at (p, j), the contraction of row r = n / 8 · 2048 + p of A with
    column j of x over the contraction tiles 0 … n % 8 — by induction on the point. -/
theorem acc_eq (c : Dev nD) : ∀ (n : ℕ) (hn : n < cfg0.N) (p : Fin 2048) (j : Fin 128) (r : Fin 8192),
    r.val = n / 8 * 2048 + p.val →
    (outsAt0 V c n hn).2 (ix2 p j)
      = ∑ s ∈ Finset.range (n % 8 + 1), ∑ q : Fin 1024, onNat (term0 (V c main_arg2) (V c main_v4) r j) (s * 1024 + q.val) := by
  intro n
  induction n using Nat.strong_induction_on with
  | _ n ih =>
    intro hn p j r hr
    have hN : n < 32 := lt_of_lt_of_eq hn (show cfg0.N = 32 from N_0)
    have hstep := step_sum (V c main_arg2) (V c main_v4) (iblk0 V c 0 ⟨n, hn⟩) (iblk0 V c 1 ⟨n, hn⟩) ⟨n, hn⟩ p j r
      (fun q k hk => blk0_apply V c ⟨n, hn⟩ p q r k hr hk) (blk1_eq V c ⟨n, hn⟩)
    dsimp only at hstep
    by_cases h0 : n % 8 = 0
    · have h1 : ¬n % 8 = 7 := by omega
      rw [outsAt0_A V c ⟨n, hn⟩ h0 h1]
      dsimp only
      rw [soutA_eq]
      refine (pay2_apply _ _ _ p j).trans ?_
      rw [pay1_apply, zero_add, hstep, h0]
      simp only [Nat.zero_add, Finset.sum_range_one]
    · have hprev := ih (n - 1) (by omega) (Nat.lt_of_le_of_lt (Nat.sub_le _ _) hn) p j r (by omega)
      rw [show (n - 1) % 8 + 1 = n % 8 from by omega] at hprev
      by_cases h1 : n % 8 = 7
      · rw [outsAt0_C V c ⟨n, hn⟩ h0 h1]
        dsimp only
        rw [soutC_eq]
        refine (pay2_apply _ _ _ p j).trans ?_
        rw [Finset.sum_range_succ, hprev, hstep]
      · rw [outsAt0_B V c ⟨n, hn⟩ h0 h1]
        dsimp only
        rw [soutB_eq]
        refine (pay2_apply _ _ _ p j).trans ?_
        rw [Finset.sum_range_succ, hprev, hstep]

end Value

section Final
variable (V : (c : Dev nD) → (b : Ref sig .tc) → Buf (Elt Ideal) ((c : Thread nD τ).loc b))

/-! ## The output block where the contraction index is 7 -/

/-- At the last contraction tile the accumulator is the whole row of A · x: the eight blocks of 1024 regroup the sum. -/
theorem acc7_eq (c : Dev nD) (t : Fin cfg0.N) (h7 : t.val % 8 = 7) (p : Fin 2048) (u : Fin 128) (r : Fin 8192)
    (hr : r.val = t.val / 8 * 2048 + p.val) :
    (outsAt0 V c t.val t.isLt).2 (ix2 p u) = mm (V c main_arg2 : Mat 8192 8192) (V c main_v4 : Mat 8192 128) (ix2 r u) := by
  rw [acc_eq V c t.val t.isLt p u r hr, h7]
  exact (sum_fin_blocks 8 1024 rfl (term0 (V c main_arg2) (V c main_v4) r u)).symm

/-- So the epilogue stores, at (p, j), relu((A · x) · W + b) at (t / 8 · 2048 + p, j). -/
theorem out7_apply (c : Dev nD) (t : Fin cfg0.N) (h7 : t.val % 8 = 7) (p : Fin 2048) (j : Fin 64) (r : Fin 8192)
    (hr : r.val = t.val / 8 * 2048 + p.val) :
    (outsAt0 V c t.val t.isLt).1 (ix2 p j) = layer (V c main_arg2 : Mat 8192 8192) (V c main_v4 : Mat 8192 128) (V c main_arg6 : Mat 128 64) (V c main_v5 : Mat 1 64) (ix2 r j) := by
  have h0 : ¬t.val % 8 = 0 := by omega
  have hacc : ∀ u : Fin 128, (outsAt0 V c t.val t.isLt).2 (ix2 p u)
      = mm (V c main_arg2 : Mat 8192 8192) (V c main_v4 : Mat 8192 128) (ix2 r u) := fun u => acc7_eq V c t h7 p u r hr
  rw [outsAt0_C V c t h0 h7] at hacc ⊢
  dsimp only at hacc ⊢
  rw [soutC_eq] at hacc
  rw [outC_eq]
  refine (pay3_apply _ _ _ p j).trans ?_
  rw [blk2_eq V c t, blk3_eq V c t]
  simp only [hacc]
  rfl

/-! ## The write-backs and the final array -/

/-- What a point with contraction index 7 writes back is its block of relu((A · x) · W + b). -/
theorem flushed0_eq (c : Dev nD) (t : Fin cfg0.N) (hf : (cfg0.win 4).flush t = true) :
    (dat0 V c).flushed 4 t = ((cfg0.win 4).blk t).view.read (Elt Ideal) (layer (V c main_arg2 : Mat 8192 8192) (V c main_v4 : Mat 8192 128) (V c main_arg6 : Mat 128 64) (V c main_v5 : Mat 1 64)) := by
  have h7 : t.val % 8 = 7 := (flush0_4 t).mp hf
  have hN : t.val < 32 := lt_of_lt_of_eq t.isLt (show cfg0.N = 32 from N_0)
  show (cfg0.win 4).cut (grid0.coords t) ((dat0 V c).after 4 t) = _
  rw [after0_4]
  funext y
  obtain ⟨p, j, rfl⟩ : ∃ (p : Fin 2048) (j : Fin 64), y = ix2 p j := ⟨y 0, y 1, eq_ix2 (n0 := 2048) (n1 := 64) y⟩
  have hr : t.val / 8 * 2048 + p.val < 8192 := by have := p.isLt; omega
  rw [View.read_apply]
  refine (out7_apply V c t h7 p j ⟨_, hr⟩ rfl).trans ?_
  show (layer (V c main_arg2 : Mat 8192 8192) (V c main_v4 : Mat 8192 128) (V c main_arg6 : Mat 128 64) (V c main_v5 : Mat 1 64)) _ = (layer (V c main_arg2 : Mat 8192 8192) (V c main_v4 : Mat 8192 128) (V c main_arg6 : Mat 128 64) (V c main_v5 : Mat 1 64)) _
  congr 1
  funext a
  apply Fin.ext
  match a with
  | ⟨0, _⟩ => show t.val / 8 * 2048 + p.val = win0_4.index t 0 * 2048 + 1 * p.val; rw [(idx0_4 t).1]; omega
  | ⟨1, _⟩ => show j.val = win0_4.index t 1 * 64 + 1 * j.val; rw [(idx0_4 t).2.1]; omega

/-- THE VALUE OF REGION 0: after its 32 points the output array holds relu((A · x) · W + b) of the arrays as the region
    finds them — row r is written back by the point (r / 2048) · 8 + 7, and the four row tiles cover the array. -/
theorem final0 (c : Dev nD) :
    (dat0 (F := Ideal) V c).arrAt 4 cfg0.N = layer (V c main_arg2 : Mat 8192 8192) (V c main_v4 : Mat 8192 128) (V c main_arg6 : Mat 128 64) (V c main_v5 : Mat 1 64) :=
  (dat0 V c).arrAt_eq_of_cover 4 (layer (V c main_arg2 : Mat 8192 8192) (V c main_v4 : Mat 8192 128) (V c main_arg6 : Mat 128 64) (V c main_v5 : Mat 1 64)) (flushed0_eq V c) fun i => by
    have hi0 : (i 0 : Nat) < 8192 := (i 0).isLt
    have hi1 : (i 1 : Nat) < 64 := (i 1).isLt
    have hN : cfg0.N = 32 := N_0
    have ht : (i 0 : Nat) / 2048 * 8 + 7 < cfg0.N := by rw [hN]; omega
    refine ⟨⟨(i 0 : Nat) / 2048 * 8 + 7, ht⟩, (flush0_4 _).mpr (by show ((i 0 : Nat) / 2048 * 8 + 7) % 8 = 7; omega), ?_⟩
    show i ∈ ((View.whole main_v6).slice (win0_4.rect ⟨(i 0 : Nat) / 2048 * 8 + 7, ht⟩)).set
    rw [View.set_slice_whole, Rect.mem_set_unit]
    intro a
    obtain ⟨e0, e1, e2, e3⟩ := idx0_4 ⟨(i 0 : Nat) / 2048 * 8 + 7, ht⟩
    match a with
    | ⟨0, _⟩ =>
      show win0_4.index ⟨(i 0 : Nat) / 2048 * 8 + 7, ht⟩ 0 * win0_4.size 0 ≤ (i 0 : Nat)
        ∧ (i 0 : Nat) < win0_4.index ⟨(i 0 : Nat) / 2048 * 8 + 7, ht⟩ 0 * win0_4.size 0 + win0_4.xsize (grid0.coords ⟨(i 0 : Nat) / 2048 * 8 + 7, ht⟩) 0
      rw [e0, e2, show win0_4.size 0 = 2048 from rfl]; dsimp only; omega
    | ⟨1, _⟩ =>
      show win0_4.index ⟨(i 0 : Nat) / 2048 * 8 + 7, ht⟩ 1 * win0_4.size 1 ≤ (i 1 : Nat)
        ∧ (i 1 : Nat) < win0_4.index ⟨(i 0 : Nat) / 2048 * 8 + 7, ht⟩ 1 * win0_4.size 1 + win0_4.xsize (grid0.coords ⟨(i 0 : Nat) / 2048 * 8 + 7, ht⟩) 1
      rw [e1, e3, show win0_4.size 1 = 64 from rfl]; omega

end Final

end Cert.KernelIdeal.Hand

end
-- ==== Proof.KI.R1Value.lean ====
import proofs.«144529_j62285615727119_2_alg».proof.Proof.KI.R1Frame
import proofs.«144529_j62285615727119_2_alg».proof.Proof.Spec
import proofs.«144529_j62285615727119_2_alg».proof.Proof.LibPlainMatmul
import proofs.«144529_j62285615727119_2_alg».proof.Proof.LibSumBlocks
import Idealize.ShloMosaic.Lib.Pipeline.Value
import Idealize.ShloMosaic.Lib.Tactic

set_option maxRecDepth 16384

noncomputable section

namespace Cert.KernelIdeal.Hand

open Cert.KernelIdeal Cert.KernelIdeal.Gen Cert.GraphCritic
open Idealize.ShloMosaic Idealize.ShloMosaic.TcCoe Idealize.ShloMosaic.Tactic Idealize.ShloMosaic.ValueIdx
open Idealize.SL.Sem
open Idealize.ShloMosaic.Pipeline (Dat)

/-! # Region 1's value at the ideal values: the output array ends holding the specification's head -/

/-! ## The payloads at the ideal values, in the vocabulary of the specification -/

/-- A kernel matrix product into the zero block, its operands rounded to a narrower format first (no rounding at the ideal
    values), is the plain product. -/
theorem mmK1_eq {m K n : ℕ} {φ₁ φ₂ : FTy}
    (wf : DotDims.WF (⟨2, ![m, K]⟩ : Shape) (⟨2, ![K, n]⟩ : Shape) (⟨2, ![m, n]⟩ : Shape) [1] [0] [0] [1] [] [])
    (l : Mat m K) (r : Mat K n) (h1 : φ₁.bits < FTy.bits .f32) (h2 : φ₂.bits < FTy.bits .f32) :
    matmul (F := Ideal) (Cert.PlainMatmul.plain wf) none (truncf (φ := .f32) φ₁ l h1) (truncf (φ := .f32) φ₂ r h2)
        (constant (⟨2, ![m, n]⟩ : Shape) .f32 0x00000000#32) = mm l r := by
  funext j
  rw [eq_ix2 j]
  exact Cert.PlainMatmul.matmul_zero_apply wf none _ _ (j 0) (j 1)

/-- Adding a one-row block broadcast along the rows is adding the row to every row. -/
theorem addf_bcast1_eq {n b : ℕ} (x : Mat n b) (v : Mat 1 b) (h : (⟨2, ![1, b]⟩ : Shape).Broadcasts ⟨2, ![n, b]⟩) :
    addf (F := Ideal) (φ := .f32) x (broadcastTo (⟨2, ![n, b]⟩ : Shape) v h) = addRow x v := by
  funext j
  show x j + broadcastTo _ v h j = x j + v (ix2 0 (j 1))
  congr 1
  refine broadcastTo_apply v h j (ix2 0 (j 1)) fun a => ?_
  match a with
  | ⟨0, _⟩ => rfl
  | ⟨1, _⟩ =>
    by_cases hb : b = 1
    · subst hb
      have h1 := idx2_lt1 j
      exact (show (j 1).val = 0 by omega).trans (if_pos rfl).symm
    · exact (if_neg hb).symm

/-- The pointwise maximum with the zero block is the maximum with zero. -/
theorem max_zero1_eq {n b : ℕ} (x : Mat n b) :
    maximumf (F := Ideal) (φ := .f32) x (broadcast (⟨2, ![n, b]⟩ : Shape) (Scalar.ofBits .f32 0x00000000#32)) = relu x := by
  funext j
  show max (x j) (Ideal.ofBits .f32 0x00000000#32) = max (x j) 0
  rw [Ideal.ofBits_zero_f32]

/-- The accumulation step: what the accumulator held plus the tile's product with the rows it meets. -/
theorem k1pay2_eq (v6 : Mat 1024 64) (v8 : Mat 2048 1024) (v11 : Mat 2048 64) :
    k1_pay2 (F := Ideal) v6 v8 v11 = add v11 (mm v8 v6) := by
  unfold k1_pay2
  simp only [shapeCast_self]
  unfold dot_S2048x1024_S1024x64_S2048x64_1_0_0_1_n_n
  exact congrArg (addf (F := Ideal) (φ := .f32) v11) (mmK1_eq _ v8 v6 _ _)

/-- The zero block the first conditional stores. -/
theorem k1pay1_eq : k1_pay1 (F := Ideal) = fun _ => (0 : EReal) := by
  funext j
  unfold k1_pay1
  simp only [shapeCast_self]
  exact Ideal.ofBits_zero_f32

/-- The epilogue's first part: from the accumulated aggregate, the embedding, the first critic stage on the embedding and
    the actions, and the second critic stage before its activation. -/
theorem k1pay4_eq (v20 : Mat 2048 64) (v22 : Mat 64 64) (v25 : Mat 1 64) (v30 : Mat 64 128) (v34 : Mat 2048 16) (v36 : Mat 16 128)
    (v41 : Mat 1 128) (v48 : Mat 128 64) (v51 : Mat 1 64) :
    k1_pay4 (F := Ideal) v20 v22 v25 v30 v34 v36 v41 v48 v51
      = addRow (mm (relu (addRow (add (mm (addRow (mm v20 v22) v25) v30) (mm v34 v36)) v41)) v48) v51 := by
  unfold k1_pay4
  simp only [shapeCast_self]
  unfold dot_S2048x64_S64x64_S2048x64_1_0_0_1_n_n dot_S2048x64_S64x128_S2048x128_1_0_0_1_n_n
    dot_S2048x16_S16x128_S2048x128_1_0_0_1_n_n dot_S2048x128_S128x64_S2048x64_1_0_0_1_n_n
  refine (congrArg (fun z => addf (F := Ideal) (φ := .f32) z (broadcastTo S2048x64 v51 broadcasts_S1x64_S2048x64)) (mmK1_eq _ _ v48 _ _)).trans ?_
  refine (addf_bcast1_eq _ v51 _).trans ?_
  refine congrArg (fun z => addRow (mm z v48) v51) ?_
  refine (max_zero1_eq _).trans (congrArg relu ?_)
  refine (addf_bcast1_eq _ v41 _).trans (congrArg (fun z => addRow z v41) ?_)
  refine (congrArg (fun z => addf (F := Ideal) (φ := .f32) z _) (mmK1_eq _ _ v30 _ _)).trans ?_
  refine (congrArg (fun z => addf (F := Ideal) (φ := .f32) _ z) (mmK1_eq _ v34 v36 _ _)).trans ?_
  refine congrArg (fun z => add (mm z v30) (mm v34 v36)) ?_
  refine (congrArg (fun z => addf (F := Ideal) (φ := .f32) z _) (mmK1_eq _ v20 v22 _ _)).trans ?_
  exact addf_bcast1_eq _ v25 _

/-- The epilogue's second part: the activation of the second critic stage, the value head and its bias. -/
theorem k1pay3_eq (v54 : Mat 2048 64) (v58 : Mat 64 1) (v61 : Mat 1 1) :
    k1_pay3 (F := Ideal) v54 (k1_pay5 (F := Ideal)) v58 v61 = addRow (mm (relu v54) v58) v61 := by
  unfold k1_pay3 k1_pay5
  simp only [shapeCast_self]
  unfold dot_S2048x64_S64x1_S2048x1_1_0_0_1_n_n
  refine (congrArg (fun z => addf (F := Ideal) (φ := .f32) z (broadcastTo S2048x1 v61 broadcasts_S1x1_S2048x1)) (mmK1_eq _ _ v58 _ _)).trans ?_
  refine (addf_bcast1_eq _ v61 _).trans ?_
  exact congrArg (fun z => addRow (mm z v58) v61) (max_zero1_eq v54)

/-! ## What each case leaves, as payloads of the blocks (at any float values) -/

section Pieces
variable {F : FTy → Type} [FloatOps F]

theorem hz1 : (![0, 0] : Fin 2 → Nat) = fun _ => 0 := funext fun a => by fin_cases a <;> rfl

/-- The rows of the second operand that the adjacency tile at grid point `i` meets: 1024 rows from row 1024·(i 1). -/
def xsl1 (i : grid1.Coords) (x1 : Vec F S8192x64 .f32) : Vec F S1024x64 .f32 :=
  View.ld x1 (Rect.unit (s := S8192x64) (k1_off1 i) S1024x64.size (k1_off1_inb i))

/-- Case A leaves in the accumulator the accumulation step over the zero block. -/
theorem sout1A_eq (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x16 .f32) (harg6 : arg6.IsWhole) (arg7 : Memref sig .tc .vmem S64x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S2048x1 .f32) (harg14 : arg14.IsWhole) (arg15 : Memref sig .tc .vmem S2048x64 .f32) (harg15 : arg15.IsWhole) (hc0 : cond1_0 i) (hc1 : ¬cond1_1 i)
    (x0 : Vec F S2048x1024 .f32) (x1 : Vec F S8192x64 .f32) (x2 : Vec F S64x64 .f32) (x3 : Vec F S1x64 .f32) (x4 : Vec F S2048x16 .f32) (x5 : Vec F S64x128 .f32) (x6 : Vec F S16x128 .f32) (x7 : Vec F S1x128 .f32) (x8 : Vec F S128x64 .f32) (x9 : Vec F S1x64 .f32) (x10 : Vec F S64x1 .f32) (x11 : Vec F S1x1 .f32) :
    sout1_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 = k1_pay2 (xsl1 i x1) x0 (k1_pay1 (F := F)) := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11)]
  unfold kernelRun1_A
  dsimp only
  sl_unfold_run_names
  rw [View.canon_cons_unit_zero (S := S2048x64) hz1, View.readCov_unit_zero (S := S2048x64) _ hz1]
  simp only [View.readAt_eq_ld, harg2.read_unread, harg3.read_unread, View.ld_unit_zero (S := S2048x1024) hz1]
  rfl

/-- Case B leaves in the accumulator the accumulation step over what the point before left. -/
theorem sout1B_eq (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x16 .f32) (harg6 : arg6.IsWhole) (arg7 : Memref sig .tc .vmem S64x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S2048x1 .f32) (harg14 : arg14.IsWhole) (arg15 : Memref sig .tc .vmem S2048x64 .f32) (harg15 : arg15.IsWhole) (hc0 : ¬cond1_0 i) (hc1 : ¬cond1_1 i)
    (x0 : Vec F S2048x1024 .f32) (x1 : Vec F S8192x64 .f32) (x2 : Vec F S64x64 .f32) (x3 : Vec F S1x64 .f32) (x4 : Vec F S2048x16 .f32) (x5 : Vec F S64x128 .f32) (x6 : Vec F S16x128 .f32) (x7 : Vec F S1x128 .f32) (x8 : Vec F S128x64 .f32) (x9 : Vec F S1x64 .f32) (x10 : Vec F S64x1 .f32) (x11 : Vec F S1x1 .f32) (xs0 : Vec F S2048x64 .f32) :
    sout1_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0 = k1_pay2 (xsl1 i x1) x0 xs0 := by
  unfold sout1_B_0
  rw [View.read_writes_eq_canon _ _ _ (scover1_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0)]
  unfold kernelRun1_B
  dsimp only
  rw [View.canon_unit_zero hz1]
  simp only [View.readAt_eq_ld, harg2.read_unread, harg3.read_unread, harg15.read_unread, View.ld_unit_zero (S := S2048x1024) hz1, View.ld_unit_zero (S := S2048x64) hz1]
  rfl

/-- Case C leaves in the accumulator the same accumulation step. -/
theorem sout1C_eq (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x16 .f32) (harg6 : arg6.IsWhole) (arg7 : Memref sig .tc .vmem S64x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S2048x1 .f32) (harg14 : arg14.IsWhole) (arg15 : Memref sig .tc .vmem S2048x64 .f32) (harg15 : arg15.IsWhole) (hc0 : ¬cond1_0 i) (hc1 : cond1_1 i)
    (x0 : Vec F S2048x1024 .f32) (x1 : Vec F S8192x64 .f32) (x2 : Vec F S64x64 .f32) (x3 : Vec F S1x64 .f32) (x4 : Vec F S2048x16 .f32) (x5 : Vec F S64x128 .f32) (x6 : Vec F S16x128 .f32) (x7 : Vec F S1x128 .f32) (x8 : Vec F S128x64 .f32) (x9 : Vec F S1x64 .f32) (x10 : Vec F S64x1 .f32) (x11 : Vec F S1x1 .f32) (xs0 : Vec F S2048x64 .f32) :
    sout1_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0 = k1_pay2 (xsl1 i x1) x0 xs0 := by
  unfold sout1_C_0
  rw [View.read_writes_eq_canon _ _ _ (scover1_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0)]
  unfold kernelRun1_C
  dsimp only
  first | rw [View.canon_unit_zero hz1] | (sl_unfold_run_names; rw [View.canon_unit_zero hz1])
  simp only [View.readAt_eq_ld, harg2.read_unread, harg3.read_unread, harg15.read_unread, View.ld_unit_zero (S := S2048x1024) hz1, View.ld_unit_zero (S := S2048x64) hz1]
  rfl

/-- Case C stores into the output block the epilogue of the accumulator it has just completed. -/
theorem out1C_eq (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x16 .f32) (harg6 : arg6.IsWhole) (arg7 : Memref sig .tc .vmem S64x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S2048x1 .f32) (harg14 : arg14.IsWhole) (arg15 : Memref sig .tc .vmem S2048x64 .f32) (harg15 : arg15.IsWhole) (hc0 : ¬cond1_0 i) (hc1 : cond1_1 i)
    (x0 : Vec F S2048x1024 .f32) (x1 : Vec F S8192x64 .f32) (x2 : Vec F S64x64 .f32) (x3 : Vec F S1x64 .f32) (x4 : Vec F S2048x16 .f32) (x5 : Vec F S64x128 .f32) (x6 : Vec F S16x128 .f32) (x7 : Vec F S1x128 .f32) (x8 : Vec F S128x64 .f32) (x9 : Vec F S1x64 .f32) (x10 : Vec F S64x1 .f32) (x11 : Vec F S1x1 .f32) (xs0 : Vec F S2048x64 .f32) :
    out1_C_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0
      = k1_pay3 (k1_pay4 (k1_pay2 (xsl1 i x1) x0 xs0) x2 x3 x5 x4 x6 x7 x8 x9) (k1_pay5 (F := F)) x10 x11 := by
  unfold out1_C_12
  rw [View.read_writes_eq_canon _ _ _ (cover1_C_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0)]
  unfold kernelRun1_C
  dsimp only
  sl_unfold_run_names
  rw [View.canon_unit_zero hz1, View.readCov_unit_zero (S := S2048x64) _ hz1]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg15.read_unread, View.ld_unit_zero (S := S2048x1024) hz1, View.ld_unit_zero (S := S2048x64) hz1,
    View.ld_unit_zero (S := S64x64) hz1, View.ld_unit_zero (S := S1x64) hz1, View.ld_unit_zero (S := S2048x16) hz1,
    View.ld_unit_zero (S := S64x128) hz1, View.ld_unit_zero (S := S16x128) hz1, View.ld_unit_zero (S := S1x128) hz1,
    View.ld_unit_zero (S := S128x64) hz1, View.ld_unit_zero (S := S64x1) hz1, View.ld_unit_zero (S := S1x1) hz1]
  rfl

end Pieces

/-! ## The blocks as entries of the arrays -/

section Blocks
variable {F : FTy → Type} [FloatOps F]
variable (V : (c : Dev nD) → (b : Ref sig .tc) → Buf (Elt F) ((c : Thread nD τ).loc b))

/-- Point `t` of the grid is row block `t / 8`, contraction block `t % 8`. -/
theorem coords1 : ∀ t : Fin grid1.N, ((grid1.coords t) 0).val = t.val / 8 ∧ ((grid1.coords t) 1).val = t.val % 8 := by decide +kernel
/-- The adjacency tile's block index at point `t`. -/
theorem idx1_0 : ∀ t : Fin grid1.N, win1_0.index t 0 = t.val / 8 ∧ win1_0.index t 1 = t.val % 8 := by decide +kernel
/-- The actions' block index at point `t`. -/
theorem idx1_4 : ∀ t : Fin grid1.N, win1_4.index t 0 = t.val / 8 ∧ win1_4.index t 1 = 0 := by decide +kernel
/-- The output's block index at point `t`, and the block's extents (never cut). -/
theorem idx1_12 : ∀ t : Fin grid1.N, win1_12.index t 0 = t.val / 8 ∧ win1_12.index t 1 = 0 := by decide +kernel
theorem xsize1_12 : ∀ t : Fin grid1.N, win1_12.xsize (grid1.coords t) 0 = 2048 ∧ win1_12.xsize (grid1.coords t) 1 = 1 := by decide +kernel
theorem idx1_1 : ∀ t : Fin grid1.N, win1_1.index t 0 = 0 ∧ win1_1.index t 1 = 0 := by decide +kernel
theorem idx1_2 : ∀ t : Fin grid1.N, win1_2.index t 0 = 0 ∧ win1_2.index t 1 = 0 := by decide +kernel
theorem idx1_3 : ∀ t : Fin grid1.N, win1_3.index t 0 = 0 ∧ win1_3.index t 1 = 0 := by decide +kernel
theorem idx1_5 : ∀ t : Fin grid1.N, win1_5.index t 0 = 0 ∧ win1_5.index t 1 = 0 := by decide +kernel
theorem idx1_6 : ∀ t : Fin grid1.N, win1_6.index t 0 = 0 ∧ win1_6.index t 1 = 0 := by decide +kernel
theorem idx1_7 : ∀ t : Fin grid1.N, win1_7.index t 0 = 0 ∧ win1_7.index t 1 = 0 := by decide +kernel
theorem idx1_8 : ∀ t : Fin grid1.N, win1_8.index t 0 = 0 ∧ win1_8.index t 1 = 0 := by decide +kernel
theorem idx1_9 : ∀ t : Fin grid1.N, win1_9.index t 0 = 0 ∧ win1_9.index t 1 = 0 := by decide +kernel
theorem idx1_10 : ∀ t : Fin grid1.N, win1_10.index t 0 = 0 ∧ win1_10.index t 1 = 0 := by decide +kernel
theorem idx1_11 : ∀ t : Fin grid1.N, win1_11.index t 0 = 0 ∧ win1_11.index t 1 = 0 := by decide +kernel

/-- The adjacency tile at point `t` is rows `2048·(t / 8) …`, columns `1024·(t % 8) …` of the adjacency matrix. -/
theorem iblk1_0_apply (c : Dev nD) (t : Fin cfg1.N) (p : Fin 2048) (q : Fin 1024) (k : S8192x8192.Idx)
    (hk0 : (k 0).val = t.val / 8 * 2048 + p.val) (hk1 : (k 1).val = t.val % 8 * 1024 + q.val) :
    (iblk1 V c 0 t : Vec F S2048x1024 .f32) (ix2 p q) = (V c main_arg2 : S8192x8192.Idx → Elt F .f32) k := by
  have hi := idx1_0 t
  unfold iblk1
  rw [View.read_apply]
  show V c main_arg2 _ = V c main_arg2 _
  congr 1
  funext a
  apply Fin.ext
  match a with
  | ⟨0, _⟩ => show win1_0.index t 0 * 2048 + 1 * p.val = (k 0).val; rw [hi.1, hk0]; omega
  | ⟨1, _⟩ => show win1_0.index t 1 * 1024 + 1 * q.val = (k 1).val; rw [hi.2, hk1]; omega

/-- The actions' block at point `t` is rows `2048·(t / 8) …` of the actions. -/
theorem iblk1_4_apply (c : Dev nD) (t : Fin cfg1.N) (p : Fin 2048) (a' : Fin 16) (k : S8192x16.Idx)
    (hk0 : (k 0).val = t.val / 8 * 2048 + p.val) (hk1 : (k 1).val = a'.val) :
    (iblk1 V c 4 t : Vec F S2048x16 .f32) (ix2 p a') = (V c main_arg3 : S8192x16.Idx → Elt F .f32) k := by
  have hi := idx1_4 t
  unfold iblk1
  rw [View.read_apply]
  show V c main_arg3 _ = V c main_arg3 _
  congr 1
  funext a
  apply Fin.ext
  match a with
  | ⟨0, _⟩ => show win1_4.index t 0 * 2048 + 1 * p.val = (k 0).val; rw [hi.1, hk0]; omega
  | ⟨1, _⟩ => show win1_4.index t 1 * 16 + 1 * a'.val = (k 1).val; rw [hi.2, hk1]; omega

/-- Window 1's block is its whole array at every point. -/
theorem iblk1_1_eq (c : Dev nD) (t : Fin cfg1.N) : (iblk1 V c 1 t : Vec F S8192x64 .f32) = (V c main_v6 : S8192x64.Idx → Elt F .f32) := by
  funext y
  have hi := idx1_1 t
  unfold iblk1
  rw [View.read_apply]
  show V c main_v6 _ = V c main_v6 y
  congr 1
  funext a
  apply Fin.ext
  match a with
  | ⟨0, _⟩ => show win1_1.index t 0 * 8192 + 1 * (y 0).val = (y 0).val; rw [hi.1]; omega
  | ⟨1, _⟩ => show win1_1.index t 1 * 64 + 1 * (y 1).val = (y 1).val; rw [hi.2]; omega

/-- Window 2's block is its whole array at every point. -/
theorem iblk1_2_eq (c : Dev nD) (t : Fin cfg1.N) : (iblk1 V c 2 t : Vec F S64x64 .f32) = (V c main_arg8 : S64x64.Idx → Elt F .f32) := by
  funext y
  have hi := idx1_2 t
  unfold iblk1
  rw [View.read_apply]
  show V c main_arg8 _ = V c main_arg8 y
  congr 1
  funext a
  apply Fin.ext
  match a with
  | ⟨0, _⟩ => show win1_2.index t 0 * 64 + 1 * (y 0).val = (y 0).val; rw [hi.1]; omega
  | ⟨1, _⟩ => show win1_2.index t 1 * 64 + 1 * (y 1).val = (y 1).val; rw [hi.2]; omega

/-- Window 3's block is its whole array at every point. -/
theorem iblk1_3_eq (c : Dev nD) (t : Fin cfg1.N) : (iblk1 V c 3 t : Vec F S1x64 .f32) = (V c main_v7 : S1x64.Idx → Elt F .f32) := by
  funext y
  have hi := idx1_3 t
  unfold iblk1
  rw [View.read_apply]
  show V c main_v7 _ = V c main_v7 y
  congr 1
  funext a
  apply Fin.ext
  match a with
  | ⟨0, _⟩ => show win1_3.index t 0 * 1 + 1 * (y 0).val = (y 0).val; rw [hi.1]; omega
  | ⟨1, _⟩ => show win1_3.index t 1 * 64 + 1 * (y 1).val = (y 1).val; rw [hi.2]; omega

/-- Window 5's block is its whole array at every point. -/
theorem iblk1_5_eq (c : Dev nD) (t : Fin cfg1.N) : (iblk1 V c 5 t : Vec F S64x128 .f32) = (V c main_v11 : S64x128.Idx → Elt F .f32) := by
  funext y
  have hi := idx1_5 t
  unfold iblk1
  rw [View.read_apply]
  show V c main_v11 _ = V c main_v11 y
  congr 1
  funext a
  apply Fin.ext
  match a with
  | ⟨0, _⟩ => show win1_5.index t 0 * 64 + 1 * (y 0).val = (y 0).val; rw [hi.1]; omega
  | ⟨1, _⟩ => show win1_5.index t 1 * 128 + 1 * (y 1).val = (y 1).val; rw [hi.2]; omega

/-- Window 6's block is its whole array at every point. -/
theorem iblk1_6_eq (c : Dev nD) (t : Fin cfg1.N) : (iblk1 V c 6 t : Vec F S16x128 .f32) = (V c main_v12 : S16x128.Idx → Elt F .f32) := by
  funext y
  have hi := idx1_6 t
  unfold iblk1
  rw [View.read_apply]
  show V c main_v12 _ = V c main_v12 y
  congr 1
  funext a
  apply Fin.ext
  match a with
  | ⟨0, _⟩ => show win1_6.index t 0 * 16 + 1 * (y 0).val = (y 0).val; rw [hi.1]; omega
  | ⟨1, _⟩ => show win1_6.index t 1 * 128 + 1 * (y 1).val = (y 1).val; rw [hi.2]; omega

/-- Window 7's block is its whole array at every point. -/
theorem iblk1_7_eq (c : Dev nD) (t : Fin cfg1.N) : (iblk1 V c 7 t : Vec F S1x128 .f32) = (V c main_v8 : S1x128.Idx → Elt F .f32) := by
  funext y
  have hi := idx1_7 t
  unfold iblk1
  rw [View.read_apply]
  show V c main_v8 _ = V c main_v8 y
  congr 1
  funext a
  apply Fin.ext
  match a with
  | ⟨0, _⟩ => show win1_7.index t 0 * 1 + 1 * (y 0).val = (y 0).val; rw [hi.1]; omega
  | ⟨1, _⟩ => show win1_7.index t 1 * 128 + 1 * (y 1).val = (y 1).val; rw [hi.2]; omega

/-- Window 8's block is its whole array at every point. -/
theorem iblk1_8_eq (c : Dev nD) (t : Fin cfg1.N) : (iblk1 V c 8 t : Vec F S128x64 .f32) = (V c main_arg12 : S128x64.Idx → Elt F .f32) := by
  funext y
  have hi := idx1_8 t
  unfold iblk1
  rw [View.read_apply]
  show V c main_arg12 _ = V c main_arg12 y
  congr 1
  funext a
  apply Fin.ext
  match a with
  | ⟨0, _⟩ => show win1_8.index t 0 * 128 + 1 * (y 0).val = (y 0).val; rw [hi.1]; omega
  | ⟨1, _⟩ => show win1_8.index t 1 * 64 + 1 * (y 1).val = (y 1).val; rw [hi.2]; omega

/-- Window 9's block is its whole array at every point. -/
theorem iblk1_9_eq (c : Dev nD) (t : Fin cfg1.N) : (iblk1 V c 9 t : Vec F S1x64 .f32) = (V c main_v9 : S1x64.Idx → Elt F .f32) := by
  funext y
  have hi := idx1_9 t
  unfold iblk1
  rw [View.read_apply]
  show V c main_v9 _ = V c main_v9 y
  congr 1
  funext a
  apply Fin.ext
  match a with
  | ⟨0, _⟩ => show win1_9.index t 0 * 1 + 1 * (y 0).val = (y 0).val; rw [hi.1]; omega
  | ⟨1, _⟩ => show win1_9.index t 1 * 64 + 1 * (y 1).val = (y 1).val; rw [hi.2]; omega

/-- Window 10's block is its whole array at every point. -/
theorem iblk1_10_eq (c : Dev nD) (t : Fin cfg1.N) : (iblk1 V c 10 t : Vec F S64x1 .f32) = (V c main_arg14 : S64x1.Idx → Elt F .f32) := by
  funext y
  have hi := idx1_10 t
  unfold iblk1
  rw [View.read_apply]
  show V c main_arg14 _ = V c main_arg14 y
  congr 1
  funext a
  apply Fin.ext
  match a with
  | ⟨0, _⟩ => show win1_10.index t 0 * 64 + 1 * (y 0).val = (y 0).val; rw [hi.1]; omega
  | ⟨1, _⟩ => show win1_10.index t 1 * 1 + 1 * (y 1).val = (y 1).val; rw [hi.2]; omega

/-- Window 11's block is its whole array at every point. -/
theorem iblk1_11_eq (c : Dev nD) (t : Fin cfg1.N) : (iblk1 V c 11 t : Vec F S1x1 .f32) = (V c main_v10 : S1x1.Idx → Elt F .f32) := by
  funext y
  have hi := idx1_11 t
  unfold iblk1
  rw [View.read_apply]
  show V c main_v10 _ = V c main_v10 y
  congr 1
  funext a
  apply Fin.ext
  match a with
  | ⟨0, _⟩ => show win1_11.index t 0 * 1 + 1 * (y 0).val = (y 0).val; rw [hi.1]; omega
  | ⟨1, _⟩ => show win1_11.index t 1 * 1 + 1 * (y 1).val = (y 1).val; rw [hi.2]; omega

/-- The rows the adjacency tile meets, entry by entry. -/
theorem xsl1_apply (i : grid1.Coords) (x1 : Vec F S8192x64 .f32) (q : Fin 1024) (j : Fin 64) (k : S8192x64.Idx)
    (hk0 : (k 0).val = 1024 * (i 1).val + q.val) (hk1 : (k 1).val = j.val) : xsl1 i x1 (ix2 q j) = x1 k := by
  have e0 : (k1_off1 i) 0 = 1024 * (i 1).val := by rw [k1_off1_eq i]; rfl
  have e1 : (k1_off1 i) 1 = 0 := by rw [k1_off1_eq i]; rfl
  unfold xsl1
  show x1 _ = x1 k
  congr 1
  funext a
  apply Fin.ext
  match a with
  | ⟨0, _⟩ => show (k1_off1 i) 0 + 1 * q.val = (k 0).val; rw [e0, hk0]; omega
  | ⟨1, _⟩ => show (k1_off1 i) 1 + 1 * j.val = (k 1).val; rw [e1, hk1]; omega

end Blocks

/-! ## Rows: every stage after the aggregation acts row by row -/

section Rows

/-- Row `p` of `x'` is row `r` of `x`. -/
def RowEq1 {a a' b : ℕ} (x' : Mat a' b) (p : Fin a') (x : Mat a b) (r : Fin a) : Prop := ∀ j : Fin b, x' (ix2 p j) = x (ix2 r j)

theorem RowEq1.mm {a a' b d : ℕ} {x' : Mat a' b} {p : Fin a'} {x : Mat a b} {r : Fin a} (h : RowEq1 x' p x r) (W : Mat b d) :
    RowEq1 (mm x' W) p (mm x W) r := fun j =>
  Finset.sum_congr rfl fun t _ => congrArg (· * W (ix2 t j)) (h t)

theorem RowEq1.addRow {a a' b : ℕ} {x' : Mat a' b} {p : Fin a'} {x : Mat a b} {r : Fin a} (h : RowEq1 x' p x r) (v : Mat 1 b) :
    RowEq1 (addRow x' v) p (addRow x v) r := fun j => congrArg (· + v (ix2 0 j)) (h j)

theorem RowEq1.relu {a a' b : ℕ} {x' : Mat a' b} {p : Fin a'} {x : Mat a b} {r : Fin a} (h : RowEq1 x' p x r) :
    RowEq1 (relu x') p (relu x) r := fun j => congrArg (max · 0) (h j)

theorem RowEq1.add {a a' b : ℕ} {x' y' : Mat a' b} {p : Fin a'} {x y : Mat a b} {r : Fin a} (h : RowEq1 x' p x r) (g : RowEq1 y' p y r) :
    RowEq1 (add x' y') p (add x y) r := fun j => congrArg₂ (· + ·) (h j) (g j)

/-- Everything after the aggregation, from the aggregate `agg` (standing for A · x2) and the actions. -/
def headOf1 {n : ℕ} (agg : Mat n 64) (Weo : Mat 64 64) (beo : Mat 1 64) (act : Mat n 16) (Wc1e : Mat 64 128) (Wc1a : Mat 16 128)
    (bc1 : Mat 1 128) (Wc2 : Mat 128 64) (bc2 : Mat 1 64) (Wq : Mat 64 1) (bq : Mat 1 1) : Mat n 1 :=
  addRow (mm (relu (addRow (mm (relu (addRow (add (mm (addRow (mm agg Weo) beo) Wc1e) (mm act Wc1a)) bc1)) Wc2) bc2)) Wq) bq

/-- The specification's head is `headOf1` of the whole aggregate. -/
theorem head_eq_headOf1 (A : Mat 8192 8192) (X : Mat 8192 64) (Weo : Mat 64 64) (beo : Mat 1 64) (act : Mat 8192 16) (Wc1e : Mat 64 128)
    (Wc1a : Mat 16 128) (bc1 : Mat 1 128) (Wc2 : Mat 128 64) (bc2 : Mat 1 64) (Wq : Mat 64 1) (bq : Mat 1 1) :
    head A X Weo beo act Wc1e Wc1a bc1 Wc2 bc2 Wq bq = headOf1 (mm A X) Weo beo act Wc1e Wc1a bc1 Wc2 bc2 Wq bq := rfl

/-- A row of `headOf1` depends only on that row of the aggregate and of the actions. -/
theorem headOf1_row {n n' : ℕ} {agg' : Mat n' 64} {act' : Mat n' 16} {agg : Mat n 64} {act : Mat n 16} {p : Fin n'} {r : Fin n}
    (hagg : RowEq1 agg' p agg r) (hact : RowEq1 act' p act r) (Weo : Mat 64 64) (beo : Mat 1 64) (Wc1e : Mat 64 128) (Wc1a : Mat 16 128)
    (bc1 : Mat 1 128) (Wc2 : Mat 128 64) (bc2 : Mat 1 64) (Wq : Mat 64 1) (bq : Mat 1 1) :
    RowEq1 (headOf1 agg' Weo beo act' Wc1e Wc1a bc1 Wc2 bc2 Wq bq) p (headOf1 agg Weo beo act Wc1e Wc1a bc1 Wc2 bc2 Wq bq) r :=
  ((((((((hagg.mm Weo).addRow beo).mm Wc1e).add (hact.mm Wc1a)).addRow bc1).relu.mm Wc2).addRow bc2).relu.mm Wq).addRow bq

end Rows

/-! ## The accumulator point by point, and the output block -/

section Value
variable (V : (c : Dev nD) → (b : Ref sig .tc) → Buf (Elt Ideal) ((c : Thread nD τ).loc b))

/-- The arrays the region finds, as matrices. -/
abbrev A1of (c : Dev nD) : Mat 8192 8192 := V c main_arg2
abbrev X1of (c : Dev nD) : Mat 8192 64 := V c main_v6

/-- Row `p` of row block `n / 8`, as a row of the whole arrays. -/
def rowOf1 (n : ℕ) (h : n < cfg1.N) (p : Fin 2048) : Fin 8192 :=
  ⟨n / 8 * 2048 + p.val, by have hN : cfg1.N = 32 := N_1; have := p.isLt; omega⟩

/-- One term of the contraction at row `r`, column `j`. -/
def term1 (A : Mat 8192 8192) (X : Mat 8192 64) (r : Fin 8192) (j : Fin 64) (k : Fin 8192) : EReal := A (ix2 r k) * X (ix2 k j)

/-- The tile's product with the rows it meets, at an entry: the terms of contraction block `t % 8`. -/
theorem tile_term1 (c : Dev nD) (t : Fin cfg1.N) (p : Fin 2048) (j : Fin 64) :
    mm (iblk1 V c 0 t : Mat 2048 1024) (xsl1 (grid1.coords t) (iblk1 V c 1 t) : Mat 1024 64) (ix2 p j)
      = ∑ q : Fin 1024, Cert.Lib.SumBlocks.onNat (term1 (A1of V c) (X1of V c) (rowOf1 t.val t.isLt p) j) (t.val % 8 * 1024 + q.val) := by
  refine Finset.sum_congr rfl fun q _ => ?_
  have hlt : t.val % 8 * 1024 + q.val < 8192 := by have := q.isLt; omega
  rw [Cert.Lib.SumBlocks.onNat_of_lt _ _ hlt]
  unfold term1
  refine congrArg₂ (fun a b : EReal => a * b) ?_ ?_
  · exact iblk1_0_apply V c t p q (ix2 (rowOf1 t.val t.isLt p) ⟨t.val % 8 * 1024 + q.val, hlt⟩) rfl rfl
  · rw [iblk1_1_eq V c t]
    refine xsl1_apply (grid1.coords t) (V c main_v6) q j (ix2 ⟨t.val % 8 * 1024 + q.val, hlt⟩ j) ?_ rfl
    show t.val % 8 * 1024 + q.val = 1024 * ((grid1.coords t) 1).val + q.val
    rw [(coords1 t).2]; omega

/-- The sum of the first `m` contraction blocks' terms at row `r`, column `j`. -/
def partial1 (A : Mat 8192 8192) (X : Mat 8192 64) (r : Fin 8192) (j : Fin 64) (m : ℕ) : EReal :=
  ∑ s ∈ Finset.range m, ∑ q : Fin 1024, Cert.Lib.SumBlocks.onNat (term1 A X r j) (s * 1024 + q.val)

/-- THE INVARIANT: after point `n` (row block `n / 8`, contraction block `n % 8`) the accumulator holds, at row `p` and column
    `j`, the terms of the contraction blocks `0 … n % 8`. By induction on the point. -/
theorem acc1_eq (c : Dev nD) : ∀ (n : ℕ) (h : n < cfg1.N) (p : Fin 2048) (j : Fin 64),
    (outsAt1 V c n h).2 (ix2 p j) = partial1 (A1of V c) (X1of V c) (rowOf1 n h p) j (n % 8 + 1)
  | 0, h, p, j => by
    rw [outsAt1_A V c ⟨0, h⟩ rfl (by show ¬((0 : ℕ) % 8 = 7); decide)]
    dsimp only
    rw [sout1A_eq]
    refine (congrFun (k1pay2_eq _ _ _) (ix2 p j)).trans ?_
    show k1_pay1 (F := Ideal) (ix2 p j) + mm (iblk1 V c 0 ⟨0, h⟩ : Mat 2048 1024) (xsl1 (grid1.coords ⟨0, h⟩) (iblk1 V c 1 ⟨0, h⟩) : Mat 1024 64) (ix2 p j) = _
    rw [k1pay1_eq, tile_term1 V c ⟨0, h⟩ p j]
    unfold partial1
    show (0 : EReal) + _ = ∑ s ∈ Finset.range 1, _
    rw [zero_add, Finset.sum_range_one]
    rfl
  | n + 1, h, p, j => by
    have hN : cfg1.N = 32 := N_1
    by_cases h0 : (n + 1) % 8 = 0
    · have h1 : ¬(n + 1) % 8 = 7 := by omega
      rw [outsAt1_A V c ⟨n + 1, h⟩ h0 h1]
      dsimp only
      rw [sout1A_eq]
      refine (congrFun (k1pay2_eq _ _ _) (ix2 p j)).trans ?_
      show k1_pay1 (F := Ideal) (ix2 p j) + mm (iblk1 V c 0 ⟨n + 1, h⟩ : Mat 2048 1024) (xsl1 (grid1.coords ⟨n + 1, h⟩) (iblk1 V c 1 ⟨n + 1, h⟩) : Mat 1024 64) (ix2 p j) = _
      rw [k1pay1_eq, tile_term1 V c ⟨n + 1, h⟩ p j]
      unfold partial1
      show (0 : EReal) + (∑ q : Fin 1024, Cert.Lib.SumBlocks.onNat _ ((n + 1) % 8 * 1024 + q.val)) = ∑ s ∈ Finset.range ((n + 1) % 8 + 1), _
      rw [zero_add, h0, Finset.sum_range_one]
    · have ih := acc1_eq c n (Nat.lt_of_succ_lt h) p j
      have hr : rowOf1 n (Nat.lt_of_succ_lt h) p = rowOf1 (n + 1) h p := Fin.ext (by show n / 8 * 2048 + p.val = (n + 1) / 8 * 2048 + p.val; omega)
      have hk : n % 8 + 1 = (n + 1) % 8 := by omega
      rw [hr, hk] at ih
      have step : ∀ prev : Mat 2048 64, prev (ix2 p j) = partial1 (A1of V c) (X1of V c) (rowOf1 (n + 1) h p) j ((n + 1) % 8) →
          k1_pay2 (F := Ideal) (xsl1 (grid1.coords ⟨n + 1, h⟩) (iblk1 V c 1 ⟨n + 1, h⟩)) (iblk1 V c 0 ⟨n + 1, h⟩) prev (ix2 p j)
            = partial1 (A1of V c) (X1of V c) (rowOf1 (n + 1) h p) j ((n + 1) % 8 + 1) := fun prev hp => by
        refine (congrFun (k1pay2_eq _ _ _) (ix2 p j)).trans ?_
        show prev (ix2 p j) + mm (iblk1 V c 0 ⟨n + 1, h⟩ : Mat 2048 1024) (xsl1 (grid1.coords ⟨n + 1, h⟩) (iblk1 V c 1 ⟨n + 1, h⟩) : Mat 1024 64) (ix2 p j) = _
        rw [hp, tile_term1 V c ⟨n + 1, h⟩ p j]
        unfold partial1
        rw [Finset.sum_range_succ]
      by_cases h1 : (n + 1) % 8 = 7
      · rw [outsAt1_C V c ⟨n + 1, h⟩ h0 h1]
        dsimp only
        rw [sout1C_eq]
        exact step _ ih
      · rw [outsAt1_B V c ⟨n + 1, h⟩ h0 h1]
        dsimp only
        rw [sout1B_eq]
        exact step _ ih

/-- At the last contraction block the accumulator's row is the aggregate's row: the whole contraction, regrouped into its eight
    blocks of 1024. -/
theorem acc1_last (c : Dev nD) (t : Fin cfg1.N) (h7 : t.val % 8 = 7) (p : Fin 2048) :
    RowEq1 ((outsAt1 V c t.val t.isLt).2 : Mat 2048 64) p (mm (A1of V c) (X1of V c)) (rowOf1 t.val t.isLt p) := fun j => by
  rw [acc1_eq V c t.val t.isLt p j, h7]
  unfold partial1
  exact (Cert.Lib.SumBlocks.sum_fin_blocks 8 1024 rfl (term1 (A1of V c) (X1of V c) (rowOf1 t.val t.isLt p) j)).symm

/-- The whole function the output array ends holding. -/
abbrev G1of (c : Dev nD) : Mat 8192 1 :=
  head (V c main_arg2 : Mat 8192 8192) (V c main_v6 : Mat 8192 64) (V c main_arg8 : Mat 64 64) (V c main_v7 : Mat 1 64) (V c main_arg3 : Mat 8192 16)
    (V c main_v11 : Mat 64 128) (V c main_v12 : Mat 16 128) (V c main_v8 : Mat 1 128) (V c main_arg12 : Mat 128 64) (V c main_v9 : Mat 1 64)
    (V c main_arg14 : Mat 64 1) (V c main_v10 : Mat 1 1)

/-- At a point of the last contraction block the stored output block is the epilogue of the accumulator the point completes. -/
theorem out1_last (c : Dev nD) (t : Fin cfg1.N) (h7 : t.val % 8 = 7) :
    ((outsAt1 V c t.val t.isLt).1 : Mat 2048 1)
      = headOf1 ((outsAt1 V c t.val t.isLt).2 : Mat 2048 64) (V c main_arg8 : Mat 64 64) (V c main_v7 : Mat 1 64) (iblk1 V c 4 t : Mat 2048 16)
          (V c main_v11 : Mat 64 128) (V c main_v12 : Mat 16 128) (V c main_v8 : Mat 1 128) (V c main_arg12 : Mat 128 64) (V c main_v9 : Mat 1 64)
          (V c main_arg14 : Mat 64 1) (V c main_v10 : Mat 1 1) := by
  have h0 : ¬t.val % 8 = 0 := by omega
  rw [outsAt1_C V c t h0 h7]
  dsimp only
  rw [out1C_eq, sout1C_eq]
  rw [iblk1_2_eq V c t, iblk1_3_eq V c t, iblk1_5_eq V c t, iblk1_6_eq V c t, iblk1_7_eq V c t, iblk1_8_eq V c t, iblk1_9_eq V c t,
    iblk1_10_eq V c t, iblk1_11_eq V c t]
  refine (congrArg (fun z => k1_pay3 (F := Ideal) z (k1_pay5 (F := Ideal)) (V c main_arg14) (V c main_v10)) (k1pay4_eq _ _ _ _ _ _ _ _ _)).trans ?_
  exact k1pay3_eq _ _ _

/-- So its row `p` is row `2048·(t / 8) + p` of the specification's head. -/
theorem out1_apply (c : Dev nD) (t : Fin cfg1.N) (h7 : t.val % 8 = 7) (p : Fin 2048) :
    ((outsAt1 V c t.val t.isLt).1 : Mat 2048 1) (ix2 p 0) = G1of V c (ix2 (rowOf1 t.val t.isLt p) 0) := by
  rw [out1_last V c t h7]
  show _ = head (V c main_arg2 : Mat 8192 8192) _ _ _ _ _ _ _ _ _ _ _ _
  rw [head_eq_headOf1]
  refine headOf1_row (acc1_last V c t h7 p) (fun a' => ?_) _ _ _ _ _ _ _ _ _ 0
  exact iblk1_4_apply V c t p a' (ix2 (rowOf1 t.val t.isLt p) a') rfl rfl

/-- What a point of the last contraction block writes back is its block of the specification's head. -/
theorem flushed_eq1 (c : Dev nD) (t : Fin cfg1.N) (hf : (cfg1.win 12).flush t = true) :
    (dat1 V c).flushed 12 t = ((cfg1.win 12).blk t).view.read (Elt Ideal) (G1of V c) := by
  have h7 : t.val % 8 = 7 := (flush1_12 t).mp hf
  have hi := idx1_12 t
  funext y
  have hy0 : (y 0).val < 2048 := (y 0).isLt
  have hy1 : (y 1).val < 1 := (y 1).isLt
  show (dat1 V c).after 12 t ((cfg1.win 12).xinj (grid1.coords t) y) = _
  rw [after1_12, View.read_apply]
  have hy : (cfg1.win 12).xinj (grid1.coords t) y = (ix2 (⟨(y 0).val, hy0⟩ : Fin 2048) (0 : Fin 1) : S2048x1.Idx) := by
    funext a
    apply Fin.ext
    match a with
    | ⟨0, _⟩ => rfl
    | ⟨1, _⟩ => show (y 1).val = 0; omega
  rw [hy]
  refine (out1_apply V c t h7 ⟨(y 0).val, hy0⟩).trans ?_
  show G1of V c _ = G1of V c _
  congr 1
  funext a
  apply Fin.ext
  match a with
  | ⟨0, _⟩ => show t.val / 8 * 2048 + (y 0).val = win1_12.index t 0 * 2048 + 1 * (y 0).val; rw [hi.1]; omega
  | ⟨1, _⟩ => show 0 = win1_12.index t 1 * 1 + 1 * (y 1).val; rw [hi.2]; omega

/-- REGION 1'S VALUE: after the region the output array holds the specification's head of the arrays the region found. -/
theorem final1 (c : Dev nD) :
    (dat1 (F := Ideal) V c).arrAt 12 cfg1.N = head (V c main_arg2) (V c main_v6) (V c main_arg8) (V c main_v7) (V c main_arg3) (V c main_v11) (V c main_v12) (V c main_v8) (V c main_arg12) (V c main_v9) (V c main_arg14) (V c main_v10) :=
  (dat1 V c).arrAt_eq_of_cover 12 (G1of V c) (flushed_eq1 V c) fun i => by
    have hi0 : (i 0).val < 8192 := (i 0).isLt
    have hi1 : (i 1).val < 1 := (i 1).isLt
    have hN : cfg1.N = 32 := N_1
    have ht : (i 0).val / 2048 * 8 + 7 < cfg1.N := by omega
    refine ⟨⟨(i 0).val / 2048 * 8 + 7, ht⟩, (flush1_12 _).mpr (by show ((i 0).val / 2048 * 8 + 7) % 8 = 7; omega), ?_⟩
    have hx := xsize1_12 ⟨(i 0).val / 2048 * 8 + 7, ht⟩
    have hd := idx1_12 ⟨(i 0).val / 2048 * 8 + 7, ht⟩
    show i ∈ ((View.whole main_v13).slice (win1_12.rect ⟨(i 0).val / 2048 * 8 + 7, ht⟩)).set
    rw [View.set_slice_whole, Rect.mem_set_unit]
    intro a
    match a with
    | ⟨0, _⟩ =>
      show win1_12.index ⟨(i 0).val / 2048 * 8 + 7, ht⟩ 0 * win1_12.size 0 ≤ (i 0 : Nat) ∧ (i 0 : Nat) < win1_12.index ⟨(i 0).val / 2048 * 8 + 7, ht⟩ 0 * win1_12.size 0 + win1_12.xsize (grid1.coords ⟨(i 0).val / 2048 * 8 + 7, ht⟩) 0
      rw [hd.1, hx.1]
      show ((i 0).val / 2048 * 8 + 7) / 8 * 2048 ≤ (i 0).val ∧ (i 0).val < ((i 0).val / 2048 * 8 + 7) / 8 * 2048 + 2048
      omega
    | ⟨1, _⟩ =>
      show win1_12.index ⟨(i 0).val / 2048 * 8 + 7, ht⟩ 1 * win1_12.size 1 ≤ (i 1 : Nat) ∧ (i 1 : Nat) < win1_12.index ⟨(i 0).val / 2048 * 8 + 7, ht⟩ 1 * win1_12.size 1 + win1_12.xsize (grid1.coords ⟨(i 0).val / 2048 * 8 + 7, ht⟩) 1
      rw [hd.2, hx.2]
      omega

end Value

end Cert.KernelIdeal.Hand

end
-- ==== Proof.KI.HostReads.lean ====
/-
  The host stretches of the kernel program, read at the extended reals: what each buffer written between the two kernels
  holds as a function of the arguments. The first stretch computes relu(nodes · We1 + be1) and lays the bias be2 out as one
  row; the stretch between the kernels lays the biases beo, bc1, bc2, bq out as rows and cuts Wc1 into its first 64 and last
  16 rows; the last stretch reads the one-column result as a vector. Arrays no stretch writes keep their launch contents.
-/
import proofs.«144529_j62285615727119_2_alg».proof.Proof.Gen.KernelIdeal.Regions
import proofs.«144529_j62285615727119_2_alg».proof.Proof.Spec
import proofs.«144529_j62285615727119_2_alg».proof.Proof.LibPlainMatmul
import Idealize.ShloMosaic.Lib.ValueLayout

noncomputable section

namespace Cert.KernelIdeal.HandValue

open Cert.KernelIdeal Cert.KernelIdeal.Gen Cert.GraphCritic
open Idealize.ShloMosaic Idealize.ShloMosaic.TcCoe Idealize.ShloMosaic.ValueIdx Idealize.SL.Sem Idealize.ShloMosaic.StableHlo

/-! ## The operations read at an entry -/

/-- The host's product of an [8192, 64] by a [64, 128] array is the plain product. -/
theorem dot_first (l : S8192x64.Idx → EReal) (r : S64x128.Idx → EReal) :
    Host.dotGeneral (F := Ideal) (φ₁ := .f32) (φ₂ := .f32) dot_S8192x64_S64x128_S8192x128_1_0_0_1_n_n none l r = mm l r := by
  funext j
  obtain ⟨p, q, rfl⟩ : ∃ (p : Fin 8192) (q : Fin 128), j = ix2 p q := ⟨j 0, j 1, eq_ix2 j⟩
  simp only [Host.dotGeneral]
  exact Cert.PlainMatmul.dotGeneral_apply _ none _ l r p q

/-- A vector of 128 entries broadcast to one row and then to 8192 rows is read at the entry's column. -/
theorem bias_first (b : S128.Idx → EReal) (j : S8192x128.Idx) :
    broadcastInDim S8192x128 ![0, 1] bcast_S1x128_S8192x128_0_1 (broadcastInDim S1x128 ![1] bcast_S128_S1x128_1 b) j
      = row b (ix2 (0 : Fin 1) (j 1)) := by
  refine (broadcastInDim_apply _ bcast_S1x128_S8192x128_0_1 _ j (ix2 (0 : Fin 1) (j 1)) (fun a => ?_)).trans ?_
  · match a with
    | ⟨0, _⟩ => show 0 = if (1 : Nat) = 1 then 0 else (j 0).val; rw [if_pos rfl]
    | ⟨1, _⟩ => show (j 1).val = if (128 : Nat) = 1 then 0 else (j 1).val; rw [if_neg (by decide)]
  · exact broadcastInDim_apply _ bcast_S128_S1x128_1 b (ix2 (0 : Fin 1) (j 1)) (ix1 (j 1)) (fun a => by
      match a with
      | ⟨0, _⟩ => show (j 1).val = if (128 : Nat) = 1 then 0 else (j 1).val; rw [if_neg (by decide)])

/-- The zero constant broadcast to every entry is zero. -/
theorem zero_splat (j : S8192x128.Idx) :
    broadcastInDim S8192x128 ![] bcast_S_S8192x128 (constant (F := Ideal) S_ .f32 0x00000000#32) j = 0 :=
  (broadcastInDim_apply _ bcast_S_S8192x128 _ j ix0 (fun a => a.elim0)).trans Ideal.ofBits_zero_f32

/-- A vector laid out as one row. -/
theorem row_cast {n : ℕ} (v : Vc n) (h : (⟨1, ![n]⟩ : Shape).ShapeCasts ⟨2, ![1, n]⟩) :
    shapeCast ⟨2, ![1, n]⟩ v h = row v := by
  funext j
  obtain ⟨u, i, rfl⟩ : ∃ (u : Fin 1) (i : Fin n), j = ix2 u i := ⟨j 0, j 1, eq_ix2 j⟩
  exact shapeCast_a_1a_apply v h u i

/-- The first 64 rows cut out of an 80-row array. -/
theorem top_slice (W : S80x128.Idx → EReal) :
    extractStridedSlice S64x128 ![0, 0] W slices_S80x128_S64x128_0_0 = top (k := 64) (l := 16) W := by
  funext j
  obtain ⟨p, q, rfl⟩ : ∃ (p : Fin 64) (q : Fin 128), j = ix2 p q := ⟨j 0, j 1, eq_ix2 j⟩
  exact slice2_axis0_apply 0 W slices_S80x128_S64x128_0_0 p q (Fin.castAdd 16 p) (by show p.val = 0 + p.val; omega)

/-- The last 16 rows cut out of an 80-row array. -/
theorem bot_slice (W : S80x128.Idx → EReal) :
    extractStridedSlice S16x128 ![64, 0] W slices_S80x128_S16x128_64_0 = bot (k := 64) (l := 16) W := by
  funext j
  obtain ⟨p, q, rfl⟩ : ∃ (p : Fin 16) (q : Fin 128), j = ix2 p q := ⟨j 0, j 1, eq_ix2 j⟩
  exact slice2_axis0_apply 64 W slices_S80x128_S16x128_64_0 p q (Fin.natAdd 64 p) rfl

/-- A one-column array read as a vector. -/
theorem column_cast (x : S8192x1.Idx → EReal) :
    shapeCast S8192 x shapeCasts_S8192x1_S8192 = fun i => x (ix2 (i 0) (0 : Fin 1)) := by
  funext i
  exact shapeCast_apply x shapeCasts_S8192x1_S8192 i (ix2 (i 0) (0 : Fin 1))
    (by rewrite [Shape.rowMajor_val_two, Shape.rowMajor_val_one]; show (i 0).val * 1 + 0 = (i 0).val; omega)

/-! ## The buffers between the items -/

variable (m : (ℓ : Loc nD τ sig) → Buf (Elt Ideal) ℓ) (c : Dev nD) (outs : Outs (F := Ideal))

/-- A buffer that neither the first three host stretches nor the first kernel writes holds its launch contents when the
    second host stretch begins. -/
theorem V4_launch (r : Ref sig .tc) (h4 : r ∉ ([main_v6] : List (Ref sig .tc))) (h3 : r ∉ hostOps0_2_W)
    (h2 : r ∉ hostOps0_1_W) (h1 : r ∉ hostOps0_W) : V4 m outs c r = m ((c.tc : Thread nD τ).loc r) :=
  (V4_of m outs c r h4).trans <| (V3_of m c r h3).trans <| (V2_of m c r h2).trans <| (V1_of m c r h1).trans rfl

/-- After the first three host stretches the buffer main_v4 holds relu(nodes · We1 + be1). -/
theorem V3_v4 : (V3 m c main_v4 : Mat 8192 128) = first (m ((c.tc : Thread nD τ).loc main_arg0)) (m ((c.tc : Thread nD τ).loc main_arg4)) (m ((c.tc : Thread nD τ).loc main_arg5)) := by
  dsimp only [V3, V2, V1, V0, hostOps0, hostOps0_1, hostOps0_2]
  after_results
  funext j
  show max (Host.dotGeneral (F := Ideal) (φ₁ := .f32) (φ₂ := .f32) dot_S8192x64_S64x128_S8192x128_1_0_0_1_n_n none (m ((c.tc : Thread nD τ).loc main_arg0)) (m ((c.tc : Thread nD τ).loc main_arg4)) j
      + broadcastInDim S8192x128 ![0, 1] bcast_S1x128_S8192x128_0_1 (broadcastInDim S1x128 ![1] bcast_S128_S1x128_1 (m ((c.tc : Thread nD τ).loc main_arg5))) j)
    (broadcastInDim S8192x128 ![] bcast_S_S8192x128 (constant (F := Ideal) S_ .f32 0x00000000#32) j) = _
  rw [dot_first, bias_first, zero_splat]
  rfl

/-- After the first three host stretches the buffer main_v5 holds the bias be2 as one row. -/
theorem V3_v5 : (V3 m c main_v5 : Mat 1 64) = row (m ((c.tc : Thread nD τ).loc main_arg7)) := by
  dsimp only [V3, V2, V1, V0, hostOps0, hostOps0_1, hostOps0_2]
  after_results
  exact row_cast _ shapeCasts_S64_S1x64

/-- The adjacency keeps its launch contents through the first three host stretches. -/
theorem V3_arg2 : V3 m c main_arg2 = m ((c.tc : Thread nD τ).loc main_arg2) :=
  (V3_of m c main_arg2 (by decide)).trans <| (V2_of m c main_arg2 (by decide)).trans <| (V1_of m c main_arg2 (by decide)).trans rfl

/-- The weight We2 keeps its launch contents through the first three host stretches. -/
theorem V3_arg6 : V3 m c main_arg6 = m ((c.tc : Thread nD τ).loc main_arg6) :=
  (V3_of m c main_arg6 (by decide)).trans <| (V2_of m c main_arg6 (by decide)).trans <| (V1_of m c main_arg6 (by decide)).trans rfl

/-- The second host stretch leaves the first kernel's result where the kernel put it. -/
theorem V5_v6 : V5 m outs c main_v6 = outs 4 main_v6 c :=
  (V5_of m outs c main_v6 (by decide)).trans (Function.update_self _ _ _)

/-- After the second host stretch, the row buffer v7 holds the bias main_arg9 as one row. -/
theorem V5_v7 : (V5 m outs c main_v7 : Mat 1 64) = row (m ((c.tc : Thread nD τ).loc main_arg9)) := by
  have h := V4_launch m c outs main_arg9 (by decide) (by decide) (by decide) (by decide)
  dsimp only [V5, hostOps1]
  after_results
  rw [h]
  exact row_cast _ shapeCasts_S64_S1x64

/-- After the second host stretch, the row buffer v8 holds the bias main_arg11 as one row. -/
theorem V5_v8 : (V5 m outs c main_v8 : Mat 1 128) = row (m ((c.tc : Thread nD τ).loc main_arg11)) := by
  have h := V4_launch m c outs main_arg11 (by decide) (by decide) (by decide) (by decide)
  dsimp only [V5, hostOps1]
  after_results
  rw [h]
  exact row_cast _ shapeCasts_S128_S1x128

/-- After the second host stretch, the row buffer v9 holds the bias main_arg13 as one row. -/
theorem V5_v9 : (V5 m outs c main_v9 : Mat 1 64) = row (m ((c.tc : Thread nD τ).loc main_arg13)) := by
  have h := V4_launch m c outs main_arg13 (by decide) (by decide) (by decide) (by decide)
  dsimp only [V5, hostOps1]
  after_results
  rw [h]
  exact row_cast _ shapeCasts_S64_S1x64

/-- After the second host stretch, the row buffer v10 holds the bias main_arg15 as one row. -/
theorem V5_v10 : (V5 m outs c main_v10 : Mat 1 1) = row (m ((c.tc : Thread nD τ).loc main_arg15)) := by
  have h := V4_launch m c outs main_arg15 (by decide) (by decide) (by decide) (by decide)
  dsimp only [V5, hostOps1]
  after_results
  rw [h]
  exact row_cast _ shapeCasts_S1_S1x1

/-- After the second host stretch the buffer main_v11 holds the first 64 rows of Wc1. -/
theorem V5_v11 : (V5 m outs c main_v11 : Mat 64 128) = top (k := 64) (l := 16) (m ((c.tc : Thread nD τ).loc main_arg10)) := by
  have h := V4_launch m c outs main_arg10 (by decide) (by decide) (by decide) (by decide)
  dsimp only [V5, hostOps1]
  after_results
  rw [h]
  exact top_slice _

/-- After the second host stretch the buffer main_v12 holds the last 16 rows of Wc1. -/
theorem V5_v12 : (V5 m outs c main_v12 : Mat 16 128) = bot (k := 64) (l := 16) (m ((c.tc : Thread nD τ).loc main_arg10)) := by
  have h := V4_launch m c outs main_arg10 (by decide) (by decide) (by decide) (by decide)
  dsimp only [V5, hostOps1]
  after_results
  rw [h]
  exact bot_slice _

/-! Arrays that nothing up to the second kernel writes: the adjacency, the actions, Weo, Wc2, Wq. -/
theorem V5_arg2 : V5 m outs c main_arg2 = m ((c.tc : Thread nD τ).loc main_arg2) :=
  (V5_of m outs c main_arg2 (by decide)).trans (V4_launch m c outs main_arg2 (by decide) (by decide) (by decide) (by decide))
theorem V5_arg3 : V5 m outs c main_arg3 = m ((c.tc : Thread nD τ).loc main_arg3) :=
  (V5_of m outs c main_arg3 (by decide)).trans (V4_launch m c outs main_arg3 (by decide) (by decide) (by decide) (by decide))
theorem V5_arg8 : V5 m outs c main_arg8 = m ((c.tc : Thread nD τ).loc main_arg8) :=
  (V5_of m outs c main_arg8 (by decide)).trans (V4_launch m c outs main_arg8 (by decide) (by decide) (by decide) (by decide))
theorem V5_arg12 : V5 m outs c main_arg12 = m ((c.tc : Thread nD τ).loc main_arg12) :=
  (V5_of m outs c main_arg12 (by decide)).trans (V4_launch m c outs main_arg12 (by decide) (by decide) (by decide) (by decide))
theorem V5_arg14 : V5 m outs c main_arg14 = m ((c.tc : Thread nD τ).loc main_arg14) :=
  (V5_of m outs c main_arg14 (by decide)).trans (V4_launch m c outs main_arg14 (by decide) (by decide) (by decide) (by decide))

/-- After the last host stretch the result buffer holds the second kernel's one-column result as a vector. -/
theorem V7_v14 : (V7 m outs c main_v14 : Vc 8192) = fun i => (outs 6 main_v13 c : Mat 8192 1) (ix2 (i 0) (0 : Fin 1)) := by
  have h : V6 m outs c main_v13 = outs 6 main_v13 c := Function.update_self _ _ _
  dsimp only [V7, hostOps2]
  after_results
  rw [h]
  exact column_cast _

end Cert.KernelIdeal.HandValue

end
-- ==== Proof.KI.Final.lean ====
/-
  What the idealized kernel program's result holds: the critic's values.

  The first region leaves relu((A · x1) · We2 + be2) in its result array, x1 being the host's first dense stage; the host
  stretch between the regions turns the biases into rows and cuts the head's first weight into its two row blocks; the
  second region leaves the head of the embedding of (A · x2); the last host line drops the unit axis.
-/
import proofs.«144529_j62285615727119_2_alg».proof.Proof.KI.Assembly
import proofs.«144529_j62285615727119_2_alg».proof.Proof.KI.R0Value
import proofs.«144529_j62285615727119_2_alg».proof.Proof.KI.R1Value
import proofs.«144529_j62285615727119_2_alg».proof.Proof.KI.HostReads
import proofs.«144529_j62285615727119_2_alg».proof.Proof.Spec

noncomputable section

namespace Cert.KernelIdeal.HandValue

open Cert.KernelIdeal Cert.KernelIdeal.Gen Cert.KernelIdeal.Hand Cert.GraphCritic
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The first region's result: the encoder's second stage of the host's first stage. -/
theorem res0_eq (c : Dev nD) :
    res0 m c = layer (m ((c.tc : Thread nD τ).loc main_arg2)) (first (m ((c.tc : Thread nD τ).loc main_arg0)) (m ((c.tc : Thread nD τ).loc main_arg4)) (m ((c.tc : Thread nD τ).loc main_arg5))) (m ((c.tc : Thread nD τ).loc main_arg6)) (row (m ((c.tc : Thread nD τ).loc main_arg7))) := by
  unfold res0
  rw [final0 (In0 m) c]
  dsimp only [In0]
  rw [V3_arg2, V3_v4, V3_arg6, V3_v5]

/-- The second region's result: the head, of the first region's result. -/
theorem res1_eq (c : Dev nD) :
    res1 m c = head (m ((c.tc : Thread nD τ).loc main_arg2)) (layer (m ((c.tc : Thread nD τ).loc main_arg2)) (first (m ((c.tc : Thread nD τ).loc main_arg0)) (m ((c.tc : Thread nD τ).loc main_arg4)) (m ((c.tc : Thread nD τ).loc main_arg5))) (m ((c.tc : Thread nD τ).loc main_arg6)) (row (m ((c.tc : Thread nD τ).loc main_arg7)))) (m ((c.tc : Thread nD τ).loc main_arg8)) (row (m ((c.tc : Thread nD τ).loc main_arg9))) (m ((c.tc : Thread nD τ).loc main_arg3))
      (top (k := 64) (l := 16) (m ((c.tc : Thread nD τ).loc main_arg10))) (bot (k := 64) (l := 16) (m ((c.tc : Thread nD τ).loc main_arg10))) (row (m ((c.tc : Thread nD τ).loc main_arg11))) (m ((c.tc : Thread nD τ).loc main_arg12)) (row (m ((c.tc : Thread nD τ).loc main_arg13))) (m ((c.tc : Thread nD τ).loc main_arg14)) (row (m ((c.tc : Thread nD τ).loc main_arg15))) := by
  unfold res1
  rw [final1 (In1 m) c]
  dsimp only [In1]
  rw [V5_arg2, V5_v6, outsOf_4, res0_eq, V5_arg8, V5_v7, V5_arg3, V5_v11, V5_v12, V5_v8, V5_arg12, V5_v9, V5_arg14, V5_v10]

/-- The program's result: the critic's values of the argument arrays. -/
theorem result_critic (c : Dev nD) :
    V7 m (outs m) c main_v14 = critic (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  rw [V7_v14, outs_6, res1_eq]
  rfl

set_option maxHeartbeats 1000000 in
/-- The idealized kernel program runs to its end with its result at the critic's values and its arguments unchanged. -/
theorem run_value : θ_run (defs (F := Ideal)) (onTc (τ := τ) (main (F := Ideal))) ⟨m, fun _ => 0, ρ⟩ (fun r => ∀ c : Dev nD,
      r.2.mem ((c.tc : Thread nD τ).loc main_v14) = critic (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c (Proc.devRef .tc main_v14) (Finset.mem_filter.mpr ⟨StableHlo.devRef_mem_tcRefs main_v14, by decide⟩)).trans (result_critic m c),
      (h c (Proc.devRef .tc main_arg0) (Finset.mem_filter.mpr ⟨StableHlo.devRef_mem_tcRefs main_arg0, by decide⟩)).trans (V7_main_arg0 m (outs m) c),
      (h c (Proc.devRef .tc main_arg1) (Finset.mem_filter.mpr ⟨StableHlo.devRef_mem_tcRefs main_arg1, by decide⟩)).trans (V7_main_arg1 m (outs m) c),
      (h c (Proc.devRef .tc main_arg2) (Finset.mem_filter.mpr ⟨StableHlo.devRef_mem_tcRefs main_arg2, by decide⟩)).trans (V7_main_arg2 m (outs m) c),
      (h c (Proc.devRef .tc main_arg3) (Finset.mem_filter.mpr ⟨StableHlo.devRef_mem_tcRefs main_arg3, by decide⟩)).trans (V7_main_arg3 m (outs m) c),
      (h c (Proc.devRef .tc main_arg4) (Finset.mem_filter.mpr ⟨StableHlo.devRef_mem_tcRefs main_arg4, by decide⟩)).trans (V7_main_arg4 m (outs m) c),
      (h c (Proc.devRef .tc main_arg5) (Finset.mem_filter.mpr ⟨StableHlo.devRef_mem_tcRefs main_arg5, by decide⟩)).trans (V7_main_arg5 m (outs m) c),
      (h c (Proc.devRef .tc main_arg6) (Finset.mem_filter.mpr ⟨StableHlo.devRef_mem_tcRefs main_arg6, by decide⟩)).trans (V7_main_arg6 m (outs m) c),
      (h c (Proc.devRef .tc main_arg7) (Finset.mem_filter.mpr ⟨StableHlo.devRef_mem_tcRefs main_arg7, by decide⟩)).trans (V7_main_arg7 m (outs m) c),
      (h c (Proc.devRef .tc main_arg8) (Finset.mem_filter.mpr ⟨StableHlo.devRef_mem_tcRefs main_arg8, by decide⟩)).trans (V7_main_arg8 m (outs m) c),
      (h c (Proc.devRef .tc main_arg9) (Finset.mem_filter.mpr ⟨StableHlo.devRef_mem_tcRefs main_arg9, by decide⟩)).trans (V7_main_arg9 m (outs m) c),
      (h c (Proc.devRef .tc main_arg10) (Finset.mem_filter.mpr ⟨StableHlo.devRef_mem_tcRefs main_arg10, by decide⟩)).trans (V7_main_arg10 m (outs m) c),
      (h c (Proc.devRef .tc main_arg11) (Finset.mem_filter.mpr ⟨StableHlo.devRef_mem_tcRefs main_arg11, by decide⟩)).trans (V7_main_arg11 m (outs m) c),
      (h c (Proc.devRef .tc main_arg12) (Finset.mem_filter.mpr ⟨StableHlo.devRef_mem_tcRefs main_arg12, by decide⟩)).trans (V7_main_arg12 m (outs m) c),
      (h c (Proc.devRef .tc main_arg13) (Finset.mem_filter.mpr ⟨StableHlo.devRef_mem_tcRefs main_arg13, by decide⟩)).trans (V7_main_arg13 m (outs m) c),
      (h c (Proc.devRef .tc main_arg14) (Finset.mem_filter.mpr ⟨StableHlo.devRef_mem_tcRefs main_arg14, by decide⟩)).trans (V7_main_arg14 m (outs m) c),
      (h c (Proc.devRef .tc main_arg15) (Finset.mem_filter.mpr ⟨StableHlo.devRef_mem_tcRefs main_arg15, by decide⟩)).trans (V7_main_arg15 m (outs m) c)⟩) (run_main m ρ)

end Cert.KernelIdeal.HandValue

end
-- ==== Proof.RefIsFirst.lean ====
/-
  The reference's first encoder stage at the extended reals: relu(nodes · We1 + be1), entry by entry.
-/
import proofs.«144529_j62285615727119_2_alg».proof.Proof.Gen.ReferenceIdeal.Read
import proofs.«144529_j62285615727119_2_alg».proof.Proof.Spec

noncomputable section

namespace Cert.ReferenceIdeal.RefValue

open Cert.ReferenceIdeal Cert.ReferenceIdeal.Gen Cert.ReferenceIdeal.Read Cert.GraphCritic
open Idealize.ShloMosaic Idealize.ShloMosaic.ValueIdx

/-- The left operand of the first product is read at (row of the entry, contracted coordinate). -/
theorem lidx_v0 (j : S8192x128.Idx) (k : Fin 64) : lidx_main_v0 j k = ix2 (j 0) k :=
  funext fun a => by match a with | ⟨0, _⟩ => rfl | ⟨1, _⟩ => rfl

/-- The right operand of the first product is read at (contracted coordinate, column of the entry). -/
theorem ridx_v0 (j : S8192x128.Idx) (k : Fin 64) : ridx_main_v0 j k = ix2 k (j 1) :=
  funext fun a => by match a with | ⟨0, _⟩ => rfl | ⟨1, _⟩ => rfl

/-- The bias, broadcast to one row and then to every row, is read at the entry's column. -/
theorem bias_v2 (j : S8192x128.Idx) : idx_main_v1 (idx_main_v2 j) = ix1 ((ix2 (0 : Fin 1) (j 1)) 1) :=
  funext fun a => by match a with | ⟨0, _⟩ => rfl

/-- The first stage of the reference is relu(nodes · We1 + be1). -/
theorem first_eq (x0 : (⟨S8192x64, .f32⟩ : BufTy).Contents (Elt Ideal)) (x4 : (⟨S64x128, .f32⟩ : BufTy).Contents (Elt Ideal))
    (x5 : (⟨S128, .f32⟩ : BufTy).Contents (Elt Ideal)) :
    val_main_v4 (F := Ideal) x0 x4 x5 = first x0 x4 x5 := by
  funext j
  rw [val_main_v4_apply, val_main_v3_apply, val_main_v0_apply, val_main_v2_apply, val_main_v1_apply,
    val_main_call0_v0_apply, val_main_call0_cst_apply]
  simp only [lidx_v0, ridx_v0, bias_v2, Ideal.maximumf_def, Ideal.addf_def, Ideal.ofBits_def, Ideal.ofBits_zero_f32]
  rfl

end Cert.ReferenceIdeal.RefValue

end
-- ==== Proof.RefIsLayer.lean ====
/-
  The reference's second encoder stage at the extended reals: the aggregation A · x1 and then relu((A · x1) · We2 + be2),
  entry by entry, x1 being the first stage's value.
-/
import proofs.«144529_j62285615727119_2_alg».proof.Proof.Gen.ReferenceIdeal.Read
import proofs.«144529_j62285615727119_2_alg».proof.Proof.Spec

noncomputable section

namespace Cert.ReferenceIdeal.RefValue

open Cert.ReferenceIdeal Cert.ReferenceIdeal.Gen Cert.ReferenceIdeal.Read Cert.GraphCritic
open Idealize.ShloMosaic Idealize.ShloMosaic.ValueIdx

/-- The left operand of the first aggregation is read at (row of the entry, contracted coordinate). -/
theorem lidx_v5 (j : S8192x128.Idx) (k : Fin 8192) : lidx_main_v5 j k = ix2 (j 0) k :=
  funext fun a => by match a with | ⟨0, _⟩ => rfl | ⟨1, _⟩ => rfl

/-- The right operand of the first aggregation is read at (contracted coordinate, column of the entry). -/
theorem ridx_v5 (j : S8192x128.Idx) (k : Fin 8192) : ridx_main_v5 j k = ix2 k (j 1) :=
  funext fun a => by match a with | ⟨0, _⟩ => rfl | ⟨1, _⟩ => rfl

/-- The left operand of the second dense product is read at (row of the entry, contracted coordinate). -/
theorem lidx_v6 (j : S8192x64.Idx) (k : Fin 128) : lidx_main_v6 j k = ix2 (j 0) k :=
  funext fun a => by match a with | ⟨0, _⟩ => rfl | ⟨1, _⟩ => rfl

/-- The right operand of the second dense product is read at (contracted coordinate, column of the entry). -/
theorem ridx_v6 (j : S8192x64.Idx) (k : Fin 128) : ridx_main_v6 j k = ix2 k (j 1) :=
  funext fun a => by match a with | ⟨0, _⟩ => rfl | ⟨1, _⟩ => rfl

/-- The bias, broadcast to one row and then to every row, is read at the entry's column. -/
theorem bias_v8 (j : S8192x64.Idx) : idx_main_v7 (idx_main_v8 j) = ix1 ((ix2 (0 : Fin 1) (j 1)) 1) :=
  funext fun a => by match a with | ⟨0, _⟩ => rfl

/-- The first aggregation of the reference is the plain product A · x1. -/
theorem agg1_eq (x0 : (⟨S8192x64, .f32⟩ : BufTy).Contents (Elt Ideal)) (x2 : (⟨S8192x8192, .f32⟩ : BufTy).Contents (Elt Ideal)) (x4 : (⟨S64x128, .f32⟩ : BufTy).Contents (Elt Ideal)) (x5 : (⟨S128, .f32⟩ : BufTy).Contents (Elt Ideal)) :
    val_main_v5 (F := Ideal) x0 x2 x4 x5 = mm x2 (val_main_v4 (F := Ideal) x0 x4 x5) := by
  funext j
  rw [val_main_v5_apply]
  simp only [lidx_v5, ridx_v5]
  rfl

/-- The second stage of the reference is relu((A · x1) · We2 + be2). -/
theorem layer_eq (x0 : (⟨S8192x64, .f32⟩ : BufTy).Contents (Elt Ideal)) (x2 : (⟨S8192x8192, .f32⟩ : BufTy).Contents (Elt Ideal)) (x4 : (⟨S64x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) :
    val_main_v10 (F := Ideal) x0 x2 x4 x5 x6 x7 = layer x2 (val_main_v4 (F := Ideal) x0 x4 x5) x6 (row x7) := by
  funext j
  rw [val_main_v10_apply, val_main_v9_apply, val_main_v6_apply, val_main_v8_apply, val_main_v7_apply,
    val_main_call1_v0_apply, val_main_call1_cst_apply, agg1_eq]
  simp only [lidx_v6, ridx_v6, bias_v8, Ideal.maximumf_def, Ideal.addf_def, Ideal.ofBits_def, Ideal.ofBits_zero_f32]
  rfl

end Cert.ReferenceIdeal.RefValue

end
-- ==== Proof.RefIsEmb.lean ====
/-
  The reference's embedding at the extended reals: the aggregation A · x2 and then (A · x2) · Weo + beo, entry by entry,
  x2 being the second stage's value.
-/
import proofs.«144529_j62285615727119_2_alg».proof.Proof.Gen.ReferenceIdeal.Read
import proofs.«144529_j62285615727119_2_alg».proof.Proof.Spec

noncomputable section

namespace Cert.ReferenceIdeal.RefValue

open Cert.ReferenceIdeal Cert.ReferenceIdeal.Gen Cert.ReferenceIdeal.Read Cert.GraphCritic
open Idealize.ShloMosaic Idealize.ShloMosaic.ValueIdx

/-- The left operand of the second aggregation is read at (row of the entry, contracted coordinate). -/
theorem lidx_v11 (j : S8192x64.Idx) (k : Fin 8192) : lidx_main_v11 j k = ix2 (j 0) k :=
  funext fun a => by match a with | ⟨0, _⟩ => rfl | ⟨1, _⟩ => rfl

/-- The right operand of the second aggregation is read at (contracted coordinate, column of the entry). -/
theorem ridx_v11 (j : S8192x64.Idx) (k : Fin 8192) : ridx_main_v11 j k = ix2 k (j 1) :=
  funext fun a => by match a with | ⟨0, _⟩ => rfl | ⟨1, _⟩ => rfl

/-- The left operand of the output dense product is read at (row of the entry, contracted coordinate). -/
theorem lidx_v12 (j : S8192x64.Idx) (k : Fin 64) : lidx_main_v12 j k = ix2 (j 0) k :=
  funext fun a => by match a with | ⟨0, _⟩ => rfl | ⟨1, _⟩ => rfl

/-- The right operand of the output dense product is read at (contracted coordinate, column of the entry). -/
theorem ridx_v12 (j : S8192x64.Idx) (k : Fin 64) : ridx_main_v12 j k = ix2 k (j 1) :=
  funext fun a => by match a with | ⟨0, _⟩ => rfl | ⟨1, _⟩ => rfl

/-- The bias, broadcast to one row and then to every row, is read at the entry's column. -/
theorem bias_v14 (j : S8192x64.Idx) : idx_main_v13 (idx_main_v14 j) = ix1 ((ix2 (0 : Fin 1) (j 1)) 1) :=
  funext fun a => by match a with | ⟨0, _⟩ => rfl

/-- The second aggregation of the reference is the plain product A · x2. -/
theorem agg2_eq (x0 : (⟨S8192x64, .f32⟩ : BufTy).Contents (Elt Ideal)) (x2 : (⟨S8192x8192, .f32⟩ : BufTy).Contents (Elt Ideal)) (x4 : (⟨S64x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) :
    val_main_v11 (F := Ideal) x0 x2 x4 x5 x6 x7 = mm x2 (val_main_v10 (F := Ideal) x0 x2 x4 x5 x6 x7) := by
  funext j
  rw [val_main_v11_apply]
  simp only [lidx_v11, ridx_v11]
  rfl

/-- The embedding of the reference is (A · x2) · Weo + beo. -/
theorem emb_eq (x0 : (⟨S8192x64, .f32⟩ : BufTy).Contents (Elt Ideal)) (x2 : (⟨S8192x8192, .f32⟩ : BufTy).Contents (Elt Ideal)) (x4 : (⟨S64x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) :
    val_main_v15 (F := Ideal) x0 x2 x4 x5 x6 x7 x8 x9 = aggDense x2 (val_main_v10 (F := Ideal) x0 x2 x4 x5 x6 x7) x8 (row x9) := by
  funext j
  rw [val_main_v15_apply, val_main_v12_apply, val_main_v14_apply, val_main_v13_apply, agg2_eq]
  simp only [lidx_v12, ridx_v12, bias_v14, Ideal.addf_def]
  rfl

end Cert.ReferenceIdeal.RefValue

end
-- ==== Proof.RefIsJoin.lean ====
/-
  The reference's first critic stage at the extended reals. The embedding (64 columns) and the actions (16 columns) are
  joined along the columns into 80, and the joined array is multiplied by the 80-row weight Wc1. Column by column the joined
  array is the embedding below 64 and the actions from 64 on, so the 80-term contraction is the 64-term contraction of the
  embedding with the first 64 rows of Wc1 plus the 16-term contraction of the actions with its last 16 rows: only the sum is
  regrouped. The stage is then relu(emb · top Wc1 + act · bot Wc1 + bc1), entry by entry.
-/
import proofs.«144529_j62285615727119_2_alg».proof.Proof.Gen.ReferenceIdeal.Read
import proofs.«144529_j62285615727119_2_alg».proof.Proof.Spec

noncomputable section

namespace Cert.ReferenceIdeal.RefValue

open Cert.ReferenceIdeal Cert.ReferenceIdeal.Gen Cert.ReferenceIdeal.Read Cert.GraphCritic
open Idealize.ShloMosaic Idealize.ShloMosaic.ValueIdx

/-- The left operand of the product with the joined array is read at (row of the entry, contracted coordinate). -/
theorem lidx_v17 (j : S8192x128.Idx) (k : Fin 80) : lidx_main_v17 j k = ix2 (j 0) k :=
  funext fun a => by match a with | ⟨0, _⟩ => rfl | ⟨1, _⟩ => rfl

/-- The right operand of the product with the joined array is read at (contracted coordinate, column of the entry). -/
theorem ridx_v17 (j : S8192x128.Idx) (k : Fin 80) : ridx_main_v17 j k = ix2 k (j 1) :=
  funext fun a => by match a with | ⟨0, _⟩ => rfl | ⟨1, _⟩ => rfl

/-- The bias, broadcast to one row and then to every row, is read at the entry's column. -/
theorem bias_v19 (j : S8192x128.Idx) : idx_main_v18 (idx_main_v19 j) = ix1 ((ix2 (0 : Fin 1) (j 1)) 1) :=
  funext fun a => by match a with | ⟨0, _⟩ => rfl

/-- A column below 64 of the joined array is that column of the embedding. -/
theorem join_left (x0 : (⟨S8192x64, .f32⟩ : BufTy).Contents (Elt Ideal)) (x2 : (⟨S8192x8192, .f32⟩ : BufTy).Contents (Elt Ideal)) (x3 : (⟨S8192x16, .f32⟩ : BufTy).Contents (Elt Ideal)) (x4 : (⟨S64x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (j : S8192x128.Idx) (t : Fin 64) :
    val_main_v16 (F := Ideal) x0 x2 x3 x4 x5 x6 x7 x8 x9 (lidx_main_v17 j (Fin.castAdd 16 t))
      = val_main_v15 (F := Ideal) x0 x2 x4 x5 x6 x7 x8 x9 (ix2 (j 0) t) := by
  unfold val_main_v16
  exact concatenate_pair_apply_left (t := S8192x80) (s₁ := S8192x64) (s₂ := S8192x16) 1 _ _
    concatenates_S8192x64_S8192x16_S8192x80_d1 (lidx_main_v17 j (Fin.castAdd 16 t)) rfl (ix2 (j 0) t)
    (fun b => by match b with | ⟨0, _⟩ => rfl | ⟨1, _⟩ => rfl)

/-- A column from 64 on of the joined array is that column, 64 less, of the actions. -/
theorem join_right (x0 : (⟨S8192x64, .f32⟩ : BufTy).Contents (Elt Ideal)) (x2 : (⟨S8192x8192, .f32⟩ : BufTy).Contents (Elt Ideal)) (x3 : (⟨S8192x16, .f32⟩ : BufTy).Contents (Elt Ideal)) (x4 : (⟨S64x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (j : S8192x128.Idx) (t : Fin 16) :
    val_main_v16 (F := Ideal) x0 x2 x3 x4 x5 x6 x7 x8 x9 (lidx_main_v17 j (Fin.natAdd 64 t)) = x3 (ix2 (j 0) t) := by
  unfold val_main_v16
  exact concatenate_pair_apply_right (t := S8192x80) (s₁ := S8192x64) (s₂ := S8192x16) 1 _ _
    concatenates_S8192x64_S8192x16_S8192x80_d1 (lidx_main_v17 j (Fin.natAdd 64 t)) rfl rfl (ix2 (j 0) t)
    (fun b hb => by match b with | ⟨0, _⟩ => rfl | ⟨1, _⟩ => exact absurd rfl hb)
    (by show t.val + 64 = 64 + t.val; omega)

/-- The product of the joined array with Wc1 is the embedding's product with the first 64 rows plus the actions' product
    with the last 16 rows. -/
theorem join_prod (x0 : (⟨S8192x64, .f32⟩ : BufTy).Contents (Elt Ideal)) (x2 : (⟨S8192x8192, .f32⟩ : BufTy).Contents (Elt Ideal)) (x3 : (⟨S8192x16, .f32⟩ : BufTy).Contents (Elt Ideal)) (x4 : (⟨S64x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S80x128, .f32⟩ : BufTy).Contents (Elt Ideal)) (j : S8192x128.Idx) :
    val_main_v17 (F := Ideal) x0 x2 x3 x4 x5 x6 x7 x8 x9 x10 j
      = (∑ t : Fin 64, val_main_v15 (F := Ideal) x0 x2 x4 x5 x6 x7 x8 x9 (ix2 (j 0) t) * x10 (ix2 (Fin.castAdd 16 t) (j 1)))
        + ∑ t : Fin 16, x3 (ix2 (j 0) t) * x10 (ix2 (Fin.natAdd 64 t) (j 1)) := by
  rw [val_main_v17_apply]
  refine (Fin.sum_univ_add (a := 64) (b := 16) (fun k => val_main_v16 (F := Ideal) x0 x2 x3 x4 x5 x6 x7 x8 x9 (lidx_main_v17 j k)
    * x10 (ridx_main_v17 j k))).trans ?_
  refine congrArg₂ (· + ·) ?_ ?_
  · refine Finset.sum_congr rfl fun t _ => ?_
    rw [join_left, ridx_v17]
    rfl
  · refine Finset.sum_congr rfl fun t _ => ?_
    rw [join_right, ridx_v17]
    rfl

/-- The first critic stage of the reference is relu(emb · top Wc1 + act · bot Wc1 + bc1). -/
theorem join_eq (x0 : (⟨S8192x64, .f32⟩ : BufTy).Contents (Elt Ideal)) (x2 : (⟨S8192x8192, .f32⟩ : BufTy).Contents (Elt Ideal)) (x3 : (⟨S8192x16, .f32⟩ : BufTy).Contents (Elt Ideal)) (x4 : (⟨S64x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S80x128, .f32⟩ : BufTy).Contents (Elt Ideal)) (x11 : (⟨S128, .f32⟩ : BufTy).Contents (Elt Ideal)) :
    val_main_v21 (F := Ideal) x0 x2 x3 x4 x5 x6 x7 x8 x9 x10 x11
      = relu (addRow (add (mm (val_main_v15 (F := Ideal) x0 x2 x4 x5 x6 x7 x8 x9) (top (k := 64) (l := 16) x10))
          (mm x3 (bot (k := 64) (l := 16) x10))) (row x11)) := by
  funext j
  rw [val_main_v21_apply, val_main_v20_apply, join_prod, val_main_v19_apply, val_main_v18_apply,
    val_main_call2_v0_apply, val_main_call2_cst_apply]
  simp only [bias_v19, Ideal.maximumf_def, Ideal.addf_def, Ideal.ofBits_def, Ideal.ofBits_zero_f32]
  rfl

end Cert.ReferenceIdeal.RefValue

end
-- ==== Proof.RefIsHead.lean ====
/-
  The reference's last two critic stages and its result at the extended reals: relu(h1 · Wc2 + bc2), then h2 · Wq + bq as
  one column, then that column as a vector; h1 is the first critic stage's value.
-/
import proofs.«144529_j62285615727119_2_alg».proof.Proof.Gen.ReferenceIdeal.Read
import proofs.«144529_j62285615727119_2_alg».proof.Proof.Spec

noncomputable section

namespace Cert.ReferenceIdeal.RefValue

open Cert.ReferenceIdeal Cert.ReferenceIdeal.Gen Cert.ReferenceIdeal.Read Cert.GraphCritic
open Idealize.ShloMosaic Idealize.ShloMosaic.ValueIdx

/-- The left operand of the second critic product is read at (row of the entry, contracted coordinate). -/
theorem lidx_v22 (j : S8192x64.Idx) (k : Fin 128) : lidx_main_v22 j k = ix2 (j 0) k :=
  funext fun a => by match a with | ⟨0, _⟩ => rfl | ⟨1, _⟩ => rfl

/-- The right operand of the second critic product is read at (contracted coordinate, column of the entry). -/
theorem ridx_v22 (j : S8192x64.Idx) (k : Fin 128) : ridx_main_v22 j k = ix2 k (j 1) :=
  funext fun a => by match a with | ⟨0, _⟩ => rfl | ⟨1, _⟩ => rfl

/-- The bias, broadcast to one row and then to every row, is read at the entry's column. -/
theorem bias_v24 (j : S8192x64.Idx) : idx_main_v23 (idx_main_v24 j) = ix1 ((ix2 (0 : Fin 1) (j 1)) 1) :=
  funext fun a => by match a with | ⟨0, _⟩ => rfl

/-- The left operand of the value product is read at (row of the entry, contracted coordinate). -/
theorem lidx_v27 (j : S8192x1.Idx) (k : Fin 64) : lidx_main_v27 j k = ix2 (j 0) k :=
  funext fun a => by match a with | ⟨0, _⟩ => rfl | ⟨1, _⟩ => rfl

/-- The right operand of the value product is read at (contracted coordinate, column of the entry). -/
theorem ridx_v27 (j : S8192x1.Idx) (k : Fin 64) : ridx_main_v27 j k = ix2 k (j 1) :=
  funext fun a => by match a with | ⟨0, _⟩ => rfl | ⟨1, _⟩ => rfl

/-- The one-entry bias, broadcast to one row and then to every row, is read at its one entry. -/
theorem bias_v29 (j : S8192x1.Idx) : idx_main_v28 (idx_main_v29 j) = ix1 ((ix2 (0 : Fin 1) (j 1)) 1) :=
  funext fun a => by
    match a with
    | ⟨0, _⟩ => exact Fin.ext (by have h := idx2_lt1 j; show 0 = (j 1).val; omega)

/-- Entry i of the result vector is entry (i, 0) of the one-column array. -/
theorem idx_v31 (i : S8192.Idx) : idx_main_v31 i = ix2 (i 0) (0 : Fin 1) :=
  funext fun a => by
    match a with
    | ⟨0, _⟩ => exact Fin.ext (Nat.div_one _)
    | ⟨1, _⟩ => rfl

/-- The second critic stage of the reference is relu(h1 · Wc2 + bc2). -/
theorem hidden_eq (x0 : (⟨S8192x64, .f32⟩ : BufTy).Contents (Elt Ideal)) (x2 : (⟨S8192x8192, .f32⟩ : BufTy).Contents (Elt Ideal)) (x3 : (⟨S8192x16, .f32⟩ : BufTy).Contents (Elt Ideal)) (x4 : (⟨S64x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S80x128, .f32⟩ : BufTy).Contents (Elt Ideal)) (x11 : (⟨S128, .f32⟩ : BufTy).Contents (Elt Ideal)) (x12 : (⟨S128x64, .f32⟩ : BufTy).Contents (Elt Ideal)) (x13 : (⟨S64, .f32⟩ : BufTy).Contents (Elt Ideal)) :
    val_main_v26 (F := Ideal) x0 x2 x3 x4 x5 x6 x7 x8 x9 x10 x11 x12 x13
      = relu (addRow (mm (val_main_v21 (F := Ideal) x0 x2 x3 x4 x5 x6 x7 x8 x9 x10 x11) x12) (row x13)) := by
  funext j
  rw [val_main_v26_apply, val_main_v25_apply, val_main_v22_apply, val_main_v24_apply, val_main_v23_apply,
    val_main_call3_v0_apply, val_main_call3_cst_apply]
  simp only [lidx_v22, ridx_v22, bias_v24, Ideal.maximumf_def, Ideal.addf_def, Ideal.ofBits_def, Ideal.ofBits_zero_f32]
  rfl

/-- The value column of the reference is h2 · Wq + bq. -/
theorem value_eq (x0 : (⟨S8192x64, .f32⟩ : BufTy).Contents (Elt Ideal)) (x2 : (⟨S8192x8192, .f32⟩ : BufTy).Contents (Elt Ideal)) (x3 : (⟨S8192x16, .f32⟩ : BufTy).Contents (Elt Ideal)) (x4 : (⟨S64x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S80x128, .f32⟩ : BufTy).Contents (Elt Ideal)) (x11 : (⟨S128, .f32⟩ : BufTy).Contents (Elt Ideal)) (x12 : (⟨S128x64, .f32⟩ : BufTy).Contents (Elt Ideal)) (x13 : (⟨S64, .f32⟩ : BufTy).Contents (Elt Ideal)) (x14 : (⟨S64x1, .f32⟩ : BufTy).Contents (Elt Ideal)) (x15 : (⟨S1, .f32⟩ : BufTy).Contents (Elt Ideal)) :
    val_main_v30 (F := Ideal) x0 x2 x3 x4 x5 x6 x7 x8 x9 x10 x11 x12 x13 x14 x15
      = addRow (mm (val_main_v26 (F := Ideal) x0 x2 x3 x4 x5 x6 x7 x8 x9 x10 x11 x12 x13) x14) (row x15) := by
  funext j
  rw [val_main_v30_apply, val_main_v27_apply, val_main_v29_apply, val_main_v28_apply]
  simp only [lidx_v27, ridx_v27, bias_v29, Ideal.addf_def]
  rfl

/-- The result vector of the reference is the value column read at column 0. -/
theorem result_eq (x0 : (⟨S8192x64, .f32⟩ : BufTy).Contents (Elt Ideal)) (x2 : (⟨S8192x8192, .f32⟩ : BufTy).Contents (Elt Ideal)) (x3 : (⟨S8192x16, .f32⟩ : BufTy).Contents (Elt Ideal)) (x4 : (⟨S64x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S80x128, .f32⟩ : BufTy).Contents (Elt Ideal)) (x11 : (⟨S128, .f32⟩ : BufTy).Contents (Elt Ideal)) (x12 : (⟨S128x64, .f32⟩ : BufTy).Contents (Elt Ideal)) (x13 : (⟨S64, .f32⟩ : BufTy).Contents (Elt Ideal)) (x14 : (⟨S64x1, .f32⟩ : BufTy).Contents (Elt Ideal)) (x15 : (⟨S1, .f32⟩ : BufTy).Contents (Elt Ideal)) (i : S8192.Idx) :
    val_main_v31 (F := Ideal) x0 x2 x3 x4 x5 x6 x7 x8 x9 x10 x11 x12 x13 x14 x15 i = val_main_v30 (F := Ideal) x0 x2 x3 x4 x5 x6 x7 x8 x9 x10 x11 x12 x13 x14 x15 (ix2 (i 0) (0 : Fin 1)) := by
  rw [val_main_v31_apply, idx_v31]
  rfl

end Cert.ReferenceIdeal.RefValue

end
-- ==== Proof.RefValue.lean ====
/-
  The reference program's result at the extended reals is the network of the specification: the stages, each read entry by
  entry in its own module, composed; and the program's run restated with that value.
-/
import proofs.«144529_j62285615727119_2_alg».proof.Proof.RefIsFirst
import proofs.«144529_j62285615727119_2_alg».proof.Proof.RefIsLayer
import proofs.«144529_j62285615727119_2_alg».proof.Proof.RefIsEmb
import proofs.«144529_j62285615727119_2_alg».proof.Proof.RefIsJoin
import proofs.«144529_j62285615727119_2_alg».proof.Proof.RefIsHead

noncomputable section

namespace Cert.ReferenceIdeal.RefValue

open Cert.ReferenceIdeal Cert.ReferenceIdeal.Gen Cert.ReferenceIdeal.Read Cert.GraphCritic
open Idealize.ShloMosaic Idealize.ShloMosaic.TcCoe Idealize.SL.Sem Idealize.ShloMosaic.StableHlo Idealize.ShloMosaic.ValueIdx

/-- The reference's result vector, as a function of its fifteen float arguments, is the network's value. -/
theorem critic_eq (x0 : (⟨S8192x64, .f32⟩ : BufTy).Contents (Elt Ideal)) (x2 : (⟨S8192x8192, .f32⟩ : BufTy).Contents (Elt Ideal)) (x3 : (⟨S8192x16, .f32⟩ : BufTy).Contents (Elt Ideal)) (x4 : (⟨S64x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S80x128, .f32⟩ : BufTy).Contents (Elt Ideal)) (x11 : (⟨S128, .f32⟩ : BufTy).Contents (Elt Ideal)) (x12 : (⟨S128x64, .f32⟩ : BufTy).Contents (Elt Ideal)) (x13 : (⟨S64, .f32⟩ : BufTy).Contents (Elt Ideal)) (x14 : (⟨S64x1, .f32⟩ : BufTy).Contents (Elt Ideal)) (x15 : (⟨S1, .f32⟩ : BufTy).Contents (Elt Ideal)) :
    val_main_v31 (F := Ideal) x0 x2 x3 x4 x5 x6 x7 x8 x9 x10 x11 x12 x13 x14 x15 = critic x0 x2 x3 x4 x5 x6 x7 x8 x9 x10 x11 x12 x13 x14 x15 := by
  funext i
  rw [result_eq, value_eq, hidden_eq, join_eq, emb_eq, layer_eq, first_eq]
  rfl

/-- Every weakly fair execution of the reference terminates with its result at the network's value of the arguments and
    the arguments unchanged. -/
theorem run_critic (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v31) = critic (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c).1.trans ((val_main_v31_eq _ _ _ _ _ _ _ _ _ _ _ _ _ _ _).trans (critic_eq _ _ _ _ _ _ _ _ _ _ _ _ _ _ _)), (h c).2⟩)
    (Value.run (F := Ideal) m ρ)

end Cert.ReferenceIdeal.RefValue

end
-- ==== Proof.lean ====
/-
  The certificate of a graph critic network computed by two fused aggregation kernels against its plain reference.

  Both programs compute, on the extended reals, the function `Cert.GraphCritic.critic` of the argument arrays
  (Proof/Spec.lean): two rounds of "aggregate with the adjacency matrix, then a dense stage", followed by a small
  multilayer head on the embedding joined with the actions.
  * The kernel program tiles each aggregation over a (4, 8) grid: a 2048-row block of the product A · x is accumulated in a
    scratch buffer over the eight 1024-column blocks of A, and at the last block the dense stage (first kernel) or the whole
    head (second kernel) is applied and the block of the result written. Block by block accumulation from zero equals the
    whole contraction because addition of extended reals is associative and commutative; the head's first product splits
    over the two row blocks of its weight because a sum over 64 + 16 terms is the sum of the two partial sums.
  * The reference is the same chain of host operations on whole arrays, the concatenation made explicitly.
  No law used needs a finite entry, so the precondition is never opened. Every format change is the identity at the
  ideal instance and the idealization rewrote nothing, so the word-level kernel is related to its idealization trivially.
  The three frames: the kernel program at either instance runs as host stretches around its two regions, each region a
  segment between two valuations of the unscoped buffers (Proof/K, Proof/KI); the reference is its generated run.
-/
import proofs.«144529_j62285615727119_2_alg».proof.Defs
import proofs.«144529_j62285615727119_2_alg».proof.Proof.Gen.Kernel
import proofs.«144529_j62285615727119_2_alg».proof.Proof.Gen.KernelIdeal
import proofs.«144529_j62285615727119_2_alg».proof.Proof.Gen.ReferenceIdeal
import proofs.«144529_j62285615727119_2_alg».proof.Proof.Gen.Pre_finite_inputs
import proofs.«144529_j62285615727119_2_alg».proof.Proof.K.Assembly
import proofs.«144529_j62285615727119_2_alg».proof.Proof.KI.Final
import proofs.«144529_j62285615727119_2_alg».proof.Proof.RefValue
import Idealize.ShloMosaic.Adequacy
import Idealize.ShloMosaic.Init

noncomputable section

namespace Cert.Proof

open Idealize.ShloMosaic Idealize.SL.Sem

/-- The word-level kernel program runs to its end and leaves its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference's frame is its run with the result dropped. -/
theorem frame_r : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run_critic m ρ)

/-- Both idealized programs end with the critic's values of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.GraphCritic.critic (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), Cert.KernelIdeal.HandValue.run_value m ρ, ?_⟩
  refine (θ_run Cert.ReferenceIdeal.defs _ _).mono (fun _ h c => ⟨(h c).1.trans ?_, (h c).2⟩)
    (Cert.ReferenceIdeal.RefValue.run_critic m' ρ')
  obtain ⟨h0, h1, h2, h3, h4, h5, h6, h7, h8, h9, h10, h11, h12, h13, h14, h15⟩ := hagree c
  rw [h0, h2, h3, h4, h5, h6, h7, h8, h9, h10, h11, h12, h13, h14, h15]

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
